-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5x32x256 : Shape := ⟨3, ![5, 32, 256]⟩
abbrev S1x256 : Shape := ⟨2, ![1, 256]⟩
abbrev S5x128x256 : Shape := ⟨3, ![5, 128, 256]⟩
abbrev S5x128x128 : Shape := ⟨3, ![5, 128, 128]⟩
abbrev S1x128 : Shape := ⟨2, ![1, 128]⟩
abbrev S128x128 : Shape := ⟨2, ![128, 128]⟩
abbrev S8192x1x32x32 : Shape := ⟨4, ![8192, 1, 32, 32]⟩
abbrev S_ : Shape := ⟨0, ![]⟩

class Facts : Prop where
  bcast_S_S5x32x256 : S_.BroadcastsInDim S5x32x256 (![] : Fin 0 → Fin S5x32x256.rank)
  reducesTo_S5x32x256_S_d0_1_2 : S5x32x256.ReducesTo [0, 1, 2] S_
  h_S_ : 0 < S_.numel
  bcast_S_S1x256 : S_.BroadcastsInDim S1x256 (![] : Fin 0 → Fin S1x256.rank)
  reducesTo_S1x256_S_d0_1 : S1x256.ReducesTo [0, 1] S_
  bcast_S_S5x128x256 : S_.BroadcastsInDim S5x128x256 (![] : Fin 0 → Fin S5x128x256.rank)
  reducesTo_S5x128x256_S_d0_1_2 : S5x128x256.ReducesTo [0, 1, 2] S_
  bcast_S_S5x128x128 : S_.BroadcastsInDim S5x128x128 (![] : Fin 0 → Fin S5x128x128.rank)
  reducesTo_S5x128x128_S_d0_1_2 : S5x128x128.ReducesTo [0, 1, 2] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  bcast_S_S8192x1x32x32 : S_.BroadcastsInDim S8192x1x32x32 (![] : Fin 0 → Fin S8192x1x32x32.rank)
  reducesTo_S8192x1x32x32_S_d0_1_2_3 : S8192x1x32x32.ReducesTo [0, 1, 2, 3] S_

variable [Facts]

def fn_part3 {F : FTy → Type} [FloatOps F] (main_v48 : IVec S_ 1) (main_v49 : FVec F S8192x1x32x32 .f32) (main_v50 : FVec F S8192x1x32x32 .f32) : IVec S_ 1 :=
  let main_v51 : IVec S8192x1x32x32 1 := cmpf .olt main_v49 main_v50
  let main_c_19 : IVec S_ 1 := constantI S_ 1 1#1
  let main_v52 : IVec S_ 1 := (fun x v => Host.reduce IntOp.andi x v reducesTo_S8192x1x32x32_S_d0_1_2_3 h_S_) main_v51 main_c_19
  let main_v53 : IVec S_ 1 := andi main_v48 main_v52
  main_v53

def fn_part2 {F : FTy → Type} [FloatOps F] (main_arg7 : FVec F S1x128 .f32) (main_arg8 : FVec F S128x128 .f32) (main_arg9 : FVec F S1x128 .f32) (main_arg10 : FVec F S8192x1x32x32 .f32) (main_v33 : IVec S_ 1) : IVec S_ 1 :=
  let main_v34 : FVec F S1x128 .f32 := Host.absf main_arg7
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S1x128 .f32 := Host.absf main_arg9
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S8192x1x32x32 .f32 := Host.absf main_arg10
  let main_cst_18 : FVec F S_ .f32 := constant S_ .f32 0x7F800000#32
  let main_v50 : FVec F S8192x1x32x32 .f32 := broadcastInDim S8192x1x32x32 ![] bcast_S_S8192x1x32x32 main_cst_18
  fn_part3 (F := F) main_v48 main_v49 main_v50

def fn_part1 {F : FTy → Type} [FloatOps F] (main_arg4 : FVec F S5x128x128 .f32) (main_arg5 : FVec F S1x128 .f32) (main_arg6 : FVec F S128x128 .f32) (main_arg7 : FVec F S1x128 .f32) (main_arg8 : FVec F S128x128 .f32) (main_arg9 : FVec F S1x128 .f32) (main_arg10 : FVec F S8192x1x32x32 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S5x128x128 .f32 := Host.absf main_arg4
  let main_cst_6 : FVec F S_ .f32 := constant S_ .f32 0x7F800000#32
  let main_v20 : FVec F S5x128x128 .f32 := broadcastInDim S5x128x128 ![] bcast_S_S5x128x128 main_cst_6
  let main_v21 : IVec S5x128x128 1 := cmpf .olt main_v19 main_v20
  let main_c_7 : IVec S_ 1 := constantI S_ 1 1#1
  let main_v22 : IVec S_ 1 := (fun x v => Host.reduce IntOp.andi x v reducesTo_S5x128x128_S_d0_1_2 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S5x32x256 .f32) (main_arg1 : FVec F S1x256 .f32) (main_arg2 : FVec F S5x128x256 .f32) (main_arg3 : FVec F S1x256 .f32) (main_arg4 : FVec F S5x128x128 .f32) (main_arg5 : FVec F S1x128 .f32) (main_arg6 : FVec F S128x128 .f32) (main_arg7 : FVec F S1x128 .f32) (main_arg8 : FVec F S128x128 .f32) (main_arg9 : FVec F S1x128 .f32) (main_arg10 : FVec F S8192x1x32x32 .f32) : IVec S_ 1 :=
  let main_v0 : FVec F S5x32x256 .f32 := Host.absf main_arg0
  let main_cst : FVec F S_ .f32 := constant S_ .f32 0x7F800000#32
  let main_v1 : FVec F S5x32x256 .f32 := broadcastInDim S5x32x256 ![] bcast_S_S5x32x256 main_cst
  let main_v2 : IVec S5x32x256 1 := cmpf .olt main_v0 main_v1
  let main_c : IVec S_ 1 := constantI S_ 1 1#1
  let main_v3 : IVec S_ 1 := (fun x v => Host.reduce IntOp.andi x v reducesTo_S5x32x256_S_d0_1_2 h_S_) main_v2 main_c
  let main_v4 : FVec F S1x256 .f32 := Host.absf main_arg1
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S5x128x256 .f32 := Host.absf main_arg2
  let main_cst_2 : FVec F S_ .f32 := constant S_ .f32 0x7F800000#32
  let main_v10 : FVec F S5x128x256 .f32 := broadcastInDim S5x128x256 ![] bcast_S_S5x128x256 main_cst_2
  let main_v11 : IVec S5x128x256 1 := cmpf .olt main_v9 main_v10
  let main_c_3 : IVec S_ 1 := constantI S_ 1 1#1
  let main_v12 : IVec S_ 1 := (fun x v => Host.reduce IntOp.andi x v reducesTo_S5x128x256_S_d0_1_2 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_arg5 main_arg6 main_arg7 main_arg8 main_arg9 main_arg10 main_v13 main_v16
-- ==== Kernel.lean ====
abbrev S5x32x256 : Shape := ⟨3, ![5, 32, 256]⟩
abbrev S1x256 : Shape := ⟨2, ![1, 256]⟩
abbrev S5x128x256 : Shape := ⟨3, ![5, 128, 256]⟩
abbrev S5x128x128 : Shape := ⟨3, ![5, 128, 128]⟩
abbrev S1x128 : Shape := ⟨2, ![1, 128]⟩
abbrev S128x128 : Shape := ⟨2, ![128, 128]⟩
abbrev S8192x1x32x32 : Shape := ⟨4, ![8192, 1, 32, 32]⟩
abbrev S8192x1024 : Shape := ⟨2, ![8192, 1024]⟩
abbrev S8192x10 : Shape := ⟨2, ![8192, 10]⟩
abbrev S1024x1024 : Shape := ⟨2, ![1024, 1024]⟩
abbrev S1024x10 : Shape := ⟨2, ![1024, 10]⟩
abbrev S2x256x512 : Shape := ⟨3, ![2, 256, 512]⟩
abbrev S2x512x512 : Shape := ⟨3, ![2, 512, 512]⟩
abbrev S3x256x128 : Shape := ⟨3, ![3, 256, 128]⟩
abbrev S1x32x256 : Shape := ⟨3, ![1, 32, 256]⟩
abbrev S32x256 : Shape := ⟨2, ![32, 256]⟩
abbrev S1x128x256 : Shape := ⟨3, ![1, 128, 256]⟩
abbrev S128x256 : Shape := ⟨2, ![128, 256]⟩
abbrev S1x128x128 : Shape := ⟨3, ![1, 128, 128]⟩
abbrev S4096x256 : Shape := ⟨2, ![4096, 256]⟩
abbrev S4095x256 : Shape := ⟨2, ![4095, 256]⟩
abbrev S1x256x512 : Shape := ⟨3, ![1, 256, 512]⟩
abbrev S256x512 : Shape := ⟨2, ![256, 512]⟩
abbrev S4096x512 : Shape := ⟨2, ![4096, 512]⟩
abbrev S4096x128 : Shape := ⟨2, ![4096, 128]⟩
abbrev S1x512 : Shape := ⟨2, ![1, 512]⟩
abbrev S4095x512 : Shape := ⟨2, ![4095, 512]⟩
abbrev S1x512x512 : Shape := ⟨3, ![1, 512, 512]⟩
abbrev S512x512 : Shape := ⟨2, ![512, 512]⟩
abbrev S1x256x128 : Shape := ⟨3, ![1, 256, 128]⟩
abbrev S256x128 : Shape := ⟨2, ![256, 128]⟩
abbrev S2x256 : Shape := ⟨2, ![2, 256]⟩
abbrev S4094x256 : Shape := ⟨2, ![4094, 256]⟩
abbrev S1024x512 : Shape := ⟨2, ![1024, 512]⟩
abbrev S1024x128 : Shape := ⟨2, ![1024, 128]⟩

abbrev nBuf : Space → Nat
  | .hbm => 13
  | .vmem => 22
  | .smem => 0
  | _ => 0

abbrev bufTy : (tb : Table) → Fin (tcTables nBuf tb) → BufTy
  | .hbm, ⟨0, _⟩ => ⟨S5x32x256, .f32⟩
  | .hbm, ⟨1, _⟩ => ⟨S1x256, .f32⟩
  | .hbm, ⟨2, _⟩ => ⟨S5x128x256, .f32⟩
  | .hbm, ⟨3, _⟩ => ⟨S1x256, .f32⟩
  | .hbm, ⟨4, _⟩ => ⟨S5x128x128, .f32⟩
  | .hbm, ⟨5, _⟩ => ⟨S1x128, .f32⟩
  | .hbm, ⟨6, _⟩ => ⟨S128x128, .f32⟩
  | .hbm, ⟨7, _⟩ => ⟨S1x128, .f32⟩
  | .hbm, ⟨8, _⟩ => ⟨S128x128, .f32⟩
  | .hbm, ⟨9, _⟩ => ⟨S1x128, .f32⟩
  | .hbm, ⟨10, _⟩ => ⟨S8192x1x32x32, .f32⟩
  | .hbm, ⟨11, _⟩ => ⟨S8192x1024, .f32⟩
  | .hbm, ⟨12, _⟩ => ⟨S8192x10, .f32⟩
  | .local _ .vmem, ⟨0, _⟩ => ⟨S1024x1024, .f32⟩
  | .local _ .vmem, ⟨1, _⟩ => ⟨S1024x1024, .f32⟩
  | .local _ .vmem, ⟨2, _⟩ => ⟨S5x32x256, .f32⟩
  | .local _ .vmem, ⟨3, _⟩ => ⟨S5x128x256, .f32⟩
  | .local _ .vmem, ⟨4, _⟩ => ⟨S5x128x128, .f32⟩
  | .local _ .vmem, ⟨5, _⟩ => ⟨S1x256, .f32⟩
  | .local _ .vmem, ⟨6, _⟩ => ⟨S1x256, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1024x10, .f32⟩
  | .local _ .vmem, ⟨13, _⟩ => ⟨S1024x10, .f32⟩
  | .local _ .vmem, ⟨14, _⟩ => ⟨S2x256x512, .bf16⟩
  | .local _ .vmem, ⟨15, _⟩ => ⟨S2x256x512, .bf16⟩
  | .local _ .vmem, ⟨16, _⟩ => ⟨S2x256x512, .bf16⟩
  | .local _ .vmem, ⟨17, _⟩ => ⟨S2x512x512, .bf16⟩
  | .local _ .vmem, ⟨18, _⟩ => ⟨S2x512x512, .bf16⟩
  | .local _ .vmem, ⟨19, _⟩ => ⟨S3x256x128, .bf16⟩
  | .local _ .vmem, ⟨20, _⟩ => ⟨S128x128, .bf16⟩
  | .local _ .vmem, ⟨21, _⟩ => ⟨S128x128, .bf16⟩
  | _, _ => ⟨S5x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8192x1x32x32_S8192x1024 : S8192x1x32x32.ShapeCasts S8192x1024
  inb_S2x256x512_S2x256x512_0_0_0 : ∀ a, (![0, 0, 0] : Fin 3 → Nat) a + S2x256x512.size a ≤ S2x256x512.size a
  h_S2x256x512 : 0 < S2x256x512.numel
  shapeCasts_S2x256x512_S2x256x512 : S2x256x512.ShapeCasts S2x256x512
  packedbf16_S2x256x512_S2x256x512_0_0_0 : (Rect.unit (s := S2x256x512) ![0, 0, 0] S2x256x512.size inb_S2x256x512_S2x256x512_0_0_0).PackedRows (EltTy.packing .bf16)
  inb_S2x512x512_S2x512x512_0_0_0 : ∀ a, (![0, 0, 0] : Fin 3 → Nat) a + S2x512x512.size a ≤ S2x512x512.size a
  h_S2x512x512 : 0 < S2x512x512.numel
  shapeCasts_S2x512x512_S2x512x512 : S2x512x512.ShapeCasts S2x512x512
  packedbf16_S2x512x512_S2x512x512_0_0_0 : (Rect.unit (s := S2x512x512) ![0, 0, 0] S2x512x512.size inb_S2x512x512_S2x512x512_0_0_0).PackedRows (EltTy.packing .bf16)
  inb_S3x256x128_S3x256x128_0_0_0 : ∀ a, (![0, 0, 0] : Fin 3 → Nat) a + S3x256x128.size a ≤ S3x256x128.size a
  h_S3x256x128 : 0 < S3x256x128.numel
  shapeCasts_S3x256x128_S3x256x128 : S3x256x128.ShapeCasts S3x256x128
  packedbf16_S3x256x128_S3x256x128_0_0_0 : (Rect.unit (s := S3x256x128) ![0, 0, 0] S3x256x128.size inb_S3x256x128_S3x256x128_0_0_0).PackedRows (EltTy.packing .bf16)
  inb_S5x32x256_S5x32x256_0_0_0 : ∀ a, (![0, 0, 0] : Fin 3 → Nat) a + S5x32x256.size a ≤ S5x32x256.size a
  h_S5x32x256 : 0 < S5x32x256.numel
  bitsLt_bf16_f32 : FTy.bits .bf16 < FTy.bits .f32
  inb_S5x128x256_S5x128x256_0_0_0 : ∀ a, (![0, 0, 0] : Fin 3 → Nat) a + S5x128x256.size a ≤ S5x128x256.size a
  h_S5x128x256 : 0 < S5x128x256.numel
  inb_S5x128x128_S5x128x128_0_0_0 : ∀ a, (![0, 0, 0] : Fin 3 → Nat) a + S5x128x128.size a ≤ S5x128x128.size a
  h_S5x128x128 : 0 < S5x128x128.numel
  slices_S5x32x256_o0_0_0_S1x32x256 : S5x32x256.Slices ![0, 0, 0] S1x32x256
  shapeCasts_S1x32x256_S32x256 : S1x32x256.ShapeCasts S32x256
  inb_S2x256x512_S1x32x256_0_0_0 : ∀ a, (![0, 0, 0] : Fin 3 → Nat) a + S1x32x256.size a ≤ S2x256x512.size a
  h_S1x32x256 : 0 < S1x32x256.numel
  shapeCasts_S32x256_S1x32x256 : S32x256.ShapeCasts S1x32x256
  packedbf16_S2x256x512_S1x32x256_0_0_0 : (Rect.unit (s := S2x256x512) ![0, 0, 0] S1x32x256.size inb_S2x256x512_S1x32x256_0_0_0).PackedRows (EltTy.packing .bf16)
  slices_S5x32x256_o1_0_0_S1x32x256 : S5x32x256.Slices ![1, 0, 0] S1x32x256
  inb_S2x256x512_S1x32x256_0_32_0 : ∀ a, (![0, 32, 0] : Fin 3 → Nat) a + S1x32x256.size a ≤ S2x256x512.size a
  packedbf16_S2x256x512_S1x32x256_0_32_0 : (Rect.unit (s := S2x256x512) ![0, 32, 0] S1x32x256.size inb_S2x256x512_S1x32x256_0_32_0).PackedRows (EltTy.packing .bf16)
  slices_S5x32x256_o2_0_0_S1x32x256 : S5x32x256.Slices ![2, 0, 0] S1x32x256
  inb_S2x256x512_S1x32x256_0_64_0 : ∀ a, (![0, 64, 0] : Fin 3 → Nat) a + S1x32x256.size a ≤ S2x256x512.size a
  packedbf16_S2x256x512_S1x32x256_0_64_0 : (Rect.unit (s := S2x256x512) ![0, 64, 0] S1x32x256.size inb_S2x256x512_S1x32x256_0_64_0).PackedRows (EltTy.packing .bf16)
  slices_S5x32x256_o3_0_0_S1x32x256 : S5x32x256.Slices ![3, 0, 0] S1x32x256
  inb_S2x256x512_S1x32x256_0_96_0 : ∀ a, (![0, 96, 0] : Fin 3 → Nat) a + S1x32x256.size a ≤ S2x256x512.size a
  packedbf16_S2x256x512_S1x32x256_0_96_0 : (Rect.unit (s := S2x256x512) ![0, 96, 0] S1x32x256.size inb_S2x256x512_S1x32x256_0_96_0).PackedRows (EltTy.packing .bf16)
  slices_S5x32x256_o4_0_0_S1x32x256 : S5x32x256.Slices ![4, 0, 0] S1x32x256
  inb_S2x256x512_S1x32x256_0_128_0 : ∀ a, (![0, 128, 0] : Fin 3 → Nat) a + S1x32x256.size a ≤ S2x256x512.size a
  packedbf16_S2x256x512_S1x32x256_0_128_0 : (Rect.unit (s := S2x256x512) ![0, 128, 0] S1x32x256.size inb_S2x256x512_S1x32x256_0_128_0).PackedRows (EltTy.packing .bf16)
  inb_S2x256x512_S1x32x256_0_160_0 : ∀ a, (![0, 160, 0] : Fin 3 → Nat) a + S1x32x256.size a ≤ S2x256x512.size a
  packedbf16_S2x256x512_S1x32x256_0_160_0 : (Rect.unit (s := S2x256x512) ![0, 160, 0] S1x32x256.size inb_S2x256x512_S1x32x256_0_160_0).PackedRows (EltTy.packing .bf16)
  inb_S2x256x512_S1x32x256_0_192_0 : ∀ a, (![0, 192, 0] : Fin 3 → Nat) a + S1x32x256.size a ≤ S2x256x512.size a
  packedbf16_S2x256x512_S1x32x256_0_192_0 : (Rect.unit (s := S2x256x512) ![0, 192, 0] S1x32x256.size inb_S2x256x512_S1x32x256_0_192_0).PackedRows (EltTy.packing .bf16)
  inb_S2x256x512_S1x32x256_0_224_0 : ∀ a, (![0, 224, 0] : Fin 3 → Nat) a + S1x32x256.size a ≤ S2x256x512.size a
  packedbf16_S2x256x512_S1x32x256_0_224_0 : (Rect.unit (s := S2x256x512) ![0, 224, 0] S1x32x256.size inb_S2x256x512_S1x32x256_0_224_0).PackedRows (EltTy.packing .bf16)
  slices_S5x128x256_o0_0_0_S1x128x256 : S5x128x256.Slices ![0, 0, 0] S1x128x256
  shapeCasts_S1x128x256_S128x256 : S1x128x256.ShapeCasts S128x256
  inb_S2x512x512_S1x128x256_0_0_0 : ∀ a, (![0, 0, 0] : Fin 3 → Nat) a + S1x128x256.size a ≤ S2x512x512.size a
  h_S1x128x256 : 0 < S1x128x256.numel
  shapeCasts_S128x256_S1x128x256 : S128x256.ShapeCasts S1x128x256
  packedbf16_S2x512x512_S1x128x256_0_0_0 : (Rect.unit (s := S2x512x512) ![0, 0, 0] S1x128x256.size inb_S2x512x512_S1x128x256_0_0_0).PackedRows (EltTy.packing .bf16)
  slices_S5x128x256_o1_0_0_S1x128x256 : S5x128x256.Slices ![1, 0, 0] S1x128x256
  inb_S2x512x512_S1x128x256_0_128_0 : ∀ a, (![0, 128, 0] : Fin 3 → Nat) a + S1x128x256.size a ≤ S2x512x512.size a
  packedbf16_S2x512x512_S1x128x256_0_128_0 : (Rect.unit (s := S2x512x512) ![0, 128, 0] S1x128x256.size inb_S2x512x512_S1x128x256_0_128_0).PackedRows (EltTy.packing .bf16)
  slices_S5x128x256_o2_0_0_S1x128x256 : S5x128x256.Slices ![2, 0, 0] S1x128x256
  inb_S2x512x512_S1x128x256_0_256_0 : ∀ a, (![0, 256, 0] : Fin 3 → Nat) a + S1x128x256.size a ≤ S2x512x512.size a
  packedbf16_S2x512x512_S1x128x256_0_256_0 : (Rect.unit (s := S2x512x512) ![0, 256, 0] S1x128x256.size inb_S2x512x512_S1x128x256_0_256_0).PackedRows (EltTy.packing .bf16)
  slices_S5x128x256_o3_0_0_S1x128x256 : S5x128x256.Slices ![3, 0, 0] S1x128x256
  inb_S2x512x512_S1x128x256_0_384_0 : ∀ a, (![0, 384, 0] : Fin 3 → Nat) a + S1x128x256.size a ≤ S2x512x512.size a
  packedbf16_S2x512x512_S1x128x256_0_384_0 : (Rect.unit (s := S2x512x512) ![0, 384, 0] S1x128x256.size inb_S2x512x512_S1x128x256_0_384_0).PackedRows (EltTy.packing .bf16)
  slices_S5x128x256_o4_0_0_S1x128x256 : S5x128x256.Slices ![4, 0, 0] S1x128x256
  inb_S2x256x512_S1x32x256_0_32_256 : ∀ a, (![0, 32, 256] : Fin 3 → Nat) a + S1x32x256.size a ≤ S2x256x512.size a
  packedbf16_S2x256x512_S1x32x256_0_32_256 : (Rect.unit (s := S2x256x512) ![0, 32, 256] S1x32x256.size inb_S2x256x512_S1x32x256_0_32_256).PackedRows (EltTy.packing .bf16)
  inb_S2x256x512_S1x32x256_0_64_256 : ∀ a, (![0, 64, 256] : Fin 3 → Nat) a + S1x32x256.size a ≤ S2x256x512.size a
  packedbf16_S2x256x512_S1x32x256_0_64_256 : (Rect.unit (s := S2x256x512) ![0, 64, 256] S1x32x256.size inb_S2x256x512_S1x32x256_0_64_256).PackedRows (EltTy.packing .bf16)
  inb_S2x256x512_S1x32x256_0_96_256 : ∀ a, (![0, 96, 256] : Fin 3 → Nat) a + S1x32x256.size a ≤ S2x256x512.size a
  packedbf16_S2x256x512_S1x32x256_0_96_256 : (Rect.unit (s := S2x256x512) ![0, 96, 256] S1x32x256.size inb_S2x256x512_S1x32x256_0_96_256).PackedRows (EltTy.packing .bf16)
  inb_S2x256x512_S1x32x256_0_128_256 : ∀ a, (![0, 128, 256] : Fin 3 → Nat) a + S1x32x256.size a ≤ S2x256x512.size a
  packedbf16_S2x256x512_S1x32x256_0_128_256 : (Rect.unit (s := S2x256x512) ![0, 128, 256] S1x32x256.size inb_S2x256x512_S1x32x256_0_128_256).PackedRows (EltTy.packing .bf16)
  inb_S2x256x512_S1x32x256_0_160_256 : ∀ a, (![0, 160, 256] : Fin 3 → Nat) a + S1x32x256.size a ≤ S2x256x512.size a
  packedbf16_S2x256x512_S1x32x256_0_160_256 : (Rect.unit (s := S2x256x512) ![0, 160, 256] S1x32x256.size inb_S2x256x512_S1x32x256_0_160_256).PackedRows (EltTy.packing .bf16)
  inb_S2x256x512_S1x32x256_0_192_256 : ∀ a, (![0, 192, 256] : Fin 3 → Nat) a + S1x32x256.size a ≤ S2x256x512.size a
  packedbf16_S2x256x512_S1x32x256_0_192_256 : (Rect.unit (s := S2x256x512) ![0, 192, 256] S1x32x256.size inb_S2x256x512_S1x32x256_0_192_256).PackedRows (EltTy.packing .bf16)
  inb_S2x256x512_S1x32x256_0_224_256 : ∀ a, (![0, 224, 256] : Fin 3 → Nat) a + S1x32x256.size a ≤ S2x256x512.size a
  packedbf16_S2x256x512_S1x32x256_0_224_256 : (Rect.unit (s := S2x256x512) ![0, 224, 256] S1x32x256.size inb_S2x256x512_S1x32x256_0_224_256).PackedRows (EltTy.packing .bf16)
  inb_S2x256x512_S1x32x256_0_0_256 : ∀ a, (![0, 0, 256] : Fin 3 → Nat) a + S1x32x256.size a ≤ S2x256x512.size a
  packedbf16_S2x256x512_S1x32x256_0_0_256 : (Rect.unit (s := S2x256x512) ![0, 0, 256] S1x32x256.size inb_S2x256x512_S1x32x256_0_0_256).PackedRows (EltTy.packing .bf16)
  inb_S2x512x512_S1x128x256_0_128_256 : ∀ a, (![0, 128, 256] : Fin 3 → Nat) a + S1x128x256.size a ≤ S2x512x512.size a
  packedbf16_S2x512x512_S1x128x256_0_128_256 : (Rect.unit (s := S2x512x512) ![0, 128, 256] S1x128x256.size inb_S2x512x512_S1x128x256_0_128_256).PackedRows (EltTy.packing .bf16)
  inb_S2x512x512_S1x128x256_0_256_256 : ∀ a, (![0, 256, 256] : Fin 3 → Nat) a + S1x128x256.size a ≤ S2x512x512.size a
  packedbf16_S2x512x512_S1x128x256_0_256_256 : (Rect.unit (s := S2x512x512) ![0, 256, 256] S1x128x256.size inb_S2x512x512_S1x128x256_0_256_256).PackedRows (EltTy.packing .bf16)
  inb_S2x512x512_S1x128x256_0_384_256 : ∀ a, (![0, 384, 256] : Fin 3 → Nat) a + S1x128x256.size a ≤ S2x512x512.size a
  packedbf16_S2x512x512_S1x128x256_0_384_256 : (Rect.unit (s := S2x512x512) ![0, 384, 256] S1x128x256.size inb_S2x512x512_S1x128x256_0_384_256).PackedRows (EltTy.packing .bf16)
  inb_S2x512x512_S1x128x256_0_0_256 : ∀ a, (![0, 0, 256] : Fin 3 → Nat) a + S1x128x256.size a ≤ S2x512x512.size a
  packedbf16_S2x512x512_S1x128x256_0_0_256 : (Rect.unit (s := S2x512x512) ![0, 0, 256] S1x128x256.size inb_S2x512x512_S1x128x256_0_0_256).PackedRows (EltTy.packing .bf16)
  inb_S2x256x512_S1x32x256_1_64_0 : ∀ a, (![1, 64, 0] : Fin 3 → Nat) a + S1x32x256.size a ≤ S2x256x512.size a
  packedbf16_S2x256x512_S1x32x256_1_64_0 : (Rect.unit (s := S2x256x512) ![1, 64, 0] S1x32x256.size inb_S2x256x512_S1x32x256_1_64_0).PackedRows (EltTy.packing .bf16)
  inb_S2x256x512_S1x32x256_1_96_0 : ∀ a, (![1, 96, 0] : Fin 3 → Nat) a + S1x32x256.size a ≤ S2x256x512.size a
  packedbf16_S2x256x512_S1x32x256_1_96_0 : (Rect.unit (s := S2x256x512) ![1, 96, 0] S1x32x256.size inb_S2x256x512_S1x32x256_1_96_0).PackedRows (EltTy.packing .bf16)
  inb_S2x256x512_S1x32x256_1_128_0 : ∀ a, (![1, 128, 0] : Fin 3 → Nat) a + S1x32x256.size a ≤ S2x256x512.size a
  packedbf16_S2x256x512_S1x32x256_1_128_0 : (Rect.unit (s := S2x256x512) ![1, 128, 0] S1x32x256.size inb_S2x256x512_S1x32x256_1_128_0).PackedRows (EltTy.packing .bf16)
  inb_S2x256x512_S1x32x256_1_160_0 : ∀ a, (![1, 160, 0] : Fin 3 → Nat) a + S1x32x256.size a ≤ S2x256x512.size a
  packedbf16_S2x256x512_S1x32x256_1_160_0 : (Rect.unit (s := S2x256x512) ![1, 160, 0] S1x32x256.size inb_S2x256x512_S1x32x256_1_160_0).PackedRows (EltTy.packing .bf16)
  inb_S2x256x512_S1x32x256_1_192_0 : ∀ a, (![1, 192, 0] : Fin 3 → Nat) a + S1x32x256.size a ≤ S2x256x512.size a
  packedbf16_S2x256x512_S1x32x256_1_192_0 : (Rect.unit (s := S2x256x512) ![1, 192, 0] S1x32x256.size inb_S2x256x512_S1x32x256_1_192_0).PackedRows (EltTy.packing .bf16)
  inb_S2x256x512_S1x32x256_1_224_0 : ∀ a, (![1, 224, 0] : Fin 3 → Nat) a + S1x32x256.size a ≤ S2x256x512.size a
  packedbf16_S2x256x512_S1x32x256_1_224_0 : (Rect.unit (s := S2x256x512) ![1, 224, 0] S1x32x256.size inb_S2x256x512_S1x32x256_1_224_0).PackedRows (EltTy.packing .bf16)
  inb_S2x256x512_S1x32x256_1_0_0 : ∀ a, (![1, 0, 0] : Fin 3 → Nat) a + S1x32x256.size a ≤ S2x256x512.size a
  packedbf16_S2x256x512_S1x32x256_1_0_0 : (Rect.unit (s := S2x256x512) ![1, 0, 0] S1x32x256.size inb_S2x256x512_S1x32x256_1_0_0).PackedRows (EltTy.packing .bf16)
  inb_S2x256x512_S1x32x256_1_32_0 : ∀ a, (![1, 32, 0] : Fin 3 → Nat) a + S1x32x256.size a ≤ S2x256x512.size a
  packedbf16_S2x256x512_S1x32x256_1_32_0 : (Rect.unit (s := S2x256x512) ![1, 32, 0] S1x32x256.size inb_S2x256x512_S1x32x256_1_32_0).PackedRows (EltTy.packing .bf16)
  inb_S2x512x512_S1x128x256_1_256_0 : ∀ a, (![1, 256, 0] : Fin 3 → Nat) a + S1x128x256.size a ≤ S2x512x512.size a
  packedbf16_S2x512x512_S1x128x256_1_256_0 : (Rect.unit (s := S2x512x512) ![1, 256, 0] S1x128x256.size inb_S2x512x512_S1x128x256_1_256_0).PackedRows (EltTy.packing .bf16)
  inb_S2x512x512_S1x128x256_1_384_0 : ∀ a, (![1, 384, 0] : Fin 3 → Nat) a + S1x128x256.size a ≤ S2x512x512.size a
  packedbf16_S2x512x512_S1x128x256_1_384_0 : (Rect.unit (s := S2x512x512) ![1, 384, 0] S1x128x256.size inb_S2x512x512_S1x128x256_1_384_0).PackedRows (EltTy.packing .bf16)
  inb_S2x512x512_S1x128x256_1_0_0 : ∀ a, (![1, 0, 0] : Fin 3 → Nat) a + S1x128x256.size a ≤ S2x512x512.size a
  packedbf16_S2x512x512_S1x128x256_1_0_0 : (Rect.unit (s := S2x512x512) ![1, 0, 0] S1x128x256.size inb_S2x512x512_S1x128x256_1_0_0).PackedRows (EltTy.packing .bf16)
  inb_S2x512x512_S1x128x256_1_128_0 : ∀ a, (![1, 128, 0] : Fin 3 → Nat) a + S1x128x256.size a ≤ S2x512x512.size a
  packedbf16_S2x512x512_S1x128x256_1_128_0 : (Rect.unit (s := S2x512x512) ![1, 128, 0] S1x128x256.size inb_S2x512x512_S1x128x256_1_128_0).PackedRows (EltTy.packing .bf16)
  inb_S2x256x512_S1x32x256_1_96_256 : ∀ a, (![1, 96, 256] : Fin 3 → Nat) a + S1x32x256.size a ≤ S2x256x512.size a
  packedbf16_S2x256x512_S1x32x256_1_96_256 : (Rect.unit (s := S2x256x512) ![1, 96, 256] S1x32x256.size inb_S2x256x512_S1x32x256_1_96_256).PackedRows (EltTy.packing .bf16)
  inb_S2x256x512_S1x32x256_1_128_256 : ∀ a, (![1, 128, 256] : Fin 3 → Nat) a + S1x32x256.size a ≤ S2x256x512.size a
  packedbf16_S2x256x512_S1x32x256_1_128_256 : (Rect.unit (s := S2x256x512) ![1, 128, 256] S1x32x256.size inb_S2x256x512_S1x32x256_1_128_256).PackedRows (EltTy.packing .bf16)
  inb_S2x256x512_S1x32x256_1_160_256 : ∀ a, (![1, 160, 256] : Fin 3 → Nat) a + S1x32x256.size a ≤ S2x256x512.size a
  packedbf16_S2x256x512_S1x32x256_1_160_256 : (Rect.unit (s := S2x256x512) ![1, 160, 256] S1x32x256.size inb_S2x256x512_S1x32x256_1_160_256).PackedRows (EltTy.packing .bf16)
  inb_S2x256x512_S1x32x256_1_192_256 : ∀ a, (![1, 192, 256] : Fin 3 → Nat) a + S1x32x256.size a ≤ S2x256x512.size a
  packedbf16_S2x256x512_S1x32x256_1_192_256 : (Rect.unit (s := S2x256x512) ![1, 192, 256] S1x32x256.size inb_S2x256x512_S1x32x256_1_192_256).PackedRows (EltTy.packing .bf16)
  inb_S2x256x512_S1x32x256_1_224_256 : ∀ a, (![1, 224, 256] : Fin 3 → Nat) a + S1x32x256.size a ≤ S2x256x512.size a
  packedbf16_S2x256x512_S1x32x256_1_224_256 : (Rect.unit (s := S2x256x512) ![1, 224, 256] S1x32x256.size inb_S2x256x512_S1x32x256_1_224_256).PackedRows (EltTy.packing .bf16)
  inb_S2x256x512_S1x32x256_1_0_256 : ∀ a, (![1, 0, 256] : Fin 3 → Nat) a + S1x32x256.size a ≤ S2x256x512.size a
  packedbf16_S2x256x512_S1x32x256_1_0_256 : (Rect.unit (s := S2x256x512) ![1, 0, 256] S1x32x256.size inb_S2x256x512_S1x32x256_1_0_256).PackedRows (EltTy.packing .bf16)
  inb_S2x256x512_S1x32x256_1_32_256 : ∀ a, (![1, 32, 256] : Fin 3 → Nat) a + S1x32x256.size a ≤ S2x256x512.size a
  packedbf16_S2x256x512_S1x32x256_1_32_256 : (Rect.unit (s := S2x256x512) ![1, 32, 256] S1x32x256.size inb_S2x256x512_S1x32x256_1_32_256).PackedRows (EltTy.packing .bf16)
  inb_S2x256x512_S1x32x256_1_64_256 : ∀ a, (![1, 64, 256] : Fin 3 → Nat) a + S1x32x256.size a ≤ S2x256x512.size a
  packedbf16_S2x256x512_S1x32x256_1_64_256 : (Rect.unit (s := S2x256x512) ![1, 64, 256] S1x32x256.size inb_S2x256x512_S1x32x256_1_64_256).PackedRows (EltTy.packing .bf16)
  inb_S2x512x512_S1x128x256_1_384_256 : ∀ a, (![1, 384, 256] : Fin 3 → Nat) a + S1x128x256.size a ≤ S2x512x512.size a
  packedbf16_S2x512x512_S1x128x256_1_384_256 : (Rect.unit (s := S2x512x512) ![1, 384, 256] S1x128x256.size inb_S2x512x512_S1x128x256_1_384_256).PackedRows (EltTy.packing .bf16)
  inb_S2x512x512_S1x128x256_1_0_256 : ∀ a, (![1, 0, 256] : Fin 3 → Nat) a + S1x128x256.size a ≤ S2x512x512.size a
  packedbf16_S2x512x512_S1x128x256_1_0_256 : (Rect.unit (s := S2x512x512) ![1, 0, 256] S1x128x256.size inb_S2x512x512_S1x128x256_1_0_256).PackedRows (EltTy.packing .bf16)
  inb_S2x512x512_S1x128x256_1_128_256 : ∀ a, (![1, 128, 256] : Fin 3 → Nat) a + S1x128x256.size a ≤ S2x512x512.size a
  packedbf16_S2x512x512_S1x128x256_1_128_256 : (Rect.unit (s := S2x512x512) ![1, 128, 256] S1x128x256.size inb_S2x512x512_S1x128x256_1_128_256).PackedRows (EltTy.packing .bf16)
  inb_S2x512x512_S1x128x256_1_256_256 : ∀ a, (![1, 256, 256] : Fin 3 → Nat) a + S1x128x256.size a ≤ S2x512x512.size a
  packedbf16_S2x512x512_S1x128x256_1_256_256 : (Rect.unit (s := S2x512x512) ![1, 256, 256] S1x128x256.size inb_S2x512x512_S1x128x256_1_256_256).PackedRows (EltTy.packing .bf16)
  slices_S5x128x128_o0_0_0_S1x128x128 : S5x128x128.Slices ![0, 0, 0] S1x128x128
  shapeCasts_S1x128x128_S128x128 : S1x128x128.ShapeCasts S128x128
  inb_S3x256x128_S1x128x128_0_0_0 : ∀ a, (![0, 0, 0] : Fin 3 → Nat) a + S1x128x128.size a ≤ S3x256x128.size a
  h_S1x128x128 : 0 < S1x128x128.numel
  shapeCasts_S128x128_S1x128x128 : S128x128.ShapeCasts S1x128x128
  packedbf16_S3x256x128_S1x128x128_0_0_0 : (Rect.unit (s := S3x256x128) ![0, 0, 0] S1x128x128.size inb_S3x256x128_S1x128x128_0_0_0).PackedRows (EltTy.packing .bf16)
  slices_S5x128x128_o1_0_0_S1x128x128 : S5x128x128.Slices ![1, 0, 0] S1x128x128
  inb_S3x256x128_S1x128x128_0_128_0 : ∀ a, (![0, 128, 0] : Fin 3 → Nat) a + S1x128x128.size a ≤ S3x256x128.size a
  packedbf16_S3x256x128_S1x128x128_0_128_0 : (Rect.unit (s := S3x256x128) ![0, 128, 0] S1x128x128.size inb_S3x256x128_S1x128x128_0_128_0).PackedRows (EltTy.packing .bf16)
  slices_S5x128x128_o2_0_0_S1x128x128 : S5x128x128.Slices ![2, 0, 0] S1x128x128
  inb_S3x256x128_S1x128x128_1_0_0 : ∀ a, (![1, 0, 0] : Fin 3 → Nat) a + S1x128x128.size a ≤ S3x256x128.size a
  packedbf16_S3x256x128_S1x128x128_1_0_0 : (Rect.unit (s := S3x256x128) ![1, 0, 0] S1x128x128.size inb_S3x256x128_S1x128x128_1_0_0).PackedRows (EltTy.packing .bf16)
  slices_S5x128x128_o3_0_0_S1x128x128 : S5x128x128.Slices ![3, 0, 0] S1x128x128
  inb_S3x256x128_S1x128x128_1_128_0 : ∀ a, (![1, 128, 0] : Fin 3 → Nat) a + S1x128x128.size a ≤ S3x256x128.size a
  packedbf16_S3x256x128_S1x128x128_1_128_0 : (Rect.unit (s := S3x256x128) ![1, 128, 0] S1x128x128.size inb_S3x256x128_S1x128x128_1_128_0).PackedRows (EltTy.packing .bf16)
  slices_S5x128x128_o4_0_0_S1x128x128 : S5x128x128.Slices ![4, 0, 0] S1x128x128
  inb_S3x256x128_S1x128x128_2_0_0 : ∀ a, (![2, 0, 0] : Fin 3 → Nat) a + S1x128x128.size a ≤ S3x256x128.size a
  packedbf16_S3x256x128_S1x128x128_2_0_0 : (Rect.unit (s := S3x256x128) ![2, 0, 0] S1x128x128.size inb_S3x256x128_S1x128x128_2_0_0).PackedRows (EltTy.packing .bf16)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S128x128_S128x128_0_0 : (Rect.unit (s := S128x128) ![0, 0] S128x128.size inb_S128x128_S128x128_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S4096x256 : S1024x1024.ShapeCasts S4096x256
  slices_S4096x256_o1_0_S4095x256 : S4096x256.Slices ![1, 0] S4095x256
  concatenates_S4095x256_S1x256_S4096x256_d0 : Shape.Concatenates [S4095x256, S1x256] S4096x256 0
  inb_S1x256_S1x256_0_0 : ∀ a, (![0, 0] : Fin 2 → Nat) a + S1x256.size a ≤ S1x256.size a
  h_S1x256 : 0 < S1x256.numel
  inb_S2x256x512_S1x256x512_0_0_0 : ∀ a, (![0, 0, 0] : Fin 3 → Nat) a + S1x256x512.size a ≤ S2x256x512.size a
  h_S1x256x512 : 0 < S1x256x512.numel
  shapeCasts_S1x256x512_S256x512 : S1x256x512.ShapeCasts S256x512
  slices_S4096x512_o0_0_S4096x128 : S4096x512.Slices ![0, 0] S4096x128
  slices_S1x256_o0_0_S1x128 : S1x256.Slices ![0, 0] S1x128
  broadcasts_S1x128_S4096x128 : S1x128.Broadcasts S4096x128
  slices_S4096x512_o0_128_S4096x128 : S4096x512.Slices ![0, 128] S4096x128
  slices_S1x256_o0_128_S1x128 : S1x256.Slices ![0, 128] S1x128
  slices_S4096x512_o0_256_S4096x128 : S4096x512.Slices ![0, 256] S4096x128
  slices_S4096x512_o0_384_S4096x128 : S4096x512.Slices ![0, 384] S4096x128
  inb_S2x256x512_S1x256x512_1_0_0 : ∀ a, (![1, 0, 0] : Fin 3 → Nat) a + S1x256x512.size a ≤ S2x256x512.size a
  concatenates_S4096x128_S4096x128_S4096x128_S4096x128_S4096x512_d1 : Shape.Concatenates [S4096x128, S4096x128, S4096x128, S4096x128] S4096x512 1
  slices_S4096x512_o1_0_S4095x512 : S4096x512.Slices ![1, 0] S4095x512
  concatenates_S4095x512_S1x512_S4096x512_d0 : Shape.Concatenates [S4095x512, S1x512] S4096x512 0
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  slices_S4096x512_o0_0_S4096x256 : S4096x512.Slices ![0, 0] S4096x256
  inb_S2x512x512_S1x256x512_0_0_0 : ∀ a, (![0, 0, 0] : Fin 3 → Nat) a + S1x256x512.size a ≤ S2x512x512.size a
  slices_S4096x512_o0_256_S4096x256 : S4096x512.Slices ![0, 256] S4096x256
  inb_S2x512x512_S1x256x512_1_256_0 : ∀ a, (![1, 256, 0] : Fin 3 → Nat) a + S1x256x512.size a ≤ S2x512x512.size a
  inb_S2x512x512_S1x512x512_1_0_0 : ∀ a, (![1, 0, 0] : Fin 3 → Nat) a + S1x512x512.size a ≤ S2x512x512.size a
  concatenates_S4096x128_S4096x128_S4096x256_d1 : Shape.Concatenates [S4096x128, S4096x128] S4096x256 1
  inb_S3x256x128_S1x256x128_0_0_0 : ∀ a, (![0, 0, 0] : Fin 3 → Nat) a + S1x256x128.size a ≤ S3x256x128.size a
  h_S1x256x128 : 0 < S1x256x128.numel
  shapeCasts_S1x256x128_S256x128 : S1x256x128.ShapeCasts S256x128
  inb_S3x256x128_S1x256x128_1_0_0 : ∀ a, (![1, 0, 0] : Fin 3 → Nat) a + S1x256x128.size a ≤ S3x256x128.size a
  slices_S4096x256_o2_0_S4094x256 : S4096x256.Slices ![2, 0] S4094x256
  concatenates_S4094x256_S2x256_S4096x256_d0 : Shape.Concatenates [S4094x256, S2x256] S4096x256 0
  inb_S3x256x128_S1x256x128_2_0_0 : ∀ a, (![2, 0, 0] : Fin 3 → Nat) a + S1x256x128.size a ≤ S3x256x128.size a
  inb_S1x128_S1x128_0_0 : ∀ a, (![0, 0] : Fin 2 → Nat) a + S1x128.size a ≤ S1x128.size a
  h_S1x128 : 0 < S1x128.numel
  shapeCasts_S4096x128_S1024x512 : S4096x128.ShapeCasts S1024x512
  slices_S1024x512_o0_0_S1024x128 : S1024x512.Slices ![0, 0] S1024x128
  broadcasts_S1x128_S1024x128 : S1x128.Broadcasts S1024x128
  slices_S1024x128_o0_0_S1024x10 : S1024x128.Slices ![0, 0] S1024x10
  inb_S1024x10_S1024x10_0_0 : ∀ a, (![0, 0] : Fin 2 → Nat) a + S1024x10.size a ≤ S1024x10.size a
  h_S1024x10 : 0 < S1024x10.numel
  dot_S4096x256_S256x512_S4096x512_1_0_0_1_n_n_wf : DotDims.WF S4096x256 S256x512 S4096x512 [1] [0] [0] [1] [] []
  dot_S4096x512_S512x512_S4096x512_1_0_0_1_n_n_wf : DotDims.WF S4096x512 S512x512 S4096x512 [1] [0] [0] [1] [] []
  dot_S4096x256_S256x128_S4096x128_1_0_0_1_n_n_wf : DotDims.WF S4096x256 S256x128 S4096x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x32x256.size a ≤ S5x32x256.size a
  hwx0_1 : ∀ i : grid0.Coords, EltTy.bits .f32 = 32 ∨ (Rect.block (s := S5x32x256) S5x32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x128x256.size a ≤ S5x128x256.size a
  hwx0_2 : ∀ i : grid0.Coords, EltTy.bits .f32 = 32 ∨ (Rect.block (s := S5x128x256) S5x128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x128x128.size a ≤ S5x128x128.size a
  hwx0_3 : ∀ i : grid0.Coords, EltTy.bits .f32 = 32 ∨ (Rect.block (s := S5x128x128) S5x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x10.size a ≤ S8192x10.size a
  hwx0_11 : ∀ i : grid0.Coords, EltTy.bits .f32 = 32 ∨ (Rect.block (s := S8192x10) S1024x10.size (cc0_transform_11 i) (hinb0_11 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5x32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5x128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S5x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1) S1024x10.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S5x32x256 : Shape := ⟨3, ![5, 32, 256]⟩
abbrev S1x256 : Shape := ⟨2, ![1, 256]⟩
abbrev S5x128x256 : Shape := ⟨3, ![5, 128, 256]⟩
abbrev S5x128x128 : Shape := ⟨3, ![5, 128, 128]⟩
abbrev S1x128 : Shape := ⟨2, ![1, 128]⟩
abbrev S128x128 : Shape := ⟨2, ![128, 128]⟩
abbrev S8192x1x32x32 : Shape := ⟨4, ![8192, 1, 32, 32]⟩
abbrev S8192x32x32 : Shape := ⟨3, ![8192, 32, 32]⟩
abbrev S8192x1x128 : Shape := ⟨3, ![8192, 1, 128]⟩
abbrev S1x32x32 : Shape := ⟨3, ![1, 32, 32]⟩
abbrev S1x1x128 : Shape := ⟨3, ![1, 1, 128]⟩
abbrev S14x128 : Shape := ⟨2, ![14, 128]⟩
abbrev S5x128 : Shape := ⟨2, ![5, 128]⟩
abbrev S1x28x32 : Shape := ⟨3, ![1, 28, 32]⟩
abbrev S28x32 : Shape := ⟨2, ![28, 32]⟩
abbrev S1x32x256 : Shape := ⟨3, ![1, 32, 256]⟩
abbrev S32x256 : Shape := ⟨2, ![32, 256]⟩
abbrev S28x256 : Shape := ⟨2, ![28, 256]⟩
abbrev S28x128 : Shape := ⟨2, ![28, 128]⟩
abbrev S14x28 : Shape := ⟨2, ![14, 28]⟩
abbrev S10x128 : Shape := ⟨2, ![10, 128]⟩
abbrev S1x128x256 : Shape := ⟨3, ![1, 128, 256]⟩
abbrev S128x256 : Shape := ⟨2, ![128, 256]⟩
abbrev S10x256 : Shape := ⟨2, ![10, 256]⟩
abbrev S5x10 : Shape := ⟨2, ![5, 10]⟩
abbrev S1x128x128 : Shape := ⟨3, ![1, 128, 128]⟩
abbrev S8192x1x10 : Shape := ⟨3, ![8192, 1, 10]⟩
abbrev S8192x10 : Shape := ⟨2, ![8192, 10]⟩

abbrev nBuf : Space → Nat
  | .hbm => 15
  | .vmem => 16
  | .smem => 0
  | _ => 0

abbrev bufTy : (tb : Table) → Fin (tcTables nBuf tb) → BufTy
  | .hbm, ⟨0, _⟩ => ⟨S5x32x256, .f32⟩
  | .hbm, ⟨1, _⟩ => ⟨S1x256, .f32⟩
  | .hbm, ⟨2, _⟩ => ⟨S5x128x256, .f32⟩
  | .hbm, ⟨3, _⟩ => ⟨S1x256, .f32⟩
  | .hbm, ⟨4, _⟩ => ⟨S5x128x128, .f32⟩
  | .hbm, ⟨5, _⟩ => ⟨S1x128, .f32⟩
  | .hbm, ⟨6, _⟩ => ⟨S128x128, .f32⟩
  | .hbm, ⟨7, _⟩ => ⟨S1x128, .f32⟩
  | .hbm, ⟨8, _⟩ => ⟨S128x128, .f32⟩
  | .hbm, ⟨9, _⟩ => ⟨S1x128, .f32⟩
  | .hbm, ⟨10, _⟩ => ⟨S8192x1x32x32, .f32⟩
  | .hbm, ⟨11, _⟩ => ⟨S8192x32x32, .f32⟩
  | .hbm, ⟨12, _⟩ => ⟨S8192x1x128, .f32⟩
  | .hbm, ⟨13, _⟩ => ⟨S8192x1x10, .f32⟩
  | .hbm, ⟨14, _⟩ => ⟨S8192x10, .f32⟩
  | .local _ .vmem, ⟨0, _⟩ => ⟨S1x32x32, .f32⟩
  | .local _ .vmem, ⟨1, _⟩ => ⟨S1x32x32, .f32⟩
  | .local _ .vmem, ⟨2, _⟩ => ⟨S5x32x256, .f32⟩
  | .local _ .vmem, ⟨3, _⟩ => ⟨S1x256, .f32⟩
  | .local _ .vmem, ⟨4, _⟩ => ⟨S5x128x256, .f32⟩
  | .local _ .vmem, ⟨5, _⟩ => ⟨S1x256, .f32⟩
  | .local _ .vmem, ⟨6, _⟩ => ⟨S5x128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x1x128, .f32⟩
  | .local _ .vmem, ⟨13, _⟩ => ⟨S1x1x128, .f32⟩
  | .local _ .vmem, ⟨14, _⟩ => ⟨S14x128, .f32⟩
  | .local _ .vmem, ⟨15, _⟩ => ⟨S5x128, .f32⟩
  | _, _ => ⟨S5x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![8192], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8192x1x32x32_S8192x32x32 : S8192x1x32x32.ShapeCasts S8192x32x32
  inb_S1x32x32_S1x28x32_0_0_0 : ∀ a, (![0, 0, 0] : Fin 3 → Nat) a + S1x28x32.size a ≤ S1x32x32.size a
  h_S1x28x32 : 0 < S1x28x32.numel
  shapeCasts_S1x28x32_S28x32 : S1x28x32.ShapeCasts S28x32
  inb_S5x32x256_S1x32x256_0_0_0 : ∀ a, (![0, 0, 0] : Fin 3 → Nat) a + S1x32x256.size a ≤ S5x32x256.size a
  h_S1x32x256 : 0 < S1x32x256.numel
  shapeCasts_S1x32x256_S32x256 : S1x32x256.ShapeCasts S32x256
  inb_S1x32x32_S1x28x32_0_1_0 : ∀ a, (![0, 1, 0] : Fin 3 → Nat) a + S1x28x32.size a ≤ S1x32x32.size a
  inb_S5x32x256_S1x32x256_1_0_0 : ∀ a, (![1, 0, 0] : Fin 3 → Nat) a + S1x32x256.size a ≤ S5x32x256.size a
  inb_S1x32x32_S1x28x32_0_2_0 : ∀ a, (![0, 2, 0] : Fin 3 → Nat) a + S1x28x32.size a ≤ S1x32x32.size a
  inb_S5x32x256_S1x32x256_2_0_0 : ∀ a, (![2, 0, 0] : Fin 3 → Nat) a + S1x32x256.size a ≤ S5x32x256.size a
  inb_S1x32x32_S1x28x32_0_3_0 : ∀ a, (![0, 3, 0] : Fin 3 → Nat) a + S1x28x32.size a ≤ S1x32x32.size a
  inb_S5x32x256_S1x32x256_3_0_0 : ∀ a, (![3, 0, 0] : Fin 3 → Nat) a + S1x32x256.size a ≤ S5x32x256.size a
  inb_S1x32x32_S1x28x32_0_4_0 : ∀ a, (![0, 4, 0] : Fin 3 → Nat) a + S1x28x32.size a ≤ S1x32x32.size a
  inb_S5x32x256_S1x32x256_4_0_0 : ∀ a, (![4, 0, 0] : Fin 3 → Nat) a + S1x32x256.size a ≤ S5x32x256.size a
  inb_S1x256_S1x256_0_0 : ∀ a, (![0, 0] : Fin 2 → Nat) a + S1x256.size a ≤ S1x256.size a
  h_S1x256 : 0 < S1x256.numel
  broadcasts_S1x256_S28x256 : S1x256.Broadcasts S28x256
  slices_S28x256_o0_0_S28x128 : S28x256.Slices ![0, 0] S28x128
  slices_S28x256_o0_128_S28x128 : S28x256.Slices ![0, 128] S28x128
  iota_S14x28_d0_w32 : S14x28.Iotas .tc 32 [0]
  iota_S14x28_d1_w32 : S14x28.Iotas .tc 32 [1]
  natLt_1_32 : 1 < 32
  inb_S14x128_S14x128_0_0 : ∀ a, (![0, 0] : Fin 2 → Nat) a + S14x128.size a ≤ S14x128.size a
  h_S14x128 : 0 < S14x128.numel
  shapeCasts_S14x128_S14x128 : S14x128.ShapeCasts S14x128
  inb_S14x128_S10x128_0_0 : ∀ a, (![0, 0] : Fin 2 → Nat) a + S10x128.size a ≤ S14x128.size a
  h_S10x128 : 0 < S10x128.numel
  inb_S5x128x256_S1x128x256_0_0_0 : ∀ a, (![0, 0, 0] : Fin 3 → Nat) a + S1x128x256.size a ≤ S5x128x256.size a
  h_S1x128x256 : 0 < S1x128x256.numel
  shapeCasts_S1x128x256_S128x256 : S1x128x256.ShapeCasts S128x256
  inb_S14x128_S10x128_1_0 : ∀ a, (![1, 0] : Fin 2 → Nat) a + S10x128.size a ≤ S14x128.size a
  inb_S5x128x256_S1x128x256_1_0_0 : ∀ a, (![1, 0, 0] : Fin 3 → Nat) a + S1x128x256.size a ≤ S5x128x256.size a
  inb_S14x128_S10x128_2_0 : ∀ a, (![2, 0] : Fin 2 → Nat) a + S10x128.size a ≤ S14x128.size a
  inb_S5x128x256_S1x128x256_2_0_0 : ∀ a, (![2, 0, 0] : Fin 3 → Nat) a + S1x128x256.size a ≤ S5x128x256.size a
  inb_S14x128_S10x128_3_0 : ∀ a, (![3, 0] : Fin 2 → Nat) a + S10x128.size a ≤ S14x128.size a
  inb_S5x128x256_S1x128x256_3_0_0 : ∀ a, (![3, 0, 0] : Fin 3 → Nat) a + S1x128x256.size a ≤ S5x128x256.size a
  inb_S14x128_S10x128_4_0 : ∀ a, (![4, 0] : Fin 2 → Nat) a + S10x128.size a ≤ S14x128.size a
  inb_S5x128x256_S1x128x256_4_0_0 : ∀ a, (![4, 0, 0] : Fin 3 → Nat) a + S1x128x256.size a ≤ S5x128x256.size a
  broadcasts_S1x256_S10x256 : S1x256.Broadcasts S10x256
  slices_S10x256_o0_0_S10x128 : S10x256.Slices ![0, 0] S10x128
  slices_S10x256_o0_128_S10x128 : S10x256.Slices ![0, 128] S10x128
  iota_S5x10_d0_w32 : S5x10.Iotas .tc 32 [0]
  iota_S5x10_d1_w32 : S5x10.Iotas .tc 32 [1]
  inb_S5x128_S5x128_0_0 : ∀ a, (![0, 0] : Fin 2 → Nat) a + S5x128.size a ≤ S5x128.size a
  h_S5x128 : 0 < S5x128.numel
  shapeCasts_S5x128_S5x128 : S5x128.ShapeCasts S5x128
  inb_S5x128_S1x128_0_0 : ∀ a, (![0, 0] : Fin 2 → Nat) a + S1x128.size a ≤ S5x128.size a
  h_S1x128 : 0 < S1x128.numel
  inb_S5x128x128_S1x128x128_0_0_0 : ∀ a, (![0, 0, 0] : Fin 3 → Nat) a + S1x128x128.size a ≤ S5x128x128.size a
  h_S1x128x128 : 0 < S1x128x128.numel
  shapeCasts_S1x128x128_S128x128 : S1x128x128.ShapeCasts S128x128
  inb_S5x128_S1x128_1_0 : ∀ a, (![1, 0] : Fin 2 → Nat) a + S1x128.size a ≤ S5x128.size a
  inb_S5x128x128_S1x128x128_1_0_0 : ∀ a, (![1, 0, 0] : Fin 3 → Nat) a + S1x128x128.size a ≤ S5x128x128.size a
  inb_S5x128_S1x128_2_0 : ∀ a, (![2, 0] : Fin 2 → Nat) a + S1x128.size a ≤ S5x128.size a
  inb_S5x128x128_S1x128x128_2_0_0 : ∀ a, (![2, 0, 0] : Fin 3 → Nat) a + S1x128x128.size a ≤ S5x128x128.size a
  inb_S5x128_S1x128_3_0 : ∀ a, (![3, 0] : Fin 2 → Nat) a + S1x128.size a ≤ S5x128.size a
  inb_S5x128x128_S1x128x128_3_0_0 : ∀ a, (![3, 0, 0] : Fin 3 → Nat) a + S1x128x128.size a ≤ S5x128x128.size a
  inb_S5x128_S1x128_4_0 : ∀ a, (![4, 0] : Fin 2 → Nat) a + S1x128.size a ≤ S5x128.size a
  inb_S5x128x128_S1x128x128_4_0_0 : ∀ a, (![4, 0, 0] : Fin 3 → Nat) a + S1x128x128.size a ≤ S5x128x128.size a
  inb_S1x128_S1x128_0_0 : ∀ a, (![0, 0] : Fin 2 → Nat) a + S1x128.size a ≤ S1x128.size a
  inb_S128x128_S128x128_0_0 : ∀ a, (![0, 0] : Fin 2 → Nat) a + S128x128.size a ≤ S128x128.size a
  h_S128x128 : 0 < S128x128.numel
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S8192x1x128_S8192x1x10_0_0_0 : S8192x1x128.Slices ![0, 0, 0] S8192x1x10
  shapeCasts_S8192x1x10_S8192x10 : S8192x1x10.ShapeCasts S8192x10
  dot_S28x32_S32x256_S28x256_1_0_0_1_n_n_wf : DotDims.WF S28x32 S32x256 S28x256 [1] [0] [0] [1] [] []
  dot_S14x28_S28x128_S14x128_1_0_0_1_n_n_wf : DotDims.WF S14x28 S28x128 S14x128 [1] [0] [0] [1] [] []
  dot_S10x128_S128x256_S10x256_1_0_0_1_n_n_wf : DotDims.WF S10x128 S128x256 S10x256 [1] [0] [0] [1] [] []
  dot_S5x10_S10x128_S5x128_1_0_0_1_n_n_wf : DotDims.WF S5x10 S10x128 S5x128 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32.size a ≤ S8192x32x32.size a
  hwx0_0 : ∀ i : grid0.Coords, EltTy.bits .f32 = 32 ∨ (Rect.block (s := S8192x32x32) S1x32x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x32x256.size a ≤ S5x32x256.size a
  hwx0_1 : ∀ i : grid0.Coords, EltTy.bits .f32 = 32 ∨ (Rect.block (s := S5x32x256) S5x32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x128x256.size a ≤ S5x128x256.size a
  hwx0_3 : ∀ i : grid0.Coords, EltTy.bits .f32 = 32 ∨ (Rect.block (s := S5x128x256) S5x128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x128x128.size a ≤ S5x128x128.size a
  hwx0_5 : ∀ i : grid0.Coords, EltTy.bits .f32 = 32 ∨ (Rect.block (s := S5x128x128) S5x128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x128.size a ≤ S8192x1x128.size a
  hwx0_11 : ∀ i : grid0.Coords, EltTy.bits .f32 = 32 ∨ (Rect.block (s := S8192x1x128) S1x1x128.size (cc0_transform_11 i) (hinb0_11 i)).WholeWords (EltTy.packing .f32)

variable [Facts₀]

def dot_S28x32_S32x256_S28x256_1_0_0_1_n_n : DotDims S28x32 S32x256 S28x256 where
  lhsContracting := [1]
  rhsContracting := [0]
  lhsNonContracting := [0]
  rhsNonContracting := [1]
  lhsBatch := []
  rhsBatch := []
  wf := dot_S28x32_S32x256_S28x256_1_0_0_1_n_n_wf
def dot_S14x28_S28x128_S14x128_1_0_0_1_n_n : DotDims S14x28 S28x128 S14x128 where
  lhsContracting := [1]
  rhsContracting := [0]
  lhsNonContracting := [0]
  rhsNonContracting := [1]
  lhsBatch := []
  rhsBatch := []
  wf := dot_S14x28_S28x128_S14x128_1_0_0_1_n_n_wf
def dot_S10x128_S128x256_S10x256_1_0_0_1_n_n : DotDims S10x128 S128x256 S10x256 where
  lhsContracting := [1]
  rhsContracting := [0]
  lhsNonContracting := [0]
  rhsNonContracting := [1]
  lhsBatch := []
  rhsBatch := []
  wf := dot_S10x128_S128x256_S10x256_1_0_0_1_n_n_wf
def dot_S5x10_S10x128_S5x128_1_0_0_1_n_n : DotDims S5x10 S10x128 S5x128 where
  lhsContracting := [1]
  rhsContracting := [0]
  lhsNonContracting := [0]
  rhsNonContracting := [1]
  lhsBatch := []
  rhsBatch := []
  wf := dot_S5x10_S10x128_S5x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_v0) S1x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5x32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S5x128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S5x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1) S1x1x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.LibNatRead.lean ====
/-
  Arrays of literal extents read at natural-number coordinates, and the vector operations read that way.
  rd2 / rd3 / rd4 read a rank-2 / 3 / 4 array of extended reals at natural coordinates (zero outside the extents, a
  value no statement uses), so that index arithmetic is arithmetic on ℕ (omega) and sums are over Finset.range
  (sum_fin_range turns a sum over Fin n into one). At the ideal values: a matrix product into the zero accumulator
  as a sum over Finset.range (rd2_matmul), a cut along rows or columns as a shifted read (rd2_rows, rd2_cols), a
  one-row array laid over every row (rd2_bcastRow), pointwise sums and maxima (rd2_addf, rd2_maximumf), narrowing as
  the identity (rd2_truncf), the zero splats, rows moved up with rows appended (rd2_shift), two or four 128-column
  pieces laid side by side (rd2_concat2, rd2_concat4), a matrix of a·b entries re-read with another row length
  (rd2_recast), and a leading unit axis dropped (rd2_dropUnit). General in the extents.
-/
import Idealize.ShloMosaic.Lib.ValueIdx
import Idealize.ShloMosaic.Lib.ValueLayout
import Idealize.ShloMosaic.Lib.Pipeline.Value
import Idealize.ShloMosaic.PureOps.Ideal.Laws
import proofs.«128838_g2000305662181196_pallasbulk_93_52_alg».proof.Proof.LibPlainDot

open Idealize.ShloMosaic Idealize.ShloMosaic.ValueIdx Finset

noncomputable section

namespace Cert.Net

/-- A rank-2 array at natural coordinates. -/
def rd2 {a b : ℕ} (A : (⟨2, ![a, b]⟩ : Shape).Idx → EReal) (i j : ℕ) : EReal :=
  if h : i < a ∧ j < b then A (ix2 ⟨i, h.1⟩ ⟨j, h.2⟩) else 0
/-- A rank-3 array at natural coordinates. -/
def rd3 {a b c : ℕ} (A : (⟨3, ![a, b, c]⟩ : Shape).Idx → EReal) (i j k : ℕ) : EReal :=
  if h : i < a ∧ j < b ∧ k < c then A (ix3 ⟨i, h.1⟩ ⟨j, h.2.1⟩ ⟨k, h.2.2⟩) else 0
/-- A rank-4 array at natural coordinates. -/
def rd4 {a b c d : ℕ} (A : (⟨4, ![a, b, c, d]⟩ : Shape).Idx → EReal) (i j k l : ℕ) : EReal :=
  if h : i < a ∧ j < b ∧ k < c ∧ l < d then A (ix4 ⟨i, h.1⟩ ⟨j, h.2.1⟩ ⟨k, h.2.2.1⟩ ⟨l, h.2.2.2⟩) else 0

theorem rd2_of_lt {a b : ℕ} (A : (⟨2, ![a, b]⟩ : Shape).Idx → EReal) {i j : ℕ} (hi : i < a) (hj : j < b) :
    rd2 A i j = A (ix2 ⟨i, hi⟩ ⟨j, hj⟩) := dif_pos ⟨hi, hj⟩
theorem rd3_of_lt {a b c : ℕ} (A : (⟨3, ![a, b, c]⟩ : Shape).Idx → EReal) {i j k : ℕ} (hi : i < a) (hj : j < b) (hk : k < c) :
    rd3 A i j k = A (ix3 ⟨i, hi⟩ ⟨j, hj⟩ ⟨k, hk⟩) := dif_pos ⟨hi, hj, hk⟩
theorem rd4_of_lt {a b c d : ℕ} (A : (⟨4, ![a, b, c, d]⟩ : Shape).Idx → EReal) {i j k l : ℕ}
    (hi : i < a) (hj : j < b) (hk : k < c) (hl : l < d) :
    rd4 A i j k l = A (ix4 ⟨i, hi⟩ ⟨j, hj⟩ ⟨k, hk⟩ ⟨l, hl⟩) := dif_pos ⟨hi, hj, hk, hl⟩

theorem rd2_fin {a b : ℕ} (A : (⟨2, ![a, b]⟩ : Shape).Idx → EReal) (p : Fin a) (q : Fin b) :
    A (ix2 p q) = rd2 A p.val q.val := (rd2_of_lt A p.isLt q.isLt).symm
theorem rd3_fin {a b c : ℕ} (A : (⟨3, ![a, b, c]⟩ : Shape).Idx → EReal) (p : Fin a) (q : Fin b) (r : Fin c) :
    A (ix3 p q r) = rd3 A p.val q.val r.val := (rd3_of_lt A p.isLt q.isLt r.isLt).symm

/-- A sum over Fin n of terms that are a function of the index's value is the sum over range n. -/
theorem sum_fin_range {n : ℕ} (f : Fin n → EReal) (g : ℕ → EReal) (h : ∀ k (hk : k < n), f ⟨k, hk⟩ = g k) :
    ∑ k, f k = ∑ k ∈ Finset.range n, g k := by
  rw [← Fin.sum_univ_eq_sum_range]
  exact Finset.sum_congr rfl fun k _ => h k.val k.isLt

theorem ofBits_zero_bf16 : Ideal.ofBits .bf16 0x0000#16 = 0 := by simp [Ideal.ofBits, Ideal.ieee]

/-- A matrix product into the zero accumulator at entry (p, q). -/
theorem rd2_matmul {M K N : ℕ} {φ₁ φ₂ : FTy} (d : DotDims ⟨2, ![M, K]⟩ ⟨2, ![K, N]⟩ ⟨2, ![M, N]⟩)
    (hd : d = DotDims.plain M K N) (L : FVec Ideal ⟨2, ![M, K]⟩ φ₁) (R : FVec Ideal ⟨2, ![K, N]⟩ φ₂) (p q : ℕ)
    (hp : p < M) (hq : q < N) :
    rd2 (matmul d none L R (constant ⟨2, ![M, N]⟩ .f32 0x00000000#32)) p q = ∑ κ ∈ range K, rd2 L p κ * rd2 R κ q := by
  rw [rd2_of_lt _ hp hq]
  refine (matmul_plain_zero_apply d hd none L R ⟨p, hp⟩ ⟨q, hq⟩).trans ?_
  exact sum_fin_range _ _ fun k hk => by rw [rd2_of_lt L hp hk, rd2_of_lt R hk hq]

/-- Columns o .. o+m of a matrix. -/
theorem rd2_cols {n0 n1 m : ℕ} (o : ℕ) (X : (⟨2, ![n0, n1]⟩ : Shape).Idx → EReal)
    (h : (⟨2, ![n0, n1]⟩ : Shape).Slices ![0, o] ⟨2, ![n0, m]⟩) (a j : ℕ) (ha : a < n0) (hj : j < m) (ho : o + j < n1) :
    rd2 (extractStridedSlice ⟨2, ![n0, m]⟩ ![0, o] X h) a j = rd2 X a (o + j) := by
  rw [rd2_of_lt _ ha hj, rd2_of_lt X ha ho]
  exact slice2_axis1_apply o X h ⟨a, ha⟩ ⟨j, hj⟩ ⟨o + j, ho⟩ rfl

/-- Rows o .. o+m of a matrix. -/
theorem rd2_rows {n0 n1 m : ℕ} (o : ℕ) (X : (⟨2, ![n0, n1]⟩ : Shape).Idx → EReal)
    (h : (⟨2, ![n0, n1]⟩ : Shape).Slices ![o, 0] ⟨2, ![m, n1]⟩) (j e : ℕ) (hj : j < m) (he : e < n1) (ho : o + j < n0) :
    rd2 (extractStridedSlice ⟨2, ![m, n1]⟩ ![o, 0] X h) j e = rd2 X (o + j) e := by
  rw [rd2_of_lt _ hj he, rd2_of_lt X ho he]
  exact slice2_axis0_apply o X h ⟨j, hj⟩ ⟨e, he⟩ ⟨o + j, ho⟩ rfl

/-- One row laid over every row. -/
theorem rd2_bcastRow {a b : ℕ} (v : (⟨2, ![1, b]⟩ : Shape).Idx → EReal) (h : (⟨2, ![1, b]⟩ : Shape).Broadcasts ⟨2, ![a, b]⟩)
    (p c : ℕ) (hp : p < a) (hc : c < b) : rd2 (broadcastTo ⟨2, ![a, b]⟩ v h) p c = rd2 v 0 c := by
  rw [rd2_of_lt _ hp hc, rd2_of_lt v Nat.one_pos hc]
  exact broadcastTo_1b_ab_apply v h ⟨p, hp⟩ ⟨c, hc⟩

theorem rd2_addf {a b : ℕ} {φ : FTy} (A B : FVec Ideal ⟨2, ![a, b]⟩ φ) (p c : ℕ) :
    rd2 (addf A B) p c = rd2 A p c + rd2 B p c := by
  unfold rd2
  split
  · rfl
  · rw [add_zero]

theorem rd2_maximumf {a b : ℕ} {φ : FTy} (A B : FVec Ideal ⟨2, ![a, b]⟩ φ) (p c : ℕ) :
    rd2 (maximumf A B) p c = max (rd2 A p c) (rd2 B p c) := by
  unfold rd2
  split
  · rfl
  · rw [max_self]

theorem rd2_truncf {a b : ℕ} {φ ψ : FTy} (A : FVec Ideal ⟨2, ![a, b]⟩ φ) (h : ψ.bits < φ.bits) (p c : ℕ) :
    rd2 (truncf ψ A h : FVec Ideal ⟨2, ![a, b]⟩ ψ) p c = rd2 A p c := rfl

/-- The zero splat. -/
theorem rd2_zero_f32 {a b : ℕ} (p c : ℕ) :
    rd2 (broadcast (⟨2, ![a, b]⟩ : Shape) (Scalar.ofBits (F := Ideal) .f32 0x00000000#32)) p c = 0 := by
  unfold rd2
  split
  · exact Ideal.ofBits_zero_f32
  · rfl

/-- The zero splat, with the constant spelt through the instance's own reading of a word. -/
theorem rd2_zero_f32' {a b : ℕ} (p c : ℕ) :
    rd2 (broadcast (⟨2, ![a, b]⟩ : Shape) (FloatOps.ofBits (F := Ideal) .f32 0x00000000#32)) p c = 0 := by
  unfold rd2
  split
  · exact Ideal.ofBits_zero_f32
  · rfl

/-- The zero splat in the narrow format. -/
theorem rd2_zero_bf16 {a b : ℕ} (p c : ℕ) :
    rd2 (broadcast (⟨2, ![a, b]⟩ : Shape) (FloatOps.ofBits (F := Ideal) .bf16 0x0000#16)) p c = 0 := by
  unfold rd2
  split
  · exact ofBits_zero_bf16
  · rfl

/-- Bias row and maximum with zero on a column run: the entry (g, c) of max (Z[:, o..] + b[:, ob..], 0). -/
theorem rd2_relu_run {G N : ℕ} (Z : FVec Ideal ⟨2, ![G, N]⟩ .f32) (b : (⟨2, ![1, 256]⟩ : Shape).Idx → EReal) (o ob : ℕ)
    (hZ : (⟨2, ![G, N]⟩ : Shape).Slices ![0, o] ⟨2, ![G, 128]⟩) (hb : (⟨2, ![1, 256]⟩ : Shape).Slices ![0, ob] ⟨2, ![1, 128]⟩)
    (hbc : (⟨2, ![1, 128]⟩ : Shape).Broadcasts ⟨2, ![G, 128]⟩) (g c : ℕ) (hg : g < G) (hc : c < 128)
    (ho : o + 128 ≤ N) (hob : ob + 128 ≤ 256) :
    rd2 (maximumf (addf (extractStridedSlice ⟨2, ![G, 128]⟩ ![0, o] Z hZ)
        (broadcastTo ⟨2, ![G, 128]⟩ (extractStridedSlice ⟨2, ![1, 128]⟩ ![0, ob] b hb) hbc))
      (broadcast (⟨2, ![G, 128]⟩ : Shape) (Scalar.ofBits (F := Ideal) .f32 0x00000000#32))) g c
      = max (rd2 Z g (o + c) + rd2 b 0 (ob + c)) 0 := by
  rw [rd2_maximumf, rd2_addf, rd2_zero_f32, rd2_cols o Z hZ g c hg hc (by omega), rd2_bcastRow _ hbc g c hg hc,
    rd2_cols ob b hb 0 c Nat.one_pos hc (by omega)]

/-- Rows moved up by s, with the s rows of Zr appended: row g reads row g + s while that exists, else Zr. -/
theorem rd2_shift {n b m s : ℕ} (X : (⟨2, ![n, b]⟩ : Shape).Idx → EReal) (Zr : (⟨2, ![s, b]⟩ : Shape).Idx → EReal)
    (hs : (⟨2, ![n, b]⟩ : Shape).Slices ![s, 0] ⟨2, ![m, b]⟩)
    (hc : Shape.Concatenates [(⟨2, ![m, b]⟩ : Shape), ⟨2, ![s, b]⟩] ⟨2, ![n, b]⟩ (0 : Fin 2))
    (hm : m + s = n) (g κ : ℕ) (hg : g < n) (hκ : κ < b) :
    rd2 (concatenate (⟨2, ![n, b]⟩ : Shape) (0 : Fin 2)
      [⟨⟨2, ![m, b]⟩, extractStridedSlice ⟨2, ![m, b]⟩ ![s, 0] X hs⟩, ⟨⟨2, ![s, b]⟩, Zr⟩] hc) g κ
      = if g + s < n then rd2 X (g + s) κ else rd2 Zr (g - m) κ := by
  rw [rd2_of_lt _ hg hκ]
  by_cases hgm : g + s < n
  · rw [if_pos hgm]
    have hg' : g < m := by omega
    rw [Idealize.ShloMosaic.concatenate_pair_apply_left (t := ⟨2, ![n, b]⟩) (s₁ := ⟨2, ![m, b]⟩) (s₂ := ⟨2, ![s, b]⟩) (0 : Fin 2) _ Zr hc (ix2 ⟨g, hg⟩ ⟨κ, hκ⟩) rfl (ix2 ⟨g, hg'⟩ ⟨κ, hκ⟩)
      (fun bb => by match bb with | ⟨0, _⟩ => rfl | ⟨1, _⟩ => rfl)]
    rw [slice2_axis0_apply s X hs ⟨g, hg'⟩ ⟨κ, hκ⟩ ⟨s + g, by omega⟩ rfl, rd2_of_lt X (by omega) hκ]
    congr 2
    exact Fin.ext (Nat.add_comm s g)
  · rw [if_neg hgm]
    have hg' : g - m < s := by omega
    rw [Idealize.ShloMosaic.concatenate_pair_apply_right (t := ⟨2, ![n, b]⟩) (s₁ := ⟨2, ![m, b]⟩) (s₂ := ⟨2, ![s, b]⟩) (0 : Fin 2) _ Zr hc (ix2 ⟨g, hg⟩ ⟨κ, hκ⟩) rfl rfl (ix2 ⟨g - m, hg'⟩ ⟨κ, hκ⟩)
      (fun bb hbb => by
        match bb with
        | ⟨0, _⟩ => exact absurd rfl hbb
        | ⟨1, _⟩ => rfl)
      (by show g - m + m = g; omega), rd2_of_lt Zr hg' hκ]

/-- Four pieces of 128 columns side by side. -/
theorem rd2_concat4 {G : ℕ} (x0 x1 x2 x3 : (⟨2, ![G, 128]⟩ : Shape).Idx → EReal)
    (hc : Shape.Concatenates [(⟨2, ![G, 128]⟩ : Shape), ⟨2, ![G, 128]⟩, ⟨2, ![G, 128]⟩, ⟨2, ![G, 128]⟩] ⟨2, ![G, 512]⟩ (1 : Fin 2))
    (g k j : ℕ) (hg : g < G) (hk : k < 4) (hj : j < 128) :
    rd2 (concatenate (⟨2, ![G, 512]⟩ : Shape) (1 : Fin 2)
      [⟨⟨2, ![G, 128]⟩, x0⟩, ⟨⟨2, ![G, 128]⟩, x1⟩, ⟨⟨2, ![G, 128]⟩, x2⟩, ⟨⟨2, ![G, 128]⟩, x3⟩] hc) g (k * 128 + j)
      = rd2 (if k = 0 then x0 else if k = 1 then x1 else if k = 2 then x2 else x3) g j := by
  rw [rd2_of_lt _ hg (show k * 128 + j < 512 by omega), rd2_of_lt _ hg hj]
  have hi : ∀ bb : Fin (⟨2, ![G, 128]⟩ : Shape).rank, bb.cast rfl ≠ (1 : Fin 2) →
      ((ix2 (⟨g, hg⟩ : Fin G) (⟨j, hj⟩ : Fin 128)) bb).val = ((ix2 (⟨g, hg⟩ : Fin G) (⟨k * 128 + j, by omega⟩ : Fin 512)) (bb.cast rfl)).val :=
    fun bb hbb => by
      match bb with
      | ⟨0, _⟩ => rfl
      | ⟨1, _⟩ => exact absurd rfl hbb
  obtain rfl | rfl | rfl | rfl : k = 0 ∨ k = 1 ∨ k = 2 ∨ k = 3 := by omega
  · exact Idealize.ShloMosaic.concatenate_apply_piece (t := ⟨2, ![G, 512]⟩) (1 : Fin 2)
      ([⟨⟨2, ![G, 128]⟩, x0⟩, ⟨⟨2, ![G, 128]⟩, x1⟩, ⟨⟨2, ![G, 128]⟩, x2⟩, ⟨⟨2, ![G, 128]⟩, x3⟩] : List ((s : Shape) × (s.Idx → EReal)))
      hc (ix2 ⟨g, hg⟩ ⟨0 * 128 + j, by omega⟩) 0 (by simp) ⟨2, ![G, 128]⟩ x0 rfl rfl 0 (by simp) (ix2 ⟨g, hg⟩ ⟨j, hj⟩) hi
      (by show 0 + j = 0 * 128 + j; omega)
  · exact Idealize.ShloMosaic.concatenate_apply_piece (t := ⟨2, ![G, 512]⟩) (1 : Fin 2)
      ([⟨⟨2, ![G, 128]⟩, x0⟩, ⟨⟨2, ![G, 128]⟩, x1⟩, ⟨⟨2, ![G, 128]⟩, x2⟩, ⟨⟨2, ![G, 128]⟩, x3⟩] : List ((s : Shape) × (s.Idx → EReal)))
      hc (ix2 ⟨g, hg⟩ ⟨1 * 128 + j, by omega⟩) 1 (by simp) ⟨2, ![G, 128]⟩ x1 rfl rfl 128 (by simp) (ix2 ⟨g, hg⟩ ⟨j, hj⟩) hi
      (by show 128 + j = 1 * 128 + j; omega)
  · exact Idealize.ShloMosaic.concatenate_apply_piece (t := ⟨2, ![G, 512]⟩) (1 : Fin 2)
      ([⟨⟨2, ![G, 128]⟩, x0⟩, ⟨⟨2, ![G, 128]⟩, x1⟩, ⟨⟨2, ![G, 128]⟩, x2⟩, ⟨⟨2, ![G, 128]⟩, x3⟩] : List ((s : Shape) × (s.Idx → EReal)))
      hc (ix2 ⟨g, hg⟩ ⟨2 * 128 + j, by omega⟩) 2 (by simp) ⟨2, ![G, 128]⟩ x2 rfl rfl 256 (by simp) (ix2 ⟨g, hg⟩ ⟨j, hj⟩) hi
      (by show 256 + j = 2 * 128 + j; omega)
  · exact Idealize.ShloMosaic.concatenate_apply_piece (t := ⟨2, ![G, 512]⟩) (1 : Fin 2)
      ([⟨⟨2, ![G, 128]⟩, x0⟩, ⟨⟨2, ![G, 128]⟩, x1⟩, ⟨⟨2, ![G, 128]⟩, x2⟩, ⟨⟨2, ![G, 128]⟩, x3⟩] : List ((s : Shape) × (s.Idx → EReal)))
      hc (ix2 ⟨g, hg⟩ ⟨3 * 128 + j, by omega⟩) 3 (by simp) ⟨2, ![G, 128]⟩ x3 rfl rfl 384 (by simp) (ix2 ⟨g, hg⟩ ⟨j, hj⟩) hi
      (by show 384 + j = 3 * 128 + j; omega)

/-- Two pieces of 128 columns side by side. -/
theorem rd2_concat2 {G : ℕ} (x0 x1 : (⟨2, ![G, 128]⟩ : Shape).Idx → EReal)
    (hc : Shape.Concatenates [(⟨2, ![G, 128]⟩ : Shape), ⟨2, ![G, 128]⟩] ⟨2, ![G, 256]⟩ (1 : Fin 2))
    (g k j : ℕ) (hg : g < G) (hk : k < 2) (hj : j < 128) :
    rd2 (concatenate (⟨2, ![G, 256]⟩ : Shape) (1 : Fin 2) [⟨⟨2, ![G, 128]⟩, x0⟩, ⟨⟨2, ![G, 128]⟩, x1⟩] hc) g (k * 128 + j)
      = rd2 (if k = 0 then x0 else x1) g j := by
  rw [rd2_of_lt _ hg (show k * 128 + j < 256 by omega), rd2_of_lt _ hg hj]
  obtain rfl | rfl : k = 0 ∨ k = 1 := by omega
  · exact Idealize.ShloMosaic.concatenate_pair_apply_left (t := ⟨2, ![G, 256]⟩) (s₁ := ⟨2, ![G, 128]⟩) (s₂ := ⟨2, ![G, 128]⟩) (1 : Fin 2) x0 x1 hc
      (ix2 ⟨g, hg⟩ ⟨0 * 128 + j, by omega⟩) rfl (ix2 ⟨g, hg⟩ ⟨j, hj⟩)
      (fun bb => by
        match bb with
        | ⟨0, _⟩ => rfl
        | ⟨1, _⟩ => show j = 0 * 128 + j; omega)
  · exact Idealize.ShloMosaic.concatenate_pair_apply_right (t := ⟨2, ![G, 256]⟩) (s₁ := ⟨2, ![G, 128]⟩) (s₂ := ⟨2, ![G, 128]⟩) (1 : Fin 2) x0 x1 hc
      (ix2 ⟨g, hg⟩ ⟨1 * 128 + j, by omega⟩) rfl rfl (ix2 ⟨g, hg⟩ ⟨j, hj⟩)
      (fun bb hbb => by
        match bb with
        | ⟨0, _⟩ => rfl
        | ⟨1, _⟩ => exact absurd rfl hbb)
      (by show j + 128 = 1 * 128 + j; omega)

/-- A matrix re-read with another row length: entry (p, q) of the a' × b' reading is the entry at the same row-major
    position of the a × b matrix. -/
theorem rd2_recast {a b a' b' : ℕ} (X : (⟨2, ![a, b]⟩ : Shape).Idx → EReal) (h : (⟨2, ![a, b]⟩ : Shape).ShapeCasts ⟨2, ![a', b']⟩)
    (p q i j : ℕ) (hp : p < a') (hq : q < b') (hi : i < a) (hj : j < b) (hpos : i * b + j = p * b' + q) :
    rd2 (shapeCast (⟨2, ![a', b']⟩ : Shape) X h) p q = rd2 X i j := by
  rw [rd2_of_lt _ hp hq, rd2_of_lt X hi hj]
  refine Idealize.ShloMosaic.shapeCast_apply X h _ _ ?_
  rw [Shape.rowMajor_val_two, Shape.rowMajor_val_two]
  exact hpos

/-- Dropping a leading unit axis. -/
theorem rd2_dropUnit {a b : ℕ} (v : (⟨3, ![1, a, b]⟩ : Shape).Idx → EReal) (h : (⟨3, ![1, a, b]⟩ : Shape).ShapeCasts ⟨2, ![a, b]⟩)
    (p q : ℕ) : rd2 (shapeCast (⟨2, ![a, b]⟩ : Shape) v h) p q = rd3 v 0 p q := by
  unfold rd2 rd3
  by_cases hpq : p < a ∧ q < b
  · rw [dif_pos hpq, dif_pos ⟨Nat.one_pos, hpq.1, hpq.2⟩]
    exact shapeCast_1ab_ab_apply v h ⟨p, hpq.1⟩ ⟨q, hpq.2⟩
  · rw [dif_neg hpq, dif_neg (fun hh => hpq ⟨hh.2.1, hh.2.2⟩)]

end Cert.Net

end
-- ==== Proof.Net.lean ====
/-
  The network both programs compute, written once over plain functions of natural-number coordinates on the
  extended reals: a 5-tap banded convolution of each 32×32 image into 28 rows of 256 columns (the two column
  parities side by side in the halves 0..127 and 128..255), a bias and a maximum with zero, a 2×2 maximum
  (the two column halves, then two consecutive rows), the same once more on the 14 pooled rows (5 taps, 10 rows,
  pooled to 5), then three dense layers (the first summing over the 5 pooled rows), the first two followed by a
  bias and a maximum with zero, the last by a bias only.
  Sums are over Finset.range, so every coordinate is a natural number and no bound is carried in the terms.
-/
import Idealize.ShloMosaic.PureOps.Ideal

open Finset

noncomputable section

namespace Cert.Net

/-- The arrays the network reads, as functions of natural coordinates (outside an array's extents the value is
    never used). -/
structure Params where
  X   : ℕ → ℕ → ℕ → EReal      -- image, row, column
  M1  : ℕ → ℕ → ℕ → EReal      -- tap, input column, output column (256)
  B1  : ℕ → EReal
  M2  : ℕ → ℕ → ℕ → EReal      -- tap, input column (128), output column (256)
  B2  : ℕ → EReal
  W1  : ℕ → ℕ → ℕ → EReal      -- pooled row (5), input column (128), output column (128)
  B1f : ℕ → EReal
  W2  : ℕ → ℕ → EReal
  B2f : ℕ → EReal
  W3  : ℕ → ℕ → EReal
  B3f : ℕ → EReal

variable (P : Params)

/-- First convolution before the bias: row h (0..27) of image n, output column c (0..255). -/
def conv1 (n h c : ℕ) : EReal := ∑ d ∈ range 5, ∑ j ∈ range 32, P.X n (h + d) j * P.M1 d j c
/-- Bias and maximum with zero. -/
def act1 (n h c : ℕ) : EReal := max (conv1 P n h c + P.B1 c) 0
/-- 2×2 maximum: pooled row h (0..13), column c (0..127). -/
def pool1 (n h c : ℕ) : EReal :=
  max (max (act1 P n (2 * h) c) (act1 P n (2 * h) (128 + c))) (max (act1 P n (2 * h + 1) c) (act1 P n (2 * h + 1) (128 + c)))
/-- Second convolution before the bias: row h (0..9), output column c (0..255). -/
def conv2 (n h c : ℕ) : EReal := ∑ d ∈ range 5, ∑ j ∈ range 128, pool1 P n (h + d) j * P.M2 d j c
def act2 (n h c : ℕ) : EReal := max (conv2 P n h c + P.B2 c) 0
/-- Second 2×2 maximum: pooled row h (0..4), column c (0..127). -/
def pool2 (n h c : ℕ) : EReal :=
  max (max (act2 P n (2 * h) c) (act2 P n (2 * h) (128 + c))) (max (act2 P n (2 * h + 1) c) (act2 P n (2 * h + 1) (128 + c)))
/-- First dense layer. -/
def dense1 (n c : ℕ) : EReal := max ((∑ h ∈ range 5, ∑ j ∈ range 128, pool2 P n h j * P.W1 h j c) + P.B1f c) 0
def dense2 (n c : ℕ) : EReal := max ((∑ j ∈ range 128, dense1 P n j * P.W2 j c) + P.B2f c) 0
/-- The result: image n, class c (0..9; defined for every column 0..127). -/
def out (n c : ℕ) : EReal := (∑ j ∈ range 128, dense2 P n j * P.W3 j c) + P.B3f c

end Cert.Net

end
-- ==== Proof.Arrays.lean ====
/-
  The network's parameters read off the eleven argument arrays, and the result array both programs end with.
-/
import proofs.«128838_g2000305662181196_pallasbulk_93_52_alg».proof.Proof.LibNatRead
import proofs.«128838_g2000305662181196_pallasbulk_93_52_alg».proof.Proof.Net

open Idealize.ShloMosaic Idealize.ShloMosaic.ValueIdx

noncomputable section

namespace Cert.Net

/-- The network's parameters read off the eleven argument arrays (in the order both programs take them). -/
def paramsOf
    (a0 : (⟨3, ![5, 32, 256]⟩ : Shape).Idx → EReal) (a1 : (⟨2, ![1, 256]⟩ : Shape).Idx → EReal)
    (a2 : (⟨3, ![5, 128, 256]⟩ : Shape).Idx → EReal) (a3 : (⟨2, ![1, 256]⟩ : Shape).Idx → EReal)
    (a4 : (⟨3, ![5, 128, 128]⟩ : Shape).Idx → EReal) (a5 : (⟨2, ![1, 128]⟩ : Shape).Idx → EReal)
    (a6 : (⟨2, ![128, 128]⟩ : Shape).Idx → EReal) (a7 : (⟨2, ![1, 128]⟩ : Shape).Idx → EReal)
    (a8 : (⟨2, ![128, 128]⟩ : Shape).Idx → EReal) (a9 : (⟨2, ![1, 128]⟩ : Shape).Idx → EReal)
    (a10 : (⟨4, ![8192, 1, 32, 32]⟩ : Shape).Idx → EReal) : Params where
  X := fun n h w => rd4 a10 n 0 h w
  M1 := rd3 a0
  B1 := rd2 a1 0
  M2 := rd3 a2
  B2 := rd2 a3 0
  W1 := rd3 a4
  B1f := rd2 a5 0
  W2 := rd2 a6
  B2f := rd2 a7 0
  W3 := rd2 a8
  B3f := rd2 a9 0

/-- The result array both programs end with: entry (n, c) of the 8192 × 10 array is the network's output for image n,
    class c. -/
def result (P : Params) : (⟨2, ![8192, 10]⟩ : Shape).Idx → EReal := fun i => out P (i 0).val (i 1).val

end Cert.Net

end
-- ==== Proof.ArrayOps.lean ====
/-
  The vector operations read at natural-number coordinates are in LibNatRead.lean; this module only brings them and
  the network's parameters together for the modules that use both.
-/
import proofs.«128838_g2000305662181196_pallasbulk_93_52_alg».proof.Proof.LibNatRead
import proofs.«128838_g2000305662181196_pallasbulk_93_52_alg».proof.Proof.Arrays
-- ==== Proof.LibBandSums.lean ====
/-
  Sums against block-banded weights. A sum over B·w consecutive coordinates is the sum of its B runs of w; when the
  weight vanishes outside the blocks lo ≤ b < hi and is M (b − lo) j at offset j of block b, only those runs are
  left, each a plain sum against M. Sums are over Finset.range on the extended reals (a commutative additive
  monoid with 0 · x = 0: no finiteness is used).
-/
import Idealize.ShloMosaic.PureOps.Ideal

open Finset

namespace Cert.Net

/-- A sum over m·n consecutive naturals is the sum of its m runs of n. -/
theorem sum_runs (m n : ℕ) (f : ℕ → EReal) :
    ∑ κ ∈ range (m * n), f κ = ∑ b ∈ range m, ∑ j ∈ range n, f (b * n + j) := by
  induction m with
  | zero => simp
  | succ m ih => rw [Nat.succ_mul, Finset.sum_range_add, ih, Finset.sum_range_succ]

/-- A sum over the blocks lo ≤ b < hi among B blocks, the others contributing zero. -/
theorem sum_blocks (B lo hi : ℕ) (hhi : hi ≤ B) (hlo : lo ≤ hi) (g : ℕ → EReal) (h0 : ∀ b, b < B → ¬(lo ≤ b ∧ b < hi) → g b = 0) :
    ∑ b ∈ range B, g b = ∑ d ∈ range (hi - lo), g (lo + d) := by
  rw [← Finset.sum_subset (s₁ := Finset.Ico lo hi) (s₂ := range B)]
  · rw [Finset.sum_Ico_eq_sum_range]
  · intro b hb
    rw [Finset.mem_Ico] at hb
    exact Finset.mem_range.mpr (by omega)
  · intro b hb hnb
    rw [Finset.mem_Ico] at hnb
    exact h0 b (Finset.mem_range.mp hb) hnb

/-- The banded sum: against a weight that is M (b − lo) j at offset j of block b for lo ≤ b < hi and zero on every
    other block, a sum over B blocks of width w is the sum over the hi − lo live blocks of plain sums against M. -/
theorem band_sum (B w lo hi : ℕ) (hw : 0 < w) (hhi : hi ≤ B) (hlo : lo ≤ hi) (f W : ℕ → EReal) (M : ℕ → ℕ → EReal)
    (hin : ∀ b j, lo ≤ b → b < hi → j < w → W (b * w + j) = M (b - lo) j)
    (hout : ∀ b j, b < B → j < w → ¬(lo ≤ b ∧ b < hi) → W (b * w + j) = 0) :
    ∑ κ ∈ range (B * w), f κ * W κ = ∑ d ∈ range (hi - lo), ∑ j ∈ range w, f ((lo + d) * w + j) * M d j := by
  rw [sum_runs, sum_blocks B lo hi hhi hlo]
  · refine Finset.sum_congr rfl fun d hd => Finset.sum_congr rfl fun j hj => ?_
    rw [Finset.mem_range] at hd hj
    rw [hin (lo + d) j (by omega) (by omega) hj, Nat.add_sub_cancel_left]
  · intro b hb hnb
    refine Finset.sum_eq_zero fun j hj => ?_
    rw [hout b j hb (Finset.mem_range.mp hj) hnb, mul_zero]

end Cert.Net
-- ==== Proof.PlaneAlgebra.lean ====
/-
  The batched plane arrangement computes the network. 1024 images are processed together as 4096 rows: row 4r + q
  holds image rows 8q .. 8q+7 of image r side by side (32 columns each). A convolution row h = 8q + s is "plane" s of
  row 4r + q: its five taps at image rows h .. h+4 lie in row blocks s .. s+4 of the same row when s + 4 ≤ 7, and
  otherwise partly in the first blocks of the NEXT row 4r + q + 1; the banded weight matrices pick exactly those
  blocks, so each plane is the network's convolution row (band_sum). The 2×2 maxima are then entrywise maxima between
  planes, the second convolution repeats the pattern over groups of four pooled rows, and the first dense layer sums
  the five pooled rows, which lie in rows 4r, 4r+1, 4r+2. Rows of a group whose taps would leave the image hold
  values the result never multiplies by a nonzero weight.
-/
import proofs.«128838_g2000305662181196_pallasbulk_93_52_alg».proof.Proof.Net
import proofs.«128838_g2000305662181196_pallasbulk_93_52_alg».proof.Proof.LibBandSums

open Finset

noncomputable section

namespace Cert.Net

/-- What the batched computation reads, at natural coordinates. -/
structure Planes where
  XW : ℕ → ℕ → EReal            -- 4096 × 256: row 4r + q, column 32a + j is image r, row 8q + a, column j
  WA : ℕ → ℕ → ℕ → EReal
  WH : ℕ → ℕ → ℕ → EReal
  WB : ℕ → ℕ → ℕ → EReal
  VA : ℕ → ℕ → ℕ → EReal
  VB : ℕ → ℕ → ℕ → EReal
  W1Q : ℕ → ℕ → ℕ → EReal
  W2 : ℕ → ℕ → EReal
  W3 : ℕ → ℕ → EReal
  B1 : ℕ → EReal
  B2 : ℕ → EReal
  B1f : ℕ → EReal
  B2f : ℕ → EReal
  B3f : ℕ → EReal

/-- Rows moved up by s, zero past the end. -/
def shiftRows (A : ℕ → ℕ → EReal) (s g κ : ℕ) : EReal := if g + s < 4096 then A (g + s) κ else 0

/-- Two planes side by side (four column runs of 128): bias, maximum with zero, the maximum of each plane's two column
    halves, then the maximum of the two planes. -/
def pooledPair (Z : ℕ → ℕ → EReal) (B : ℕ → EReal) (g c : ℕ) : EReal :=
  max (max (max (Z g c + B c) 0) (max (Z g (128 + c) + B (128 + c)) 0))
    (max (max (Z g (256 + c) + B c) 0) (max (Z g (384 + c) + B (128 + c)) 0))

variable (K : Planes)

def z1lo (k g col : ℕ) : EReal := ∑ κ ∈ range 256, K.XW g κ * K.WA k κ col
def z1hi (k g col : ℕ) : EReal :=
  ∑ κ ∈ range 256, K.XW g κ * K.WH k κ col + ∑ κ ∈ range 256, shiftRows K.XW 1 g κ * K.WB k κ col
def p1 (k g c : ℕ) : EReal :=
  if k < 2 then pooledPair (z1lo K k) K.B1 g c else pooledPair (z1hi K (k - 2)) K.B1 g c
def Pc (g κ : ℕ) : EReal := p1 K (κ / 128) g (κ % 128)
def z2a (g col : ℕ) : EReal :=
  ∑ κ ∈ range 512, Pc K g κ * K.VA 0 κ col + ∑ κ ∈ range 256, shiftRows (Pc K) 1 g κ * K.VB 0 κ col
def z2b (g col : ℕ) : EReal :=
  ∑ κ ∈ range 256, Pc K g (256 + κ) * K.VA 1 (256 + κ) col + ∑ κ ∈ range 512, shiftRows (Pc K) 1 g κ * K.VB 1 κ col
def p2 (k g c : ℕ) : EReal := if k = 0 then pooledPair (z2a K) K.B2 g c else pooledPair (z2b K) K.B2 g c
def Qc (g κ : ℕ) : EReal := p2 K (κ / 128) g (κ % 128)
def f1 (g c : ℕ) : EReal :=
  max ((((∑ κ ∈ range 256, Qc K g κ * K.W1Q 0 κ c) + ∑ κ ∈ range 256, shiftRows (Qc K) 1 g κ * K.W1Q 1 κ c)
    + ∑ κ ∈ range 256, shiftRows (Qc K) 2 g κ * K.W1Q 2 κ c) + K.B1f c) 0
def f2 (r c : ℕ) : EReal := max ((∑ j ∈ range 128, f1 K (4 * r) j * K.W2 j c) + K.B2f c) 0
def kout (r c : ℕ) : EReal := (∑ j ∈ range 128, f2 K r j * K.W3 j c) + K.B3f c

/-- The batched computation's inputs are the network's: the images from n0 on, row-grouped, and the banded weights. -/
structure Agrees (P : Params) (n0 : ℕ) : Prop where
  hXW : ∀ r q a j, r < 1024 → q < 4 → a < 8 → j < 32 → K.XW (4 * r + q) (a * 32 + j) = P.X (n0 + r) (8 * q + a) j
  hWA : ∀ k κ col, k < 2 → κ < 256 → col < 512 →
    K.WA k κ col = if 2 * k + col / 256 ≤ κ / 32 ∧ κ / 32 < 2 * k + col / 256 + 5
      then P.M1 (κ / 32 - (2 * k + col / 256)) (κ % 32) (col % 256) else 0
  hWH : ∀ k κ col, k < 2 → κ < 256 → col < 512 →
    K.WH k κ col = if 4 + 2 * k + col / 256 ≤ κ / 32
      then P.M1 (κ / 32 - (4 + 2 * k + col / 256)) (κ % 32) (col % 256) else 0
  hWB : ∀ k κ col, k < 2 → κ < 256 → col < 512 →
    K.WB k κ col = if κ / 32 + 8 < 4 + 2 * k + col / 256 + 5
      then P.M1 (κ / 32 + 8 - (4 + 2 * k + col / 256)) (κ % 32) (col % 256) else 0
  hVA : ∀ k κ col, k < 2 → κ < 512 → col < 512 →
    K.VA k κ col = if 2 * k + col / 256 ≤ κ / 128
      then P.M2 (κ / 128 - (2 * k + col / 256)) (κ % 128) (col % 256) else 0
  hVB : ∀ k κ col, k < 2 → κ < 512 → col < 512 →
    K.VB k κ col = if κ / 128 + 4 < 2 * k + col / 256 + 5
      then P.M2 (κ / 128 + 4 - (2 * k + col / 256)) (κ % 128) (col % 256) else 0
  hW1Q : ∀ g κ col, g < 3 → κ < 256 → col < 128 →
    K.W1Q g κ col = if 2 * g + κ / 128 ≤ 4 then P.W1 (2 * g + κ / 128) (κ % 128) col else 0
  hW2 : ∀ j col, j < 128 → col < 128 → K.W2 j col = P.W2 j col
  hW3 : ∀ j col, j < 128 → col < 128 → K.W3 j col = P.W3 j col
  hB1 : ∀ c, c < 256 → K.B1 c = P.B1 c
  hB2 : ∀ c, c < 256 → K.B2 c = P.B2 c
  hB1f : ∀ c, c < 128 → K.B1f c = P.B1f c
  hB2f : ∀ c, c < 128 → K.B2f c = P.B2f c
  hB3f : ∀ c, c < 128 → K.B3f c = P.B3f c

variable {K} {P : Params} {n0 : ℕ}

/-- Planes 0..3 of the first convolution: all five taps lie in the row's own blocks. -/
theorem z1lo_eq (H : Agrees K P n0) (r q k col : ℕ) (hr : r < 1024) (hq : q < 4) (hk : k < 2) (hcol : col < 512) :
    z1lo K k (4 * r + q) col = conv1 P (n0 + r) (8 * q + (2 * k + col / 256)) (col % 256) := by
  unfold z1lo conv1
  have he : col / 256 < 2 := by omega
  show ∑ κ ∈ range (8 * 32), _ = _
  rw [band_sum 8 32 (2 * k + col / 256) (2 * k + col / 256 + 5) (by norm_num) (by omega) (by omega)
    (K.XW (4 * r + q)) (fun κ => K.WA k κ col) (fun d j => P.M1 d j (col % 256))
    (fun b j h1 h2 hj => by
      have hb : (b * 32 + j) / 32 = b := by omega
      have hm : (b * 32 + j) % 32 = j := by omega
      show K.WA k (b * 32 + j) col = _
      rw [H.hWA k (b * 32 + j) col hk (by omega) hcol, hb, hm, if_pos ⟨h1, h2⟩])
    (fun b j hb8 hj hn => by
      have hb : (b * 32 + j) / 32 = b := by omega
      have hm : (b * 32 + j) % 32 = j := by omega
      show K.WA k (b * 32 + j) col = _
      rw [H.hWA k (b * 32 + j) col hk (by omega) hcol, hb, hm, if_neg hn]),
    Nat.add_sub_cancel_left]
  refine Finset.sum_congr rfl fun d hd => Finset.sum_congr rfl fun j hj => ?_
  rw [Finset.mem_range] at hd hj
  rw [H.hXW r q (2 * k + col / 256 + d) j hr hq (by omega) hj,
    show 8 * q + (2 * k + col / 256 + d) = 8 * q + (2 * k + col / 256) + d by omega]

/-- Planes 4..7 of the first convolution, in a row that has a next row inside its image (q ≤ 2): the taps split
    between the row's last blocks and the next row's first blocks. -/
theorem z1hi_eq (H : Agrees K P n0) (r q k col : ℕ) (hr : r < 1024) (hq : q < 3) (hk : k < 2) (hcol : col < 512) :
    z1hi K k (4 * r + q) col = conv1 P (n0 + r) (8 * q + (4 + 2 * k + col / 256)) (col % 256) := by
  unfold z1hi conv1
  have he : col / 256 < 2 := by omega
  generalize hs : 4 + 2 * k + col / 256 = s
  have hs4 : 4 ≤ s := by omega
  have hs7 : s ≤ 7 := by omega
  show ∑ κ ∈ range (8 * 32), _ + ∑ κ ∈ range (8 * 32), _ = _
  rw [show (5 : ℕ) = (8 - s) + (s - 3) by omega, Finset.sum_range_add, band_sum 8 32 s 8 (by norm_num) (le_refl _) (by omega)
    (K.XW (4 * r + q)) (fun κ => K.WH k κ col) (fun d j => P.M1 d j (col % 256))
    (fun b j h1 h2 hj => by
      have hb : (b * 32 + j) / 32 = b := by omega
      have hm : (b * 32 + j) % 32 = j := by omega
      show K.WH k (b * 32 + j) col = _
      rw [H.hWH k (b * 32 + j) col hk (by omega) hcol, hs, hb, hm, if_pos h1])
    (fun b j hb8 hj hn => by
      have hb : (b * 32 + j) / 32 = b := by omega
      have hm : (b * 32 + j) % 32 = j := by omega
      show K.WH k (b * 32 + j) col = _
      rw [H.hWH k (b * 32 + j) col hk (by omega) hcol, hs, hb, hm, if_neg (by omega)]),
    band_sum 8 32 0 (s - 3) (by norm_num) (by omega) (Nat.zero_le _)
    (shiftRows K.XW 1 (4 * r + q)) (fun κ => K.WB k κ col) (fun d j => P.M1 (d + 8 - s) j (col % 256))
    (fun b j h1 h2 hj => by
      have hb : (b * 32 + j) / 32 = b := by omega
      have hm : (b * 32 + j) % 32 = j := by omega
      show K.WB k (b * 32 + j) col = _
      rw [H.hWB k (b * 32 + j) col hk (by omega) hcol, hs, hb, hm, if_pos (by omega), Nat.sub_zero])
    (fun b j hb8 hj hn => by
      have hb : (b * 32 + j) / 32 = b := by omega
      have hm : (b * 32 + j) % 32 = j := by omega
      show K.WB k (b * 32 + j) col = _
      rw [H.hWB k (b * 32 + j) col hk (by omega) hcol, hs, hb, hm, if_neg (by omega)]),
    Nat.sub_zero]
  congr 1
  · refine Finset.sum_congr rfl fun d hd => Finset.sum_congr rfl fun j hj => ?_
    rw [Finset.mem_range] at hd hj
    rw [H.hXW r q (s + d) j hr (by omega) (by omega) hj, Nat.add_assoc]
  · refine Finset.sum_congr rfl fun d hd => Finset.sum_congr rfl fun j hj => ?_
    rw [Finset.mem_range] at hd hj
    have hsh : shiftRows K.XW 1 (4 * r + q) ((0 + d) * 32 + j) = K.XW (4 * r + (q + 1)) (d * 32 + j) := by
      unfold shiftRows
      rw [if_pos (by omega), Nat.zero_add, Nat.add_assoc]
    rw [hsh, H.hXW r (q + 1) d j hr (by omega) (by omega) hj,
      show 8 * (q + 1) + d = 8 * q + s + (8 - s + d) by omega, show d + 8 - s = 8 - s + d by omega]

/-- A pooled pair of planes whose four column runs are rows 2h and 2h+1 of A at the two column halves. -/
theorem pooledPair_eq (Z : ℕ → ℕ → EReal) (B : ℕ → EReal) (A : ℕ → ℕ → EReal) (bb : ℕ → EReal) (g c h : ℕ)
    (h0 : Z g c = A (2 * h) c) (h1 : Z g (128 + c) = A (2 * h) (128 + c))
    (h2 : Z g (256 + c) = A (2 * h + 1) c) (h3 : Z g (384 + c) = A (2 * h + 1) (128 + c))
    (hb0 : B c = bb c) (hb1 : B (128 + c) = bb (128 + c)) :
    pooledPair Z B g c = max (max (max (A (2 * h) c + bb c) 0) (max (A (2 * h) (128 + c) + bb (128 + c)) 0))
      (max (max (A (2 * h + 1) c + bb c) 0) (max (A (2 * h + 1) (128 + c) + bb (128 + c)) 0)) := by
  unfold pooledPair
  rw [h0, h1, h2, h3, hb0, hb1]

/-- The first pooled planes: pooled row 4q + k of the image, wherever that row exists (4q + k ≤ 13). -/
theorem p1_eq (H : Agrees K P n0) (r q k c : ℕ) (hr : r < 1024) (hq : q < 4) (hk : k < 4) (hv : 4 * q + k ≤ 13)
    (hc : c < 128) : p1 K k (4 * r + q) c = pool1 P (n0 + r) (4 * q + k) c := by
  unfold p1
  by_cases hk2 : k < 2
  · rw [if_pos hk2]
    refine (pooledPair_eq _ _ (conv1 P (n0 + r)) P.B1 _ c (4 * q + k) ?_ ?_ ?_ ?_ (H.hB1 c (by omega)) (H.hB1 _ (by omega))).trans rfl
    · rw [z1lo_eq H r q k c hr hq hk2 (by omega)]; congr 1 <;> omega
    · rw [z1lo_eq H r q k (128 + c) hr hq hk2 (by omega)]; congr 1 <;> omega
    · rw [z1lo_eq H r q k (256 + c) hr hq hk2 (by omega)]; congr 1 <;> omega
    · rw [z1lo_eq H r q k (384 + c) hr hq hk2 (by omega)]; congr 1 <;> omega
  · rw [if_neg hk2]
    have hq3 : q < 3 := by omega
    have hk' : k - 2 < 2 := by omega
    refine (pooledPair_eq _ _ (conv1 P (n0 + r)) P.B1 _ c (4 * q + k) ?_ ?_ ?_ ?_ (H.hB1 c (by omega)) (H.hB1 _ (by omega))).trans rfl
    · rw [z1hi_eq H r q (k - 2) c hr hq3 hk' (by omega)]; congr 1 <;> omega
    · rw [z1hi_eq H r q (k - 2) (128 + c) hr hq3 hk' (by omega)]; congr 1 <;> omega
    · rw [z1hi_eq H r q (k - 2) (256 + c) hr hq3 hk' (by omega)]; congr 1 <;> omega
    · rw [z1hi_eq H r q (k - 2) (384 + c) hr hq3 hk' (by omega)]; congr 1 <;> omega

/-- The concatenated pooled planes at block b, offset j. -/
theorem Pc_block (b j g : ℕ) (hj : j < 128) : Pc K g (b * 128 + j) = p1 K b g j := by
  unfold Pc
  rw [show (b * 128 + j) / 128 = b by omega, show (b * 128 + j) % 128 = j by omega]

/-- Planes 0, 1 of the second convolution (conv row 4q + e ≤ 9). -/
theorem z2a_eq (H : Agrees K P n0) (r q col : ℕ) (hr : r < 1024) (hq : q < 3) (hcol : col < 512) :
    z2a K (4 * r + q) col = conv2 P (n0 + r) (4 * q + col / 256) (col % 256) := by
  unfold z2a conv2
  have he : col / 256 < 2 := by omega
  generalize hs : col / 256 = e at he ⊢
  show ∑ κ ∈ range (4 * 128), _ + ∑ κ ∈ range (2 * 128), _ = _
  rw [show (5 : ℕ) = (4 - e) + (e + 1) by omega, Finset.sum_range_add, band_sum 4 128 e 4 (by norm_num) (le_refl _) (by omega)
    (Pc K (4 * r + q)) (fun κ => K.VA 0 κ col) (fun d j => P.M2 d j (col % 256))
    (fun b j h1 h2 hj => by
      have hb : (b * 128 + j) / 128 = b := by omega
      have hm : (b * 128 + j) % 128 = j := by omega
      show K.VA 0 (b * 128 + j) col = _
      rw [H.hVA 0 (b * 128 + j) col (by norm_num) (by omega) hcol, hs, hb, hm, Nat.mul_zero, Nat.zero_add, if_pos h1])
    (fun b j hb4 hj hn => by
      have hb : (b * 128 + j) / 128 = b := by omega
      have hm : (b * 128 + j) % 128 = j := by omega
      show K.VA 0 (b * 128 + j) col = _
      rw [H.hVA 0 (b * 128 + j) col (by norm_num) (by omega) hcol, hs, hb, hm, Nat.mul_zero, Nat.zero_add, if_neg (by omega)]),
    band_sum 2 128 0 (e + 1) (by norm_num) (by omega) (Nat.zero_le _)
    (shiftRows (Pc K) 1 (4 * r + q)) (fun κ => K.VB 0 κ col) (fun d j => P.M2 (d + 4 - e) j (col % 256))
    (fun b j h1 h2 hj => by
      have hb : (b * 128 + j) / 128 = b := by omega
      have hm : (b * 128 + j) % 128 = j := by omega
      show K.VB 0 (b * 128 + j) col = _
      rw [H.hVB 0 (b * 128 + j) col (by norm_num) (by omega) hcol, hs, hb, hm, Nat.mul_zero, Nat.zero_add, if_pos (by omega), Nat.sub_zero])
    (fun b j hb2 hj hn => by
      have hb : (b * 128 + j) / 128 = b := by omega
      have hm : (b * 128 + j) % 128 = j := by omega
      show K.VB 0 (b * 128 + j) col = _
      rw [H.hVB 0 (b * 128 + j) col (by norm_num) (by omega) hcol, hs, hb, hm, Nat.mul_zero, Nat.zero_add, if_neg (by omega)]),
    Nat.sub_zero]
  congr 1
  · refine Finset.sum_congr rfl fun d hd => Finset.sum_congr rfl fun j hj => ?_
    rw [Finset.mem_range] at hd hj
    rw [Pc_block (e + d) j _ hj, p1_eq H r q (e + d) j hr (by omega) (by omega) (by omega) hj, Nat.add_assoc]
  · refine Finset.sum_congr rfl fun d hd => Finset.sum_congr rfl fun j hj => ?_
    rw [Finset.mem_range] at hd hj
    have hsh : shiftRows (Pc K) 1 (4 * r + q) ((0 + d) * 128 + j) = Pc K (4 * r + (q + 1)) (d * 128 + j) := by
      unfold shiftRows
      rw [if_pos (by omega), Nat.zero_add, Nat.add_assoc]
    rw [hsh, Pc_block d j _ hj, p1_eq H r (q + 1) d j hr (by omega) (by omega) (by omega) hj,
      show 4 * (q + 1) + d = 4 * q + e + (4 - e + d) by omega, show d + 4 - e = 4 - e + d by omega]

/-- Planes 2, 3 of the second convolution (conv row 4q + 2 + e ≤ 9: q ≤ 1). -/
theorem z2b_eq (H : Agrees K P n0) (r q col : ℕ) (hr : r < 1024) (hq : q < 2) (hcol : col < 512) :
    z2b K (4 * r + q) col = conv2 P (n0 + r) (4 * q + (2 + col / 256)) (col % 256) := by
  unfold z2b conv2
  have he : col / 256 < 2 := by omega
  generalize hs : col / 256 = e at he ⊢
  show ∑ κ ∈ range (2 * 128), _ + ∑ κ ∈ range (4 * 128), _ = _
  rw [show (5 : ℕ) = (2 - e) + (3 + e) by omega, Finset.sum_range_add, band_sum 2 128 e 2 (by norm_num) (le_refl _) (by omega)
    (fun κ => Pc K (4 * r + q) (256 + κ)) (fun κ => K.VA 1 (256 + κ) col) (fun d j => P.M2 d j (col % 256))
    (fun b j h1 h2 hj => by
      have hb : (256 + (b * 128 + j)) / 128 = b + 2 := by omega
      have hm : (256 + (b * 128 + j)) % 128 = j := by omega
      show K.VA 1 (256 + (b * 128 + j)) col = _
      rw [H.hVA 1 (256 + (b * 128 + j)) col (by norm_num) (by omega) hcol, hs, hb, hm, if_pos (by omega),
        show b + 2 - (2 * 1 + e) = b - e by omega])
    (fun b j hb2 hj hn => by
      have hb : (256 + (b * 128 + j)) / 128 = b + 2 := by omega
      have hm : (256 + (b * 128 + j)) % 128 = j := by omega
      show K.VA 1 (256 + (b * 128 + j)) col = _
      rw [H.hVA 1 (256 + (b * 128 + j)) col (by norm_num) (by omega) hcol, hs, hb, hm, if_neg (by omega)]),
    band_sum 4 128 0 (3 + e) (by norm_num) (by omega) (Nat.zero_le _)
    (shiftRows (Pc K) 1 (4 * r + q)) (fun κ => K.VB 1 κ col) (fun d j => P.M2 (d + 2 - e) j (col % 256))
    (fun b j h1 h2 hj => by
      have hb : (b * 128 + j) / 128 = b := by omega
      have hm : (b * 128 + j) % 128 = j := by omega
      show K.VB 1 (b * 128 + j) col = _
      rw [H.hVB 1 (b * 128 + j) col (by norm_num) (by omega) hcol, hs, hb, hm, if_pos (by omega), Nat.sub_zero,
        show b + 4 - (2 * 1 + e) = b + 2 - e by omega])
    (fun b j hb4 hj hn => by
      have hb : (b * 128 + j) / 128 = b := by omega
      have hm : (b * 128 + j) % 128 = j := by omega
      show K.VB 1 (b * 128 + j) col = _
      rw [H.hVB 1 (b * 128 + j) col (by norm_num) (by omega) hcol, hs, hb, hm, if_neg (by omega)]),
    Nat.sub_zero]
  congr 1
  · refine Finset.sum_congr rfl fun d hd => Finset.sum_congr rfl fun j hj => ?_
    rw [Finset.mem_range] at hd hj
    show Pc K (4 * r + q) (256 + ((e + d) * 128 + j)) * _ = _
    rw [show 256 + ((e + d) * 128 + j) = (2 + e + d) * 128 + j by omega, Pc_block (2 + e + d) j _ hj,
      p1_eq H r q (2 + e + d) j hr (by omega) (by omega) (by omega) hj,
      show 4 * q + (2 + e + d) = 4 * q + (2 + e) + d by omega]
  · refine Finset.sum_congr rfl fun d hd => Finset.sum_congr rfl fun j hj => ?_
    rw [Finset.mem_range] at hd hj
    have hsh : shiftRows (Pc K) 1 (4 * r + q) ((0 + d) * 128 + j) = Pc K (4 * r + (q + 1)) (d * 128 + j) := by
      unfold shiftRows
      rw [if_pos (by omega), Nat.zero_add, Nat.add_assoc]
    rw [hsh, Pc_block d j _ hj, p1_eq H r (q + 1) d j hr (by omega) (by omega) (by omega) hj,
      show 4 * (q + 1) + d = 4 * q + (2 + e) + (2 - e + d) by omega, show d + 2 - e = 2 - e + d by omega]

/-- The second pooled planes: pooled row 2q + k of the image, wherever that row exists (2q + k ≤ 4). -/
theorem p2_eq (H : Agrees K P n0) (r q k c : ℕ) (hr : r < 1024) (hq : q < 3) (hk : k < 2) (hv : 2 * q + k ≤ 4)
    (hc : c < 128) : p2 K k (4 * r + q) c = pool2 P (n0 + r) (2 * q + k) c := by
  unfold p2
  by_cases hk0 : k = 0
  · rw [if_pos hk0]
    refine (pooledPair_eq _ _ (conv2 P (n0 + r)) P.B2 _ c (2 * q + k) ?_ ?_ ?_ ?_ (H.hB2 c (by omega)) (H.hB2 _ (by omega))).trans rfl
    · rw [z2a_eq H r q c hr hq (by omega)]; congr 1 <;> omega
    · rw [z2a_eq H r q (128 + c) hr hq (by omega)]; congr 1 <;> omega
    · rw [z2a_eq H r q (256 + c) hr hq (by omega)]; congr 1 <;> omega
    · rw [z2a_eq H r q (384 + c) hr hq (by omega)]; congr 1 <;> omega
  · rw [if_neg hk0]
    have hq2 : q < 2 := by omega
    refine (pooledPair_eq _ _ (conv2 P (n0 + r)) P.B2 _ c (2 * q + k) ?_ ?_ ?_ ?_ (H.hB2 c (by omega)) (H.hB2 _ (by omega))).trans rfl
    · rw [z2b_eq H r q c hr hq2 (by omega)]; congr 1 <;> omega
    · rw [z2b_eq H r q (128 + c) hr hq2 (by omega)]; congr 1 <;> omega
    · rw [z2b_eq H r q (256 + c) hr hq2 (by omega)]; congr 1 <;> omega
    · rw [z2b_eq H r q (384 + c) hr hq2 (by omega)]; congr 1 <;> omega

theorem Qc_block (b j g : ℕ) (hj : j < 128) : Qc K g (b * 128 + j) = p2 K b g j := by
  unfold Qc
  rw [show (b * 128 + j) / 128 = b by omega, show (b * 128 + j) % 128 = j by omega]

theorem sum_range_five (S : ℕ → EReal) : ∑ h ∈ range 5, S h = ((S 0 + S 1) + (S 2 + S 3)) + S 4 := by
  simp only [Finset.sum_range_succ, Finset.sum_range_zero, zero_add, add_assoc]
theorem sum_range_two (S : ℕ → EReal) : ∑ h ∈ range 2, S h = S 0 + S 1 := by
  simp only [Finset.sum_range_succ, Finset.sum_range_zero, zero_add]
theorem sum_range_one' (S : ℕ → EReal) : ∑ h ∈ range 1, S h = S 0 := by
  simp only [Finset.sum_range_succ, Finset.sum_range_zero, zero_add]

/-- One of the three row-shifted products of the first dense layer: rows 4r + g of the pooled planes against the
    paired slabs 2g, 2g+1 (the slab 5 absent). -/
theorem dense_part (H : Agrees K P n0) (r g c hi : ℕ) (hr : r < 1024) (hg : g < 3) (hc : c < 128)
    (hhi : hi = if g < 2 then 2 else 1) (f : ℕ → EReal)
    (hf : ∀ d j, d < hi → j < 128 → f (d * 128 + j) = pool2 P (n0 + r) (2 * g + d) j) :
    ∑ κ ∈ range 256, f κ * K.W1Q g κ c
      = ∑ d ∈ range hi, ∑ j ∈ range 128, pool2 P (n0 + r) (2 * g + d) j * P.W1 (2 * g + d) j c := by
  have hhi2 : hi ≤ 2 := by subst hhi; split <;> omega
  show ∑ κ ∈ range (2 * 128), _ = _
  rw [band_sum 2 128 0 hi (by norm_num) hhi2 (Nat.zero_le _) f (fun κ => K.W1Q g κ c)
    (fun d j => P.W1 (2 * g + d) j c)
    (fun b j h1 h2 hj => by
      have hb : (b * 128 + j) / 128 = b := by omega
      have hm : (b * 128 + j) % 128 = j := by omega
      show K.W1Q g (b * 128 + j) c = _
      rw [H.hW1Q g (b * 128 + j) c hg (by omega) hc, hb, hm, if_pos (by subst hhi; split at h2 <;> omega), Nat.sub_zero])
    (fun b j hb2 hj hn => by
      have hb : (b * 128 + j) / 128 = b := by omega
      have hm : (b * 128 + j) % 128 = j := by omega
      show K.W1Q g (b * 128 + j) c = _
      rw [H.hW1Q g (b * 128 + j) c hg (by omega) hc, hb, hm, if_neg (by subst hhi; split at hn <;> omega)]),
    Nat.sub_zero]
  refine Finset.sum_congr rfl fun d hd => Finset.sum_congr rfl fun j hj => ?_
  rw [Finset.mem_range] at hd hj
  rw [Nat.zero_add, hf d j hd hj]

/-- The first dense layer at the first row of an image's group. -/
theorem f1_eq (H : Agrees K P n0) (r c : ℕ) (hr : r < 1024) (hc : c < 128) : f1 K (4 * r) c = dense1 P (n0 + r) c := by
  unfold f1 dense1
  rw [dense_part H r 0 c 2 hr (by norm_num) hc rfl (Qc K (4 * r)) (fun d j hd hj => by
        rw [Qc_block d j _ hj]
        exact p2_eq H r 0 d j hr (by norm_num) hd (by omega) hj),
    dense_part H r 1 c 2 hr (by norm_num) hc rfl (shiftRows (Qc K) 1 (4 * r)) (fun d j hd hj => by
        unfold shiftRows
        rw [if_pos (by omega), Qc_block d j _ hj]
        exact p2_eq H r 1 d j hr (by norm_num) hd (by omega) hj),
    dense_part H r 2 c 1 hr (by norm_num) hc rfl (shiftRows (Qc K) 2 (4 * r)) (fun d j hd hj => by
        unfold shiftRows
        rw [if_pos (by omega), Qc_block d j _ hj]
        exact p2_eq H r 2 d j hr (by norm_num) (by omega) (by omega) hj),
    H.hB1f c hc, sum_range_five, sum_range_two, sum_range_two, sum_range_one']

theorem f2_eq (H : Agrees K P n0) (r c : ℕ) (hr : r < 1024) (hc : c < 128) : f2 K r c = dense2 P (n0 + r) c := by
  unfold f2 dense2
  rw [H.hB2f c hc]
  congr 2
  refine Finset.sum_congr rfl fun j hj => ?_
  rw [Finset.mem_range] at hj
  rw [f1_eq H r j hr hj, H.hW2 j c hj hc]

/-- The batched computation's row r, column c is the network's output for image n0 + r. -/
theorem kout_eq (H : Agrees K P n0) (r c : ℕ) (hr : r < 1024) (hc : c < 128) : kout K r c = out P (n0 + r) c := by
  unfold kout out
  rw [H.hB3f c hc]
  congr 1
  refine Finset.sum_congr rfl fun j hj => ?_
  rw [Finset.mem_range] at hj
  rw [f2_eq H r j hr hj, H.hW3 j c hj hc]

end Cert.Net

end
-- ==== Proof.KerPayloads.lean ====
/-
  The batched kernel's body, value by value, read at natural-number coordinates: each stored or carried value of
  the body (a product of the row-grouped images with a banded weight matrix, a pooled pair of planes, the planes
  laid side by side, the same moved up by one row group, …) is the corresponding array of the plane arrangement.
-/
import proofs.«128838_g2000305662181196_pallasbulk_93_52_alg».proof.Proof.Gen.KernelIdeal.Skeleton
import proofs.«128838_g2000305662181196_pallasbulk_93_52_alg».proof.Proof.ArrayOps
import proofs.«128838_g2000305662181196_pallasbulk_93_52_alg».proof.Proof.PlaneAlgebra

set_option maxRecDepth 16384

open Idealize.ShloMosaic Idealize.ShloMosaic.ValueIdx Finset Cert.Net

noncomputable section

namespace Cert.KernelIdeal.Body

open Cert.KernelIdeal Cert.KernelIdeal.Gen

/-- The image block as 4096 rows of 256: row g is quarter g % 4 of image g / 4. -/
theorem pay85_rd (v3 : Vec Ideal S1024x1024 .f32) (g κ : ℕ) (hg : g < 4096) (hκ : κ < 256) :
    rd2 (k0_pay85 v3) g κ = rd2 v3 (g / 4) ((g % 4) * 256 + κ) := by
  dsimp only [k0_pay85]
  rw [rd2_recast _ _ g κ (g / 4) ((g % 4) * 256 + κ) hg hκ (by omega) (by omega) (by omega), rd2_truncf,
    Idealize.ShloMosaic.shapeCast_self]

/-- The same moved up by one row, a zero row appended. -/
theorem pay86_rd (v3 : Vec Ideal S1024x1024 .f32) (g κ : ℕ) (hg : g < 4096) (hκ : κ < 256) :
    rd2 (k0_pay86 v3) g κ = shiftRows (rd2 (k0_pay85 v3)) 1 g κ := by
  dsimp only [k0_pay86]
  rw [rd2_shift _ _ _ _ (by norm_num) g κ hg hκ]
  unfold shiftRows
  split
  · rfl
  · unfold rd2
    split
    · exact ofBits_zero_bf16
    · rfl

/-- A product of the row-grouped images with one loaded weight matrix. -/
theorem pay87_rd (v3 : Vec Ideal S1024x1024 .f32) (v12 : FVec Ideal S1x256x512 .bf16) (g col : ℕ) (hg : g < 4096) (hcol : col < 512) :
    rd2 (k0_pay87 v3 v12) g col = ∑ κ ∈ range 256, rd2 (k0_pay85 v3) g κ * rd3 v12 0 κ col := by
  dsimp only [k0_pay87]
  rw [rd2_matmul dot_S4096x256_S256x512_S4096x512_1_0_0_1_n_n rfl _ _ g col hg hcol]
  refine Finset.sum_congr rfl fun κ _ => ?_
  rw [rd2_dropUnit]

/-- The first pooled pair of planes. -/
theorem pay90_rd (v3 : Vec Ideal S1024x1024 .f32) (v10 : Vec Ideal S1x256 .f32) (v12 : FVec Ideal S1x256x512 .bf16)
    (g c : ℕ) (hg : g < 4096) (hc : c < 128) :
    rd2 (k0_pay90 (k0_pay88 v3 v10 v12) (k0_pay89 v3 v10 v12)) g c
      = pooledPair (rd2 (k0_pay87 v3 v12)) (rd2 v10 0) g c := by
  dsimp only [k0_pay90, k0_pay88, k0_pay89]
  unfold pooledPair
  simp (disch := omega) only [rd2_truncf, rd2_maximumf, rd2_addf, rd2_zero_f32', rd2_cols, rd2_bcastRow, Nat.zero_add]

/-- The four product shapes of the body into the zero accumulator, the right operand a loaded slab. -/
theorem mm_rd (L : FVec Ideal S4096x256 .bf16) (v : FVec Ideal S1x256x512 .bf16) (g col : ℕ) (hg : g < 4096) (hcol : col < 512) :
    rd2 (matmul dot_S4096x256_S256x512_S4096x512_1_0_0_1_n_n none L (shapeCast S256x512 v shapeCasts_S1x256x512_S256x512)
      (constant S4096x512 .f32 0x00000000#32)) g col = ∑ κ ∈ range 256, rd2 L g κ * rd3 v 0 κ col := by
  rw [rd2_matmul dot_S4096x256_S256x512_S4096x512_1_0_0_1_n_n rfl _ _ g col hg hcol]
  exact Finset.sum_congr rfl fun κ _ => by rw [rd2_dropUnit]

theorem mm512_rd (L : FVec Ideal S4096x512 .bf16) (v : FVec Ideal S1x512x512 .bf16) (g col : ℕ) (hg : g < 4096) (hcol : col < 512) :
    rd2 (matmul dot_S4096x512_S512x512_S4096x512_1_0_0_1_n_n none L (shapeCast S512x512 v shapeCasts_S1x512x512_S512x512)
      (constant S4096x512 .f32 0x00000000#32)) g col = ∑ κ ∈ range 512, rd2 L g κ * rd3 v 0 κ col := by
  rw [rd2_matmul dot_S4096x512_S512x512_S4096x512_1_0_0_1_n_n rfl _ _ g col hg hcol]
  exact Finset.sum_congr rfl fun κ _ => by rw [rd2_dropUnit]

theorem mm128_rd (L : FVec Ideal S4096x256 .bf16) (v : FVec Ideal S1x256x128 .bf16) (g col : ℕ) (hg : g < 4096) (hcol : col < 128) :
    rd2 (matmul dot_S4096x256_S256x128_S4096x128_1_0_0_1_n_n none L (shapeCast S256x128 v shapeCasts_S1x256x128_S256x128)
      (constant S4096x128 .f32 0x00000000#32)) g col = ∑ κ ∈ range 256, rd2 L g κ * rd3 v 0 κ col := by
  rw [rd2_matmul dot_S4096x256_S256x128_S4096x128_1_0_0_1_n_n rfl _ _ g col hg hcol]
  exact Finset.sum_congr rfl fun κ _ => by rw [rd2_dropUnit]

theorem mmd_rd (L : FVec Ideal S1024x128 .bf16) (w : FVec Ideal S128x128 .bf16) (r col : ℕ) (hr : r < 1024) (hcol : col < 128) :
    rd2 (matmul dot_S1024x128_S128x128_S1024x128_1_0_0_1_n_n none L w (constant S1024x128 .f32 0x00000000#32)) r col
      = ∑ κ ∈ range 128, rd2 L r κ * rd2 w κ col :=
  rd2_matmul dot_S1024x128_S128x128_S1024x128_1_0_0_1_n_n rfl _ _ r col hr hcol

/-- The second pooled pair of planes. -/
theorem pay91_rd (v6 : FVec Ideal S4096x256 .bf16) (v10 : Vec Ideal S1x256 .f32) (v43 : FVec Ideal S1x256x512 .bf16)
    (g c : ℕ) (hg : g < 4096) (hc : c < 128) :
    rd2 (k0_pay91 v6 v10 v43) g c
      = pooledPair (fun g col => ∑ κ ∈ range 256, rd2 v6 g κ * rd3 v43 0 κ col) (rd2 v10 0) g c := by
  dsimp only [k0_pay91]
  unfold pooledPair
  simp (disch := omega) only [rd2_truncf, rd2_maximumf, rd2_addf, rd2_zero_f32', rd2_cols, rd2_bcastRow, Nat.zero_add, mm_rd]

/-- A product with the row group's own blocks plus one with the next row group's. -/
theorem pay92_rd (v6 v9 : FVec Ideal S4096x256 .bf16) (v74 v77 : FVec Ideal S1x256x512 .bf16) (g col : ℕ) (hg : g < 4096) (hcol : col < 512) :
    rd2 (k0_pay92 v6 v9 v74 v77) g col
      = ∑ κ ∈ range 256, rd2 v6 g κ * rd3 v74 0 κ col + ∑ κ ∈ range 256, rd2 v9 g κ * rd3 v77 0 κ col := by
  dsimp only [k0_pay92]
  simp (disch := omega) only [rd2_addf, mm_rd]

theorem pay95_rd (v6 v9 : FVec Ideal S4096x256 .bf16) (v109 v112 : FVec Ideal S1x256x512 .bf16) (g col : ℕ) (hg : g < 4096) (hcol : col < 512) :
    rd2 (k0_pay95 v6 v9 v109 v112) g col
      = ∑ κ ∈ range 256, rd2 v6 g κ * rd3 v109 0 κ col + ∑ κ ∈ range 256, rd2 v9 g κ * rd3 v112 0 κ col := by
  dsimp only [k0_pay95]
  simp (disch := omega) only [rd2_addf, mm_rd]

/-- The third pooled pair of planes. -/
theorem pay94_rd (v6 v9 : FVec Ideal S4096x256 .bf16) (v10 : Vec Ideal S1x256 .f32) (v74 v77 : FVec Ideal S1x256x512 .bf16)
    (g c : ℕ) (hg : g < 4096) (hc : c < 128) :
    rd2 (k0_pay94 v10 (k0_pay92 v6 v9 v74 v77) (k0_pay93 v6 v9 v10 v74 v77)) g c
      = pooledPair (rd2 (k0_pay92 v6 v9 v74 v77)) (rd2 v10 0) g c := by
  dsimp only [k0_pay94, k0_pay93]
  unfold pooledPair
  simp (disch := omega) only [rd2_truncf, rd2_maximumf, rd2_addf, rd2_zero_f32', rd2_cols, rd2_bcastRow, Nat.zero_add]

/-- The four pooled planes side by side. -/
theorem pay99_rd (v6 v9 : FVec Ideal S4096x256 .bf16) (v10 : Vec Ideal S1x256 .f32) (v42 v73 v108 : FVec Ideal S4096x128 .bf16)
    (v109 v112 : FVec Ideal S1x256x512 .bf16) (g k j : ℕ) (hg : g < 4096) (hk : k < 4) (hj : j < 128) :
    rd2 (k0_pay99 v10 v42 v73 v108 (k0_pay95 v6 v9 v109 v112) (k0_pay96 v6 v9 v10 v109 v112) (k0_pay97 v6 v9 v109 v112) (k0_pay98 v10)) g (k * 128 + j)
      = if k = 0 then rd2 v42 g j else if k = 1 then rd2 v73 g j else if k = 2 then rd2 v108 g j
        else pooledPair (rd2 (k0_pay95 v6 v9 v109 v112)) (rd2 v10 0) g j := by
  dsimp only [k0_pay99]
  rw [rd2_concat4 _ _ _ _ _ g k j hg hk hj]
  obtain rfl | rfl | rfl | rfl : k = 0 ∨ k = 1 ∨ k = 2 ∨ k = 3 := by omega
  · rfl
  · rfl
  · rfl
  · rw [if_neg (by norm_num : ¬ (3 : ℕ) = 0), if_neg (by norm_num : ¬ (3 : ℕ) = 1), if_neg (by norm_num : ¬ (3 : ℕ) = 2),
      if_neg (by norm_num : ¬ (3 : ℕ) = 0), if_neg (by norm_num : ¬ (3 : ℕ) = 1), if_neg (by norm_num : ¬ (3 : ℕ) = 2)]
    dsimp only [k0_pay96, k0_pay97, k0_pay98]
    unfold pooledPair
    simp (disch := omega) only [rd2_truncf, rd2_maximumf, rd2_addf, rd2_zero_f32', rd2_cols, rd2_bcastRow, Nat.zero_add]

/-- Rows moved up by s with s zero rows appended, as the plane arrangement's shiftRows. -/
theorem rd2_shiftZero {b m s : ℕ} (X : (⟨2, ![4096, b]⟩ : Shape).Idx → EReal)
    (hs : (⟨2, ![4096, b]⟩ : Shape).Slices ![s, 0] ⟨2, ![m, b]⟩)
    (hc : Shape.Concatenates [(⟨2, ![m, b]⟩ : Shape), ⟨2, ![s, b]⟩] ⟨2, ![4096, b]⟩ (0 : Fin 2))
    (hm : m + s = 4096) (g κ : ℕ) (hg : g < 4096) (hκ : κ < b) :
    rd2 (concatenate (⟨2, ![4096, b]⟩ : Shape) (0 : Fin 2)
      [⟨⟨2, ![m, b]⟩, extractStridedSlice ⟨2, ![m, b]⟩ ![s, 0] X hs⟩,
       ⟨⟨2, ![s, b]⟩, broadcast (⟨2, ![s, b]⟩ : Shape) (FloatOps.ofBits (F := Ideal) .bf16 0x0000#16)⟩] hc) g κ
      = shiftRows (rd2 X) s g κ := by
  rw [rd2_shift X _ hs hc hm g κ hg hκ]
  unfold shiftRows
  split
  · rfl
  · exact rd2_zero_bf16 _ _

/-- The pooled planes moved up by one row group. -/
theorem pay100_rd (v10 : Vec Ideal S1x256 .f32) (v42 v73 v108 : FVec Ideal S4096x128 .bf16) (v115 : FVec Ideal S4096x512 .f32)
    (v128 v129 : FVec Ideal S4096x128 .f32) (v130 : FVec Ideal S1x128 .f32) (g κ : ℕ) (hg : g < 4096) (hκ : κ < 512) :
    rd2 (k0_pay100 v10 v42 v73 v108 v115 v128 v129 v130) g κ
      = shiftRows (rd2 (k0_pay99 v10 v42 v73 v108 v115 v128 v129 v130)) 1 g κ := by
  dsimp only [k0_pay100]
  exact rd2_shiftZero _ _ _ (by norm_num) g κ hg hκ

/-- Planes 0, 1 of the second convolution. -/
theorem pay101_rd (v10 : Vec Ideal S1x256 .f32) (v42 v73 v108 : FVec Ideal S4096x128 .bf16) (v115 : FVec Ideal S4096x512 .f32)
    (v128 v129 : FVec Ideal S4096x128 .f32) (v130 : FVec Ideal S1x128 .f32) (v148 : FVec Ideal S1x512x512 .bf16)
    (v152 : FVec Ideal S1x256x512 .bf16) (g col : ℕ) (hg : g < 4096) (hcol : col < 512) :
    rd2 (k0_pay101 v10 v42 v73 v108 v115 v128 v129 v130 v148 v152) g col
      = ∑ κ ∈ range 512, rd2 (k0_pay99 v10 v42 v73 v108 v115 v128 v129 v130) g κ * rd3 v148 0 κ col
        + ∑ κ ∈ range 256, rd2 (k0_pay100 v10 v42 v73 v108 v115 v128 v129 v130) g κ * rd3 v152 0 κ col := by
  dsimp only [k0_pay101]
  rw [rd2_addf, mm512_rd _ _ g col hg hcol, mm_rd _ _ g col hg hcol]
  congr 1
  refine Finset.sum_congr rfl fun κ hκ => ?_
  rw [Finset.mem_range] at hκ
  rw [rd2_cols 0 _ _ g κ hg hκ (by omega), Nat.zero_add]

/-- Planes 2, 3 of the second convolution. -/
theorem pay102_rd (v10 : Vec Ideal S1x256 .f32) (v42 v73 v108 : FVec Ideal S4096x128 .bf16) (v115 : FVec Ideal S4096x512 .f32)
    (v128 v129 : FVec Ideal S4096x128 .f32) (v130 : FVec Ideal S1x128 .f32) (v157 : FVec Ideal S1x256x512 .bf16)
    (v160 : FVec Ideal S1x512x512 .bf16) (g col : ℕ) (hg : g < 4096) (hcol : col < 512) :
    rd2 (k0_pay102 v10 v42 v73 v108 v115 v128 v129 v130 v157 v160) g col
      = ∑ κ ∈ range 256, rd2 (k0_pay99 v10 v42 v73 v108 v115 v128 v129 v130) g (256 + κ) * rd3 v157 0 κ col
        + ∑ κ ∈ range 512, rd2 (k0_pay100 v10 v42 v73 v108 v115 v128 v129 v130) g κ * rd3 v160 0 κ col := by
  dsimp only [k0_pay102]
  rw [rd2_addf, mm_rd _ _ g col hg hcol, mm512_rd _ _ g col hg hcol]
  congr 1
  refine Finset.sum_congr rfl fun κ hκ => ?_
  rw [Finset.mem_range] at hκ
  rw [rd2_cols 256 _ _ g κ hg hκ (by omega)]

/-- The two second pooled planes side by side. -/
theorem pay105_rd (v10 v11 : Vec Ideal S1x256 .f32) (v42 v73 v108 : FVec Ideal S4096x128 .bf16) (v115 : FVec Ideal S4096x512 .f32)
    (v128 v129 : FVec Ideal S4096x128 .f32) (v130 : FVec Ideal S1x128 .f32) (v148 : FVec Ideal S1x512x512 .bf16)
    (v152 : FVec Ideal S1x256x512 .bf16) (v163 : FVec Ideal S4096x512 .f32) (g k j : ℕ) (hg : g < 4096) (hk : k < 2) (hj : j < 128) :
    rd2 (k0_pay105 v11 (k0_pay101 v10 v42 v73 v108 v115 v128 v129 v130 v148 v152) v163
        (k0_pay103 v10 v11 v42 v73 v108 v115 v128 v129 v130 v148 v152)
        (k0_pay104 v10 v42 v73 v108 v115 v128 v129 v130 v148 v152)) g (k * 128 + j)
      = if k = 0 then pooledPair (rd2 (k0_pay101 v10 v42 v73 v108 v115 v128 v129 v130 v148 v152)) (rd2 v11 0) g j
        else pooledPair (rd2 v163) (rd2 v11 0) g j := by
  dsimp only [k0_pay105]
  rw [rd2_concat2 _ _ _ g k j hg hk hj]
  obtain rfl | rfl : k = 0 ∨ k = 1 := by omega
  · rw [if_pos rfl, if_pos rfl]
    dsimp only [k0_pay103, k0_pay104]
    unfold pooledPair
    simp (disch := omega) only [rd2_truncf, rd2_maximumf, rd2_addf, rd2_zero_f32', rd2_cols, rd2_bcastRow, Nat.zero_add]
  · rw [if_neg (by norm_num : ¬ (1 : ℕ) = 0), if_neg (by norm_num : ¬ (1 : ℕ) = 0)]
    unfold pooledPair
    simp (disch := omega) only [rd2_truncf, rd2_maximumf, rd2_addf, rd2_zero_f32', rd2_cols, rd2_bcastRow, Nat.zero_add]

/-- The three dense layers, before the last bias. -/
theorem pay106_rd (v220 : FVec Ideal S4096x256 .bf16) (v221 v227 v234 : FVec Ideal S1x256x128 .bf16) (v238 : Vec Ideal S1x128 .f32)
    (v246 : FVec Ideal S128x128 .bf16) (v248 : Vec Ideal S1x128 .f32) (v254 : FVec Ideal S128x128 .bf16)
    (r c : ℕ) (hr : r < 1024) (hc : c < 128) :
    rd2 (k0_pay106 v220 v221 v227 v234 v238 v246 v248 v254) r c
      = ∑ j ∈ range 128,
          max ((∑ i ∈ range 128,
              max ((((∑ κ ∈ range 256, rd2 v220 (4 * r) κ * rd3 v221 0 κ i)
                  + ∑ κ ∈ range 256, shiftRows (rd2 v220) 1 (4 * r) κ * rd3 v227 0 κ i)
                  + ∑ κ ∈ range 256, shiftRows (rd2 v220) 2 (4 * r) κ * rd3 v234 0 κ i) + rd2 v238 0 i) 0
              * rd2 v246 i j) + rd2 v248 0 j) 0 * rd2 v254 j c := by
  dsimp only [k0_pay106]
  rw [mmd_rd _ _ r c hr hc]
  refine Finset.sum_congr rfl fun j hj => ?_
  rw [Finset.mem_range] at hj
  congr 1
  rw [rd2_truncf, rd2_maximumf, rd2_zero_f32', rd2_addf, rd2_bcastRow _ _ r j hr hj, mmd_rd _ _ r j hr hj]
  congr 2
  refine Finset.sum_congr rfl fun i hi => ?_
  rw [Finset.mem_range] at hi
  congr 1
  rw [rd2_cols 0 _ _ r i hr hi (by omega), Nat.zero_add,
    rd2_recast _ _ r i (4 * r) i hr (by omega) (by omega) hi (by omega),
    rd2_truncf, rd2_maximumf, rd2_zero_f32', rd2_addf, rd2_bcastRow _ _ (4 * r) i (by omega) hi, rd2_addf, rd2_addf,
    mm128_rd _ _ (4 * r) i (by omega) hi, mm128_rd _ _ (4 * r) i (by omega) hi, mm128_rd _ _ (4 * r) i (by omega) hi]
  refine congrArg (fun z => max z 0) (congrArg₂ (· + ·) (congrArg₂ (· + ·) (congrArg₂ (· + ·) rfl ?_) ?_) rfl)
  · refine Finset.sum_congr rfl fun κ hκ => ?_
    rw [Finset.mem_range] at hκ
    rw [rd2_shiftZero _ _ _ (by norm_num) (4 * r) κ (by omega) hκ]
  · refine Finset.sum_congr rfl fun κ hκ => ?_
    rw [Finset.mem_range] at hκ
    rw [rd2_shiftZero _ _ _ (by norm_num) (4 * r) κ (by omega) hκ]

/-- The last bias and the first ten columns. -/
theorem pay1_rd (v255 : FVec Ideal S1024x128 .f32) (v256 : Vec Ideal S1x128 .f32) (r c : ℕ) (hr : r < 1024) (hc : c < 10) :
    rd2 (k0_pay1 v255 v256) r c = rd2 v255 r c + rd2 v256 0 c := by
  dsimp only [k0_pay1]
  rw [rd2_cols 0 _ _ r c hr hc (by omega), Nat.zero_add, rd2_addf, rd2_bcastRow _ _ r c hr (by omega)]

end Cert.KernelIdeal.Body

end
-- ==== Proof.KerBody.lean ====
/-
  The batched kernel's whole body: its output block is one function of the point's loads, and, read at natural
  coordinates, that function is the plane arrangement's output (PlaneAlgebra.lean) for the arrays the loads hold.
-/
import proofs.«128838_g2000305662181196_pallasbulk_93_52_alg».proof.Proof.KerPayloads

set_option maxRecDepth 16384

open Idealize.ShloMosaic Idealize.ShloMosaic.ValueIdx Finset Cert.Net

noncomputable section

namespace Cert.KernelIdeal.Body

open Cert.KernelIdeal Cert.KernelIdeal.Gen

/-! ## The whole body -/

/-- The body's output block as one function of what the point loads: the image block, the two convolution bias rows,
    the three dense bias rows, and the slabs of the eight assembled weight arrays. -/
def bodyOut (x0 : Vec Ideal S1024x1024 .f32) (x4 x5 : Vec Ideal S1x256 .f32) (x6 x8 x10 : Vec Ideal S1x128 .f32)
    (wa0 wa1 wh0 wb0 wh1 wb1 : FVec Ideal S1x256x512 .bf16) (va0 : FVec Ideal S1x512x512 .bf16)
    (vb0 va1 : FVec Ideal S1x256x512 .bf16) (vb1 : FVec Ideal S1x512x512 .bf16)
    (q0 q1 q2 : FVec Ideal S1x256x128 .bf16) (w2 w3 : FVec Ideal S128x128 .bf16) : FVec Ideal S1024x10 .f32 :=
  k0_pay1 (k0_pay106 (k0_pay105 x5
    (k0_pay101 x4 (k0_pay90 (k0_pay88 x0 x4 wa0) (k0_pay89 x0 x4 wa0)) (k0_pay91 (k0_pay85 x0) x4 wa1)
      (k0_pay94 x4 (k0_pay92 (k0_pay85 x0) (k0_pay86 x0) wh0 wb0) (k0_pay93 (k0_pay85 x0) (k0_pay86 x0) x4 wh0 wb0))
      (k0_pay95 (k0_pay85 x0) (k0_pay86 x0) wh1 wb1) (k0_pay96 (k0_pay85 x0) (k0_pay86 x0) x4 wh1 wb1)
      (k0_pay97 (k0_pay85 x0) (k0_pay86 x0) wh1 wb1) (k0_pay98 x4) va0 vb0)
    (k0_pay102 x4 (k0_pay90 (k0_pay88 x0 x4 wa0) (k0_pay89 x0 x4 wa0)) (k0_pay91 (k0_pay85 x0) x4 wa1)
      (k0_pay94 x4 (k0_pay92 (k0_pay85 x0) (k0_pay86 x0) wh0 wb0) (k0_pay93 (k0_pay85 x0) (k0_pay86 x0) x4 wh0 wb0))
      (k0_pay95 (k0_pay85 x0) (k0_pay86 x0) wh1 wb1) (k0_pay96 (k0_pay85 x0) (k0_pay86 x0) x4 wh1 wb1)
      (k0_pay97 (k0_pay85 x0) (k0_pay86 x0) wh1 wb1) (k0_pay98 x4) va1 vb1)
    (k0_pay103 x4 x5 (k0_pay90 (k0_pay88 x0 x4 wa0) (k0_pay89 x0 x4 wa0)) (k0_pay91 (k0_pay85 x0) x4 wa1)
      (k0_pay94 x4 (k0_pay92 (k0_pay85 x0) (k0_pay86 x0) wh0 wb0) (k0_pay93 (k0_pay85 x0) (k0_pay86 x0) x4 wh0 wb0))
      (k0_pay95 (k0_pay85 x0) (k0_pay86 x0) wh1 wb1) (k0_pay96 (k0_pay85 x0) (k0_pay86 x0) x4 wh1 wb1)
      (k0_pay97 (k0_pay85 x0) (k0_pay86 x0) wh1 wb1) (k0_pay98 x4) va0 vb0)
    (k0_pay104 x4 (k0_pay90 (k0_pay88 x0 x4 wa0) (k0_pay89 x0 x4 wa0)) (k0_pay91 (k0_pay85 x0) x4 wa1)
      (k0_pay94 x4 (k0_pay92 (k0_pay85 x0) (k0_pay86 x0) wh0 wb0) (k0_pay93 (k0_pay85 x0) (k0_pay86 x0) x4 wh0 wb0))
      (k0_pay95 (k0_pay85 x0) (k0_pay86 x0) wh1 wb1) (k0_pay96 (k0_pay85 x0) (k0_pay86 x0) x4 wh1 wb1)
      (k0_pay97 (k0_pay85 x0) (k0_pay86 x0) wh1 wb1) (k0_pay98 x4) va0 vb0))
    q0 q1 q2 x6 w2 x8 w3) x10

/-- What the plane arrangement reads, taken from the point's loads. -/
def planesOf (x0 : Vec Ideal S1024x1024 .f32) (x4 x5 : Vec Ideal S1x256 .f32) (x6 x8 x10 : Vec Ideal S1x128 .f32)
    (wa0 wa1 wh0 wb0 wh1 wb1 : FVec Ideal S1x256x512 .bf16) (va0 : FVec Ideal S1x512x512 .bf16)
    (vb0 va1 : FVec Ideal S1x256x512 .bf16) (vb1 : FVec Ideal S1x512x512 .bf16)
    (q0 q1 q2 : FVec Ideal S1x256x128 .bf16) (w2 w3 : FVec Ideal S128x128 .bf16) : Planes where
  XW := rd2 (k0_pay85 x0)
  WA := fun k κ col => if k = 0 then rd3 wa0 0 κ col else rd3 wa1 0 κ col
  WH := fun k κ col => if k = 0 then rd3 wh0 0 κ col else rd3 wh1 0 κ col
  WB := fun k κ col => if k = 0 then rd3 wb0 0 κ col else rd3 wb1 0 κ col
  VA := fun k κ col => if k = 0 then rd3 va0 0 κ col else if κ < 256 then 0 else rd3 va1 0 (κ - 256) col
  VB := fun k κ col => if k = 0 then (if κ < 256 then rd3 vb0 0 κ col else 0) else rd3 vb1 0 κ col
  W1Q := fun g κ c => if g = 0 then rd3 q0 0 κ c else if g = 1 then rd3 q1 0 κ c else rd3 q2 0 κ c
  W2 := rd2 w2
  W3 := rd2 w3
  B1 := rd2 x4 0
  B2 := rd2 x5 0
  B1f := rd2 x6 0
  B2f := rd2 x8 0
  B3f := rd2 x10 0

theorem pooledPair_congr (Z Z' : ℕ → ℕ → EReal) (B : ℕ → EReal) (g c : ℕ) (hc : c < 128)
    (h : ∀ col, col < 512 → Z g col = Z' g col) : pooledPair Z B g c = pooledPair Z' B g c := by
  unfold pooledPair
  rw [h c (by omega), h (128 + c) (by omega), h (256 + c) (by omega), h (384 + c) (by omega)]

theorem shiftRows_congr (A A' : ℕ → ℕ → EReal) (s g κ : ℕ) (h : g + s < 4096 → A (g + s) κ = A' (g + s) κ) :
    shiftRows A s g κ = shiftRows A' s g κ := by
  unfold shiftRows
  split
  · exact h ‹_›
  · rfl

section
variable (x0 : Vec Ideal S1024x1024 .f32) (x4 x5 : Vec Ideal S1x256 .f32) (x6 x8 x10 : Vec Ideal S1x128 .f32)
    (wa0 wa1 wh0 wb0 wh1 wb1 : FVec Ideal S1x256x512 .bf16) (va0 : FVec Ideal S1x512x512 .bf16)
    (vb0 va1 : FVec Ideal S1x256x512 .bf16) (vb1 : FVec Ideal S1x512x512 .bf16)
    (q0 q1 q2 : FVec Ideal S1x256x128 .bf16) (w2 w3 : FVec Ideal S128x128 .bf16)

local notation "𝕂" => planesOf x0 x4 x5 x6 x8 x10 wa0 wa1 wh0 wb0 wh1 wb1 va0 vb0 va1 vb1 q0 q1 q2 w2 w3
local notation "P0" => k0_pay90 (k0_pay88 x0 x4 wa0) (k0_pay89 x0 x4 wa0)
local notation "P1" => k0_pay91 (k0_pay85 x0) x4 wa1
local notation "P2" => k0_pay94 x4 (k0_pay92 (k0_pay85 x0) (k0_pay86 x0) wh0 wb0) (k0_pay93 (k0_pay85 x0) (k0_pay86 x0) x4 wh0 wb0)
local notation "Z3" => k0_pay95 (k0_pay85 x0) (k0_pay86 x0) wh1 wb1
local notation "A3" => k0_pay96 (k0_pay85 x0) (k0_pay86 x0) x4 wh1 wb1
local notation "S3" => k0_pay97 (k0_pay85 x0) (k0_pay86 x0) wh1 wb1
local notation "PC" => k0_pay99 x4 P0 P1 P2 Z3 A3 S3 (k0_pay98 x4)
local notation "PC1" => k0_pay100 x4 P0 P1 P2 Z3 A3 S3 (k0_pay98 x4)

/-- The first-layer products are the plane arrangement's. -/
theorem z1lo0_rd (g col : ℕ) (hg : g < 4096) (hcol : col < 512) : rd2 (k0_pay87 x0 wa0) g col = z1lo 𝕂 0 g col :=
  pay87_rd x0 wa0 g col hg hcol

theorem z1hi_rd (wh wb : FVec Ideal S1x256x512 .bf16) (k : ℕ) (hwh : ∀ κ col, (𝕂).WH k κ col = rd3 wh 0 κ col)
    (hwb : ∀ κ col, (𝕂).WB k κ col = rd3 wb 0 κ col) (g col : ℕ) (hg : g < 4096) (hcol : col < 512) :
    ∑ κ ∈ range 256, rd2 (k0_pay85 x0) g κ * rd3 wh 0 κ col + ∑ κ ∈ range 256, rd2 (k0_pay86 x0) g κ * rd3 wb 0 κ col
      = z1hi 𝕂 k g col := by
  unfold z1hi
  congr 1
  · exact Finset.sum_congr rfl fun κ _ => by rw [hwh]; rfl
  · refine Finset.sum_congr rfl fun κ hκ => ?_
    rw [Finset.mem_range] at hκ
    rw [hwb, pay86_rd x0 g κ hg hκ]; rfl

/-- The four pooled planes side by side are the plane arrangement's. -/
theorem Pc_rd (g κ : ℕ) (hg : g < 4096) (hκ : κ < 512) : rd2 PC g κ = Pc 𝕂 g κ := by
  have hκ' : κ = (κ / 128) * 128 + κ % 128 := by omega
  unfold Pc p1
  generalize hk : κ / 128 = k at hκ'
  generalize hjj : κ % 128 = j at hκ'
  have hj : j < 128 := by omega
  have hk4 : k < 4 := by omega
  rw [hκ', pay99_rd _ _ x4 _ _ _ _ _ g k j hg hk4 hj]
  obtain rfl | rfl | rfl | rfl : k = 0 ∨ k = 1 ∨ k = 2 ∨ k = 3 := by omega
  · rw [if_pos rfl, if_pos (by norm_num), pay90_rd x0 x4 wa0 g j hg hj]
    exact pooledPair_congr _ _ _ g j hj fun col hcol => z1lo0_rd x0 x4 x5 x6 x8 x10 wa0 wa1 wh0 wb0 wh1 wb1 va0 vb0 va1 vb1 q0 q1 q2 w2 w3 g col hg hcol
  · rw [if_neg (by norm_num), if_pos rfl, if_pos (by norm_num), pay91_rd _ x4 wa1 g j hg hj]
    rfl
  · rw [if_neg (by norm_num), if_neg (by norm_num), if_pos rfl, if_neg (by norm_num), pay94_rd _ _ x4 wh0 wb0 g j hg hj]
    refine pooledPair_congr _ _ _ g j hj fun col hcol => ?_
    rw [pay92_rd _ _ wh0 wb0 g col hg hcol]
    exact z1hi_rd x0 x4 x5 x6 x8 x10 wa0 wa1 wh0 wb0 wh1 wb1 va0 vb0 va1 vb1 q0 q1 q2 w2 w3 wh0 wb0 0 (fun _ _ => rfl) (fun _ _ => rfl) g col hg hcol
  · rw [if_neg (by norm_num), if_neg (by norm_num), if_neg (by norm_num), if_neg (by norm_num)]
    refine pooledPair_congr _ _ _ g j hj fun col hcol => ?_
    rw [pay95_rd _ _ wh1 wb1 g col hg hcol]
    exact z1hi_rd x0 x4 x5 x6 x8 x10 wa0 wa1 wh0 wb0 wh1 wb1 va0 vb0 va1 vb1 q0 q1 q2 w2 w3 wh1 wb1 1 (fun _ _ => rfl) (fun _ _ => rfl) g col hg hcol

theorem Pc1_rd (g κ : ℕ) (hg : g < 4096) (hκ : κ < 512) : rd2 PC1 g κ = shiftRows (Pc 𝕂) 1 g κ := by
  rw [pay100_rd _ _ _ _ _ _ _ _ g κ hg hκ]
  exact shiftRows_congr _ _ 1 g κ fun h => Pc_rd x0 x4 x5 x6 x8 x10 wa0 wa1 wh0 wb0 wh1 wb1 va0 vb0 va1 vb1 q0 q1 q2 w2 w3 (g + 1) κ h hκ

theorem z2a_rd (g col : ℕ) (hg : g < 4096) (hcol : col < 512) :
    rd2 (k0_pay101 x4 P0 P1 P2 Z3 A3 S3 (k0_pay98 x4) va0 vb0) g col = z2a 𝕂 g col := by
  rw [pay101_rd _ _ _ _ _ _ _ _ va0 vb0 g col hg hcol]
  unfold z2a
  congr 1
  · refine Finset.sum_congr rfl fun κ hκ => ?_
    rw [Finset.mem_range] at hκ
    rw [Pc_rd x0 x4 x5 x6 x8 x10 wa0 wa1 wh0 wb0 wh1 wb1 va0 vb0 va1 vb1 q0 q1 q2 w2 w3 g κ hg hκ]; rfl
  · refine Finset.sum_congr rfl fun κ hκ => ?_
    rw [Finset.mem_range] at hκ
    rw [Pc1_rd x0 x4 x5 x6 x8 x10 wa0 wa1 wh0 wb0 wh1 wb1 va0 vb0 va1 vb1 q0 q1 q2 w2 w3 g κ hg (by omega)]
    show _ = _ * (if κ < 256 then rd3 vb0 0 κ col else 0)
    rw [if_pos hκ]

theorem z2b_rd (g col : ℕ) (hg : g < 4096) (hcol : col < 512) :
    rd2 (k0_pay102 x4 P0 P1 P2 Z3 A3 S3 (k0_pay98 x4) va1 vb1) g col = z2b 𝕂 g col := by
  rw [pay102_rd _ _ _ _ _ _ _ _ va1 vb1 g col hg hcol]
  unfold z2b
  congr 1
  · refine Finset.sum_congr rfl fun κ hκ => ?_
    rw [Finset.mem_range] at hκ
    rw [Pc_rd x0 x4 x5 x6 x8 x10 wa0 wa1 wh0 wb0 wh1 wb1 va0 vb0 va1 vb1 q0 q1 q2 w2 w3 g (256 + κ) hg (by omega)]
    show _ = _ * (if 256 + κ < 256 then 0 else rd3 va1 0 (256 + κ - 256) col)
    rw [if_neg (by omega), Nat.add_sub_cancel_left]
  · refine Finset.sum_congr rfl fun κ hκ => ?_
    rw [Finset.mem_range] at hκ
    rw [Pc1_rd x0 x4 x5 x6 x8 x10 wa0 wa1 wh0 wb0 wh1 wb1 va0 vb0 va1 vb1 q0 q1 q2 w2 w3 g κ hg hκ]; rfl

local notation "QC" => k0_pay105 x5 (k0_pay101 x4 P0 P1 P2 Z3 A3 S3 (k0_pay98 x4) va0 vb0) (k0_pay102 x4 P0 P1 P2 Z3 A3 S3 (k0_pay98 x4) va1 vb1) (k0_pay103 x4 x5 P0 P1 P2 Z3 A3 S3 (k0_pay98 x4) va0 vb0) (k0_pay104 x4 P0 P1 P2 Z3 A3 S3 (k0_pay98 x4) va0 vb0)

theorem Qc_rd (g κ : ℕ) (hg : g < 4096) (hκ : κ < 256) : rd2 QC g κ = Qc 𝕂 g κ := by
  have hκ' : κ = (κ / 128) * 128 + κ % 128 := by omega
  unfold Qc p2
  generalize hk : κ / 128 = k at hκ'
  generalize hjj : κ % 128 = j at hκ'
  have hj : j < 128 := by omega
  have hk2 : k < 2 := by omega
  rw [hκ', pay105_rd x4 x5 _ _ _ _ _ _ _ va0 vb0 _ g k j hg hk2 hj]
  obtain rfl | rfl : k = 0 ∨ k = 1 := by omega
  · rw [if_pos rfl, if_pos rfl]
    exact pooledPair_congr _ _ _ g j hj fun col hcol => z2a_rd x0 x4 x5 x6 x8 x10 wa0 wa1 wh0 wb0 wh1 wb1 va0 vb0 va1 vb1 q0 q1 q2 w2 w3 g col hg hcol
  · rw [if_neg (by norm_num), if_neg (by norm_num)]
    exact pooledPair_congr _ _ _ g j hj fun col hcol => z2b_rd x0 x4 x5 x6 x8 x10 wa0 wa1 wh0 wb0 wh1 wb1 va0 vb0 va1 vb1 q0 q1 q2 w2 w3 g col hg hcol

/-- The body's output block, entry (r, c), is the plane arrangement's output. -/
theorem bodyOut_rd (r c : ℕ) (hr : r < 1024) (hc : c < 10) :
    rd2 (bodyOut x0 x4 x5 x6 x8 x10 wa0 wa1 wh0 wb0 wh1 wb1 va0 vb0 va1 vb1 q0 q1 q2 w2 w3) r c = kout 𝕂 r c := by
  unfold bodyOut
  rw [pay1_rd _ _ r c hr hc, pay106_rd _ _ _ _ _ _ _ _ r c hr (by omega)]
  unfold kout
  refine congrArg₂ (· + ·) (Finset.sum_congr rfl fun j hj => congrArg₂ (· * ·) ?_ rfl) rfl
  unfold f2
  refine congrArg (fun z => max z 0) (congrArg₂ (· + ·) (Finset.sum_congr rfl fun i hi => congrArg₂ (· * ·) ?_ rfl) rfl)
  unfold f1
  have hQ : ∀ g κ, g < 4096 → κ < 256 → rd2 QC g κ = Qc 𝕂 g κ :=
    Qc_rd x0 x4 x5 x6 x8 x10 wa0 wa1 wh0 wb0 wh1 wb1 va0 vb0 va1 vb1 q0 q1 q2 w2 w3
  refine congrArg (fun z => max z 0) (congrArg₂ (· + ·) (congrArg₂ (· + ·) (congrArg₂ (· + ·) ?_ ?_) ?_) rfl)
  · refine Finset.sum_congr rfl fun κ hκ => ?_
    rw [Finset.mem_range] at hκ
    rw [hQ (4 * r) κ (by omega) hκ]; rfl
  · refine Finset.sum_congr rfl fun κ hκ => ?_
    rw [Finset.mem_range] at hκ
    rw [shiftRows_congr _ (Qc 𝕂) 1 (4 * r) κ fun h => hQ _ κ h hκ]; rfl
  · refine Finset.sum_congr rfl fun κ hκ => ?_
    rw [Finset.mem_range] at hκ
    rw [shiftRows_congr _ (Qc 𝕂) 2 (4 * r) κ fun h => hQ _ κ h hκ]; rfl

end

end Cert.KernelIdeal.Body

end
-- ==== Proof.Weights.lean ====
/-
  What the eight assembled weight arrays hold, entry by entry at natural coordinates. The first convolution's five
  32-row taps are laid into 256-row matrices whose row block ρ = κ / 32 meets output plane s at tap ρ - s (planes
  0..3), or at tap ρ - s inside the same group of eight image rows and at tap ρ + 8 - s from the next group (planes
  4..7); two planes share a matrix, side by side in the column halves e = col / 256. The second convolution's
  128-row taps are laid the same way into 512-row matrices over groups of four pooled rows. The first dense layer's
  five 128-row slabs are paired into three 256-row matrices, the slab 2g + v in half v = κ / 128 of matrix g, and
  absent (zero) for 2g + v = 5. The last two are the dense weights themselves.
-/
import proofs.«128838_g2000305662181196_pallasbulk_93_52_alg».proof.Proof.Arrays

open Idealize.ShloMosaic

noncomputable section

namespace Cert.Net

/-- Planes 0..3 of the first convolution (matrix k, column half e: plane s = 2k + e). -/
def IsWa2 (M1 : ℕ → ℕ → ℕ → EReal) (A : (⟨3, ![2, 256, 512]⟩ : Shape).Idx → EReal) : Prop :=
  ∀ k κ col, k < 2 → κ < 256 → col < 512 →
    rd3 A k κ col = if 2 * k + col / 256 ≤ κ / 32 ∧ κ / 32 < 2 * k + col / 256 + 5
      then M1 (κ / 32 - (2 * k + col / 256)) (κ % 32) (col % 256) else 0
/-- Planes 4..7, the taps inside the same group of eight image rows (plane s = 4 + 2k + e). -/
def IsWh2 (M1 : ℕ → ℕ → ℕ → EReal) (A : (⟨3, ![2, 256, 512]⟩ : Shape).Idx → EReal) : Prop :=
  ∀ k κ col, k < 2 → κ < 256 → col < 512 →
    rd3 A k κ col = if 4 + 2 * k + col / 256 ≤ κ / 32
      then M1 (κ / 32 - (4 + 2 * k + col / 256)) (κ % 32) (col % 256) else 0
/-- Planes 4..7, the taps that reach into the next group of eight image rows. -/
def IsWb2 (M1 : ℕ → ℕ → ℕ → EReal) (A : (⟨3, ![2, 256, 512]⟩ : Shape).Idx → EReal) : Prop :=
  ∀ k κ col, k < 2 → κ < 256 → col < 512 →
    rd3 A k κ col = if κ / 32 + 8 < 4 + 2 * k + col / 256 + 5
      then M1 (κ / 32 + 8 - (4 + 2 * k + col / 256)) (κ % 32) (col % 256) else 0
/-- Second convolution, the taps inside the same group of four pooled rows (plane u = 2k + e). -/
def IsVa2 (M2 : ℕ → ℕ → ℕ → EReal) (A : (⟨3, ![2, 512, 512]⟩ : Shape).Idx → EReal) : Prop :=
  ∀ k κ col, k < 2 → κ < 512 → col < 512 →
    rd3 A k κ col = if 2 * k + col / 256 ≤ κ / 128
      then M2 (κ / 128 - (2 * k + col / 256)) (κ % 128) (col % 256) else 0
/-- Second convolution, the taps that reach into the next group of four pooled rows. -/
def IsVb2 (M2 : ℕ → ℕ → ℕ → EReal) (A : (⟨3, ![2, 512, 512]⟩ : Shape).Idx → EReal) : Prop :=
  ∀ k κ col, k < 2 → κ < 512 → col < 512 →
    rd3 A k κ col = if κ / 128 + 4 < 2 * k + col / 256 + 5
      then M2 (κ / 128 + 4 - (2 * k + col / 256)) (κ % 128) (col % 256) else 0
/-- First dense layer: slab 2g + v in half v of matrix g. -/
def IsW1q (W1 : ℕ → ℕ → ℕ → EReal) (A : (⟨3, ![3, 256, 128]⟩ : Shape).Idx → EReal) : Prop :=
  ∀ g κ col, g < 3 → κ < 256 → col < 128 →
    rd3 A g κ col = if 2 * g + κ / 128 ≤ 4 then W1 (2 * g + κ / 128) (κ % 128) col else 0
/-- A dense weight matrix kept as it is. -/
def IsSame (W : ℕ → ℕ → EReal) (A : (⟨2, ![128, 128]⟩ : Shape).Idx → EReal) : Prop :=
  ∀ j col, j < 128 → col < 128 → rd2 A j col = W j col

end Cert.Net

end
-- ==== Proof.KerOut.lean ====
/-
  One grid point of the batched kernel. Its output block is the body's function of the point's image block, the
  bias rows and the slabs it loads from the eight assembled weight arrays; when those arrays hold the banded weights
  (Weights.lean) and the image block holds images n0 .. n0 + 1023, entry (r, c) of the block is the network's output
  for image n0 + r, class c.
-/
import Idealize.ShloMosaic.PureOps.Ideal
import proofs.«128838_g2000305662181196_pallasbulk_93_52_alg».proof.Proof.KernelIdealFrameDefs
import proofs.«128838_g2000305662181196_pallasbulk_93_52_alg».proof.Proof.KerBody
import proofs.«128838_g2000305662181196_pallasbulk_93_52_alg».proof.Proof.Weights

set_option maxRecDepth 16384

open Idealize.ShloMosaic Idealize.ShloMosaic.ValueIdx Finset Cert.Net

noncomputable section

namespace Cert.KernelIdeal.Body

open Cert.KernelIdeal Cert.KernelIdeal.Gen Cert.KernelIdeal.GenP
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- A slab of a rank-3 array loaded through a unit-stride box of one leading index: entry (0, κ, col) of the load is
    the array's entry (o0, o1 + κ, o2 + col). -/
theorem rd3_ld {A B C b c : ℕ} (X : (⟨3, ![A, B, C]⟩ : Shape).Idx → EReal) (o0 o1 o2 : ℕ)
    (inb : ∀ a, (![o0, o1, o2] : Fin 3 → ℕ) a + (![1, b, c] : Fin 3 → ℕ) a ≤ (⟨3, ![A, B, C]⟩ : Shape).size a)
    (κ col : ℕ) (hκ : κ < b) (hcol : col < c) :
    rd3 (View.ld (Val := Elt Ideal) (e' := .bf16) X (Rect.unit (s := ⟨3, ![A, B, C]⟩) ![o0, o1, o2] ![1, b, c] inb)) 0 κ col
      = rd3 X o0 (o1 + κ) (o2 + col) := by
  have h0 : o0 + 1 ≤ A := inb 0
  have h1 : o1 + b ≤ B := inb 1
  have h2 : o2 + c ≤ C := inb 2
  rw [rd3_of_lt _ Nat.one_pos hκ hcol, rd3_of_lt X (show o0 < A by omega) (show o1 + κ < B by omega) (show o2 + col < C by omega)]
  show X _ = X _
  congr 1
  funext a
  apply Fin.ext
  match a with
  | ⟨0, _⟩ => show o0 + 1 * 0 = o0; omega
  | ⟨1, _⟩ => show o1 + 1 * κ = o1 + κ; omega
  | ⟨2, _⟩ => show o2 + 1 * col = o2 + col; omega

/-- The body at a point whose eight weight arrays hold S0 .. S7. -/
def bodyOf (x0 : Vec Ideal S1024x1024 .f32) (x4 x5 : Vec Ideal S1x256 .f32) (x6 x8 x10 : Vec Ideal S1x128 .f32)
    (S0 S1 S2 : FVec Ideal S2x256x512 .bf16) (S3 S4 : FVec Ideal S2x512x512 .bf16) (S5 : FVec Ideal S3x256x128 .bf16)
    (S6 S7 : FVec Ideal S128x128 .bf16) : FVec Ideal S1024x10 .f32 :=
  bodyOut x0 x4 x5 x6 x8 x10 (View.ld (Val := Elt Ideal) (e' := .bf16) S0 (Rect.unit ![0, 0, 0] S1x256x512.size inb_S2x256x512_S1x256x512_0_0_0)) (View.ld (Val := Elt Ideal) (e' := .bf16) S0 (Rect.unit ![1, 0, 0] S1x256x512.size inb_S2x256x512_S1x256x512_1_0_0))
    (View.ld (Val := Elt Ideal) (e' := .bf16) S1 (Rect.unit ![0, 0, 0] S1x256x512.size inb_S2x256x512_S1x256x512_0_0_0)) (View.ld (Val := Elt Ideal) (e' := .bf16) S2 (Rect.unit ![0, 0, 0] S1x256x512.size inb_S2x256x512_S1x256x512_0_0_0)) (View.ld (Val := Elt Ideal) (e' := .bf16) S1 (Rect.unit ![1, 0, 0] S1x256x512.size inb_S2x256x512_S1x256x512_1_0_0)) (View.ld (Val := Elt Ideal) (e' := .bf16) S2 (Rect.unit ![1, 0, 0] S1x256x512.size inb_S2x256x512_S1x256x512_1_0_0))
    (View.ld (Val := Elt Ideal) (e' := .bf16) S3 (Rect.unit ![0, 0, 0] S1x512x512.size inb_S2x512x512_S1x512x512_0_0_0)) (View.ld (Val := Elt Ideal) (e' := .bf16) S4 (Rect.unit ![0, 0, 0] S1x256x512.size inb_S2x512x512_S1x256x512_0_0_0)) (View.ld (Val := Elt Ideal) (e' := .bf16) S3 (Rect.unit ![1, 256, 0] S1x256x512.size inb_S2x512x512_S1x256x512_1_256_0)) (View.ld (Val := Elt Ideal) (e' := .bf16) S4 (Rect.unit ![1, 0, 0] S1x512x512.size inb_S2x512x512_S1x512x512_1_0_0))
    (View.ld (Val := Elt Ideal) (e' := .bf16) S5 (Rect.unit ![0, 0, 0] S1x256x128.size inb_S3x256x128_S1x256x128_0_0_0)) (View.ld (Val := Elt Ideal) (e' := .bf16) S5 (Rect.unit ![1, 0, 0] S1x256x128.size inb_S3x256x128_S1x256x128_1_0_0)) (View.ld (Val := Elt Ideal) (e' := .bf16) S5 (Rect.unit ![2, 0, 0] S1x256x128.size inb_S3x256x128_S1x256x128_2_0_0)) S6 S7

/-- With the banded weights in the eight arrays and images n0 .. n0+1023 in the block, the point's output block is the
    network's output. -/
theorem bodyOf_rd (P : Params) (n0 : ℕ)
    (x0 : Vec Ideal S1024x1024 .f32) (x4 x5 : Vec Ideal S1x256 .f32) (x6 x8 x10 : Vec Ideal S1x128 .f32)
    (S0 S1 S2 : FVec Ideal S2x256x512 .bf16) (S3 S4 : FVec Ideal S2x512x512 .bf16) (S5 : FVec Ideal S3x256x128 .bf16)
    (S6 S7 : FVec Ideal S128x128 .bf16)
    (hx : ∀ r l, r < 1024 → l < 1024 → rd2 x0 r l = P.X (n0 + r) (l / 32) (l % 32))
    (h0 : IsWa2 P.M1 S0) (h1 : IsWh2 P.M1 S1) (h2 : IsWb2 P.M1 S2) (h3 : IsVa2 P.M2 S3) (h4 : IsVb2 P.M2 S4)
    (h5 : IsW1q P.W1 S5) (h6 : IsSame P.W2 S6) (h7 : IsSame P.W3 S7)
    (hb1 : ∀ c, c < 256 → rd2 x4 0 c = P.B1 c) (hb2 : ∀ c, c < 256 → rd2 x5 0 c = P.B2 c)
    (hb1f : ∀ c, c < 128 → rd2 x6 0 c = P.B1f c) (hb2f : ∀ c, c < 128 → rd2 x8 0 c = P.B2f c)
    (hb3f : ∀ c, c < 128 → rd2 x10 0 c = P.B3f c)
    (r c : ℕ) (hr : r < 1024) (hc : c < 10) :
    rd2 (bodyOf x0 x4 x5 x6 x8 x10 S0 S1 S2 S3 S4 S5 S6 S7) r c = Net.out P (n0 + r) c := by
  unfold bodyOf
  rw [bodyOut_rd _ _ _ _ _ _ _ _ _ _ _ _ _ _ _ _ _ _ _ _ _ r c hr hc]
  refine kout_eq ?_ r c hr (by omega)
  constructor
  · intro r q a j hr hq ha hj
    show rd2 (k0_pay85 x0) (4 * r + q) (a * 32 + j) = _
    rw [pay85_rd x0 _ _ (by omega) (by omega), show (4 * r + q) / 4 = r by omega, hx r _ hr (by omega)]
    congr 1 <;> omega
  · intro k κ col hk hκ hcol
    show (if k = 0 then _ else _) = _
    rw [← h0 k κ col hk hκ hcol]
    obtain rfl | rfl : k = 0 ∨ k = 1 := by omega
    · rw [if_pos rfl, rd3_ld S0 0 0 0 _ κ col hκ hcol, Nat.zero_add, Nat.zero_add]
    · rw [if_neg (by norm_num), rd3_ld S0 1 0 0 _ κ col hκ hcol, Nat.zero_add, Nat.zero_add]
  · intro k κ col hk hκ hcol
    show (if k = 0 then _ else _) = _
    rw [← h1 k κ col hk hκ hcol]
    obtain rfl | rfl : k = 0 ∨ k = 1 := by omega
    · rw [if_pos rfl, rd3_ld S1 0 0 0 _ κ col hκ hcol, Nat.zero_add, Nat.zero_add]
    · rw [if_neg (by norm_num), rd3_ld S1 1 0 0 _ κ col hκ hcol, Nat.zero_add, Nat.zero_add]
  · intro k κ col hk hκ hcol
    show (if k = 0 then _ else _) = _
    rw [← h2 k κ col hk hκ hcol]
    obtain rfl | rfl : k = 0 ∨ k = 1 := by omega
    · rw [if_pos rfl, rd3_ld S2 0 0 0 _ κ col hκ hcol, Nat.zero_add, Nat.zero_add]
    · rw [if_neg (by norm_num), rd3_ld S2 1 0 0 _ κ col hκ hcol, Nat.zero_add, Nat.zero_add]
  · intro k κ col hk hκ hcol
    show (if k = 0 then _ else if κ < 256 then 0 else _) = _
    obtain rfl | rfl : k = 0 ∨ k = 1 := by omega
    · rw [if_pos rfl, rd3_ld S3 0 0 0 _ κ col hκ hcol, Nat.zero_add, Nat.zero_add, h3 0 κ col hk hκ hcol]
    · rw [if_neg (by norm_num)]
      by_cases hlt : κ < 256
      · rw [if_pos hlt, if_neg (by omega)]
      · rw [if_neg hlt, rd3_ld S3 1 256 0 _ (κ - 256) col (by omega) hcol, Nat.zero_add,
          show 256 + (κ - 256) = κ by omega, h3 1 κ col hk hκ hcol]
  · intro k κ col hk hκ hcol
    show (if k = 0 then (if κ < 256 then _ else 0) else _) = _
    obtain rfl | rfl : k = 0 ∨ k = 1 := by omega
    · rw [if_pos rfl]
      by_cases hlt : κ < 256
      · rw [if_pos hlt, rd3_ld S4 0 0 0 _ κ col hlt hcol, Nat.zero_add, Nat.zero_add, h4 0 κ col hk hκ hcol]
      · rw [if_neg hlt, if_neg (by omega)]
    · rw [if_neg (by norm_num), rd3_ld S4 1 0 0 _ κ col hκ hcol, Nat.zero_add, Nat.zero_add, h4 1 κ col hk hκ hcol]
  · intro g κ col hg hκ hcol
    show (if g = 0 then _ else if g = 1 then _ else _) = _
    rw [← h5 g κ col hg hκ hcol]
    obtain rfl | rfl | rfl : g = 0 ∨ g = 1 ∨ g = 2 := by omega
    · rw [if_pos rfl, rd3_ld S5 0 0 0 _ κ col hκ hcol, Nat.zero_add, Nat.zero_add]
    · rw [if_neg (by norm_num), if_pos rfl, rd3_ld S5 1 0 0 _ κ col hκ hcol, Nat.zero_add, Nat.zero_add]
    · rw [if_neg (by norm_num), if_neg (by norm_num), rd3_ld S5 2 0 0 _ κ col hκ hcol, Nat.zero_add, Nat.zero_add]
  · exact h6
  · exact h7
  · exact hb1
  · exact hb2
  · exact hb1f
  · exact hb2f
  · exact hb3f

end Cert.KernelIdeal.Body

end
-- ==== Proof.KerPieces.lean ====
/-
  What each case of the batched kernel leaves in its output block, as the body's function of the point's loads:
  a later point reads the eight weight arrays the first point assembled; the first point reads back its own stores.
-/
import Idealize.ShloMosaic.PureOps.Ideal
import proofs.«128838_g2000305662181196_pallasbulk_93_52_alg».proof.Proof.KernelIdealFrameDefs
import proofs.«128838_g2000305662181196_pallasbulk_93_52_alg».proof.Proof.KerOut

set_option maxRecDepth 16384

open Idealize.ShloMosaic Idealize.ShloMosaic.ValueIdx Cert.Net

noncomputable section

namespace Cert.KernelIdeal.Body

open Cert.KernelIdeal Cert.KernelIdeal.Gen Cert.KernelIdeal.GenP
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem hz2 : (![0, 0] : Fin 2 → Nat) = fun _ => 0 := funext fun a => by fin_cases a <;> rfl

/-- A later point's output block: the body's function of its loads and the weight arrays the point before left. -/
theorem outB_eq (c : Dev nD) (i : grid0.Coords) (arg1 : Memref sig .tc .vmem S1024x1024 .f32) (harg1 : arg1.IsWhole) (arg2 : Memref sig .tc .vmem S5x32x256 .f32) (harg2 : arg2.IsWhole) (arg3 : Memref sig .tc .vmem S5x128x256 .f32) (harg3 : arg3.IsWhole) (arg4 : Memref sig .tc .vmem S5x128x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1024x10 .f32) (harg12 : arg12.IsWhole) (arg13 : Memref sig .tc .vmem S2x256x512 .bf16) (harg13 : arg13.IsWhole) (arg14 : Memref sig .tc .vmem S2x256x512 .bf16) (harg14 : arg14.IsWhole) (arg15 : Memref sig .tc .vmem S2x256x512 .bf16) (harg15 : arg15.IsWhole) (arg16 : Memref sig .tc .vmem S2x512x512 .bf16) (harg16 : arg16.IsWhole) (arg17 : Memref sig .tc .vmem S2x512x512 .bf16) (harg17 : arg17.IsWhole) (arg18 : Memref sig .tc .vmem S3x256x128 .bf16) (harg18 : arg18.IsWhole) (arg19 : Memref sig .tc .vmem S128x128 .bf16) (harg19 : arg19.IsWhole) (arg20 : Memref sig .tc .vmem S128x128 .bf16) (harg20 : arg20.IsWhole) (hc0 : ¬cond0_0 i) (x0 : Vec Ideal S1024x1024 .f32) (x1 : Vec Ideal S5x32x256 .f32) (x2 : Vec Ideal S5x128x256 .f32) (x3 : Vec Ideal S5x128x128 .f32) (x4 : Vec Ideal S1x256 .f32) (x5 : Vec Ideal S1x256 .f32) (x6 : Vec Ideal S1x128 .f32) (x7 : Vec Ideal S128x128 .f32) (x8 : Vec Ideal S1x128 .f32) (x9 : Vec Ideal S128x128 .f32) (x10 : Vec Ideal S1x128 .f32) (xs0 : Vec Ideal S2x256x512 .bf16) (xs1 : Vec Ideal S2x256x512 .bf16) (xs2 : Vec Ideal S2x256x512 .bf16) (xs3 : Vec Ideal S2x512x512 .bf16) (xs4 : Vec Ideal S2x512x512 .bf16) (xs5 : Vec Ideal S3x256x128 .bf16) (xs6 : Vec Ideal S128x128 .bf16) (xs7 : Vec Ideal S128x128 .bf16) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 xs1 xs2 xs3 xs4 xs5 xs6 xs7 = bodyOf x0 x4 x5 x6 x8 x10 xs0 xs1 xs2 xs3 xs4 xs5 xs6 xs7 := by
  unfold out0_B_11
  rw [View.read_writes_eq_canon _ _ _ (cover0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 xs1 xs2 xs3 xs4 xs5 xs6 xs7)]
  unfold kernelRun0_B
  dsimp only
  sl_unfold_words
  rw [View.canon_unit_zero hz2]
  simp only [View.readAt_eq_ld, harg1.read_unread, harg5.read_unread, harg6.read_unread, harg7.read_unread, harg9.read_unread,
    harg11.read_unread, harg13.read_unread, harg14.read_unread, harg15.read_unread, harg16.read_unread, harg17.read_unread,
    harg18.read_unread, harg19.read_unread, harg20.read_unread,
    View.ld_unit_zero (S := S1024x1024) hz2, View.ld_unit_zero (S := S1x256) hz2, View.ld_unit_zero (S := S1x128) hz2,
    View.ld_unit_zero (S := S128x128) hz2]
  rfl

/-- A load after stores, through a box: the stores' canon read through the box. -/
theorem readCov_ld {sig : RefSig} {κ : Kind} {sp : Space} {s : Shape} {e : EltTy} (v : View sig κ sp s e)
    (L : List (View.Piece (Elt Ideal) s e)) (r : Rect s) :
    v.readCov L r.toLoadRect = View.ld (Val := Elt Ideal) (View.canon L) r := by
  rw [View.readCov_eq_canon']

set_option maxHeartbeats 4000000 in
/-- The first point's output block: the body's function of its loads and the weight arrays it has just assembled. -/
theorem outA_eq (c : Dev nD) (i : grid0.Coords) (arg1 : Memref sig .tc .vmem S1024x1024 .f32) (harg1 : arg1.IsWhole) (arg2 : Memref sig .tc .vmem S5x32x256 .f32) (harg2 : arg2.IsWhole) (arg3 : Memref sig .tc .vmem S5x128x256 .f32) (harg3 : arg3.IsWhole) (arg4 : Memref sig .tc .vmem S5x128x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1024x10 .f32) (harg12 : arg12.IsWhole) (arg13 : Memref sig .tc .vmem S2x256x512 .bf16) (harg13 : arg13.IsWhole) (arg14 : Memref sig .tc .vmem S2x256x512 .bf16) (harg14 : arg14.IsWhole) (arg15 : Memref sig .tc .vmem S2x256x512 .bf16) (harg15 : arg15.IsWhole) (arg16 : Memref sig .tc .vmem S2x512x512 .bf16) (harg16 : arg16.IsWhole) (arg17 : Memref sig .tc .vmem S2x512x512 .bf16) (harg17 : arg17.IsWhole) (arg18 : Memref sig .tc .vmem S3x256x128 .bf16) (harg18 : arg18.IsWhole) (arg19 : Memref sig .tc .vmem S128x128 .bf16) (harg19 : arg19.IsWhole) (arg20 : Memref sig .tc .vmem S128x128 .bf16) (harg20 : arg20.IsWhole) (hc0 : cond0_0 i) (x0 : Vec Ideal S1024x1024 .f32) (x1 : Vec Ideal S5x32x256 .f32) (x2 : Vec Ideal S5x128x256 .f32) (x3 : Vec Ideal S5x128x128 .f32) (x4 : Vec Ideal S1x256 .f32) (x5 : Vec Ideal S1x256 .f32) (x6 : Vec Ideal S1x128 .f32) (x7 : Vec Ideal S128x128 .f32) (x8 : Vec Ideal S1x128 .f32) (x9 : Vec Ideal S128x128 .f32) (x10 : Vec Ideal S1x128 .f32) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = bodyOf x0 x4 x5 x6 x8 x10
      (sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10) (sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10) (sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)
      (sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10) (sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10) (sout0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10)
      (sout0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10) (sout0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10) := by
  unfold out0_A_11 sout0_A_0 sout0_A_1 sout0_A_2 sout0_A_3 sout0_A_4 sout0_A_5 sout0_A_6 sout0_A_7
  simp only [View.read_writes_junk_eq_canon]
  unfold kernelRun0_A
  dsimp only
  sl_unfold_words
  simp only [View.canon_unit_zero (S := S1024x10) hz2, View.canon_unit_zero (S := S128x128) hz2,
    View.readCov_unit_zero (S := S128x128) _ hz2]
  simp only [View.readAt_eq_ld, harg1.read_unread, harg2.read_unread, harg3.read_unread, harg4.read_unread, harg5.read_unread,
    harg6.read_unread, harg7.read_unread, harg8.read_unread, harg9.read_unread, harg10.read_unread, harg11.read_unread,
    View.ld_unit_zero (S := S1024x1024) hz2, View.ld_unit_zero (S := S1x256) hz2, View.ld_unit_zero (S := S1x128) hz2,
    View.ld_unit_zero (S := S128x128) hz2, readCov_ld]
  unfold bodyOf
  rfl

end Cert.KernelIdeal.Body

end
-- ==== Proof.KerWeights.lean ====
/-
  The kernel's assembled weight scratch. At its first grid point the kernel fills six scratch buffers with zero and
  then copies 32-row (or 128-row) slabs of the narrowed convolution and dense weights into aligned blocks of them; two
  more buffers receive the last two dense matrices whole. Read back, each buffer is the banded matrix the network's
  layers are contracted against: a block (matrix k, row block r, column half e) holds slab `tap k r e` of the source
  when that tap exists and zero otherwise. The later grid points store nothing into these buffers, so every point
  sees the same eight arrays.

  The reading goes store by store from the newest: a store whose payload is the block of the banded matrix it covers
  settles every index inside its rectangle, and an index outside all the stored blocks reads the zero fill, where the
  banded matrix has no tap.
-/
import proofs.«128838_g2000305662181196_pallasbulk_93_52_alg».proof.Proof.KernelIdealFrameDefs
import proofs.«128838_g2000305662181196_pallasbulk_93_52_alg».proof.Proof.Weights
import Idealize.ShloMosaic.Lib.Pipeline.CanonAppend
import Idealize.ShloMosaic.Lib.ValueIdx
import Idealize.ShloMosaic.Lib.IdealHost

set_option maxRecDepth 16384

noncomputable section

namespace Cert.KernelIdeal.Weights

open Cert.KernelIdeal.Gen Cert.KernelIdeal.GenP Cert.Net
open Idealize.ShloMosaic Idealize.ShloMosaic.TcCoe Idealize.ShloMosaic.Tactic Idealize.ShloMosaic.ValueIdx
open Idealize.SL Idealize.SL.RA Idealize.SL.BI
open scoped Idealize.SL.BI
open Idealize.ShloMosaic.Rounds
open Idealize.ShloMosaic.Pipeline (Dat Cfg Window BodyObligation cellOf)

/-- One more store on top: if its payload is the block of `G` it covers, and off it the earlier stores read `G` at `y`,
    the canon reads `G` at `y`. -/
theorem canon_cons_block {Val : EltTy → Type} {S : Shape} {e : EltTy} [∀ e, Nonempty (Val e)] (G : S.Idx → Val e)
    (p : View.Piece Val S e) (L : List (View.Piece Val S e)) (y : S.Idx)
    (hp : ∀ x : p.1.shape.Idx, p.2 x = G (p.1.emb x)) (h : y ∉ p.1.set → View.canon L y = G y) :
    View.canon (p :: L) y = G y := by
  by_cases hm : y ∈ p.1.set
  · obtain ⟨x, rfl⟩ := p.1.exists_idx_of_mem hm
    rw [show p.1.idx x = p.1.emb x from rfl, View.canon_cons_emb]
    exact hp x
  · rw [View.canon_cons_of_not_mem _ _ hm]
    exact h hm

/-- A [1,R,C] slice at offset `d` on the leading axis of a [5,R,C] array, its unit axis dropped and added again, read at an index. -/
theorem slice_read {R C : ℕ} (V : (⟨3, ![5, R, C]⟩ : Shape).Idx → EReal) (d : ℕ) (hd : d < 5)
    (hs : (⟨3, ![5, R, C]⟩ : Shape).Slices ![d, 0, 0] ⟨3, ![1, R, C]⟩)
    (h1 : (⟨3, ![1, R, C]⟩ : Shape).ShapeCasts ⟨2, ![R, C]⟩) (h2 : (⟨2, ![R, C]⟩ : Shape).ShapeCasts ⟨3, ![1, R, C]⟩)
    (x : (⟨3, ![1, R, C]⟩ : Shape).Idx) :
    shapeCast ⟨3, ![1, R, C]⟩ (shapeCast ⟨2, ![R, C]⟩ (extractStridedSlice ⟨3, ![1, R, C]⟩ ![d, 0, 0] V hs) h1) h2 x
      = rd3 V d (x 1).val (x 2).val := by
  have hx0 : (x 0).val = 0 := by have := (x 0).isLt; simp at this; omega
  have hx1 : (x 1).val < R := (x 1).isLt
  have hx2 : (x 2).val < C := (x 2).isLt
  rw [shapeCast_shapeCast, rd3_of_lt V hd hx1 hx2]
  refine extractStridedSlice_apply _ V hs x _ fun a => ?_
  match a with
  | ⟨0, _⟩ => show d = d + (x 0).val; omega
  | ⟨1, _⟩ => show (x 1).val = 0 + (x 1).val; omega
  | ⟨2, _⟩ => show (x 2).val = 0 + (x 2).val; omega

/-! ### A banded matrix laid out in aligned blocks

A rank-3 buffer of extents [K, N1, N2] is cut into blocks of R rows and C columns; `tap k r e` says which slab `d` of the
source (if any) sits in block (r, e) of matrix k; elsewhere the buffer is zero. -/

/-- The buffer's entry at natural coordinates. -/
def bandN (R C : ℕ) (tap : ℕ → ℕ → ℕ → Option ℕ) (M : ℕ → ℕ → ℕ → EReal) (k κ col : ℕ) : EReal :=
  (tap k (κ / R) (col / C)).elim 0 (fun d => M d (κ % R) (col % C))

/-- The buffer as a function of its index. -/
def bandG (R C : ℕ) (tap : ℕ → ℕ → ℕ → Option ℕ) (M : ℕ → ℕ → ℕ → EReal) {K N1 N2 : ℕ} :
    (⟨3, ![K, N1, N2]⟩ : Shape).Idx → EReal :=
  fun y => bandN R C tap M (y 0).val (y 1).val (y 2).val

/-- Inside an aligned block that holds slab `d`, the entry at offset (a, b) is the slab's entry (a, b). -/
theorem bandN_block (R C : ℕ) (tap : ℕ → ℕ → ℕ → Option ℕ) (M : ℕ → ℕ → ℕ → EReal) (hR : 0 < R) (hC : 0 < C)
    (k o1 o2 d a b : ℕ) (h1 : o1 % R = 0) (h2 : o2 % C = 0) (ht : tap k (o1 / R) (o2 / C) = some d)
    (ha : a < R) (hb : b < C) : bandN R C tap M k (o1 + a) (o2 + b) = M d a b := by
  obtain ⟨q1, rfl⟩ : ∃ q, o1 = R * q := ⟨o1 / R, (Nat.mul_div_cancel' (Nat.dvd_of_mod_eq_zero h1)).symm⟩
  obtain ⟨q2, rfl⟩ : ∃ q, o2 = C * q := ⟨o2 / C, (Nat.mul_div_cancel' (Nat.dvd_of_mod_eq_zero h2)).symm⟩
  rw [Nat.mul_div_cancel_left _ hR, Nat.mul_div_cancel_left _ hC] at ht
  have e1 : (R * q1 + a) / R = q1 := by rw [Nat.mul_add_div hR, Nat.div_eq_of_lt ha, Nat.add_zero]
  have e2 : (C * q2 + b) / C = q2 := by rw [Nat.mul_add_div hC, Nat.div_eq_of_lt hb, Nat.add_zero]
  have e1' : (R * q1 + a) % R = a := by rw [Nat.mul_add_mod, Nat.mod_eq_of_lt ha]
  have e2' : (C * q2 + b) % C = b := by rw [Nat.mul_add_mod, Nat.mod_eq_of_lt hb]
  unfold bandN
  rw [e1, e2, e1', e2', ht]
  rfl

/-- In a block that holds no slab the entry is zero. -/
theorem bandN_off (R C : ℕ) (tap : ℕ → ℕ → ℕ → Option ℕ) (M : ℕ → ℕ → ℕ → EReal) (k κ col : ℕ)
    (h : tap k (κ / R) (col / C) = none) : bandN R C tap M k κ col = 0 := by
  unfold bandN; rw [h]; rfl

/-- The payload of one block store — slab `d` of the source — is the block of the banded buffer it is stored at. -/
theorem band_piece {R C K N1 N2 : ℕ} (tap : ℕ → ℕ → ℕ → Option ℕ) (hR : 0 < R) (hC : 0 < C)
    (V : (⟨3, ![5, R, C]⟩ : Shape).Idx → EReal) (off : Fin 3 → ℕ)
    (inb : ∀ a, off a + (![1, R, C] : Fin 3 → ℕ) a ≤ (⟨3, ![K, N1, N2]⟩ : Shape).size a) (d : ℕ)
    (hs : (⟨3, ![5, R, C]⟩ : Shape).Slices ![d, 0, 0] ⟨3, ![1, R, C]⟩)
    (h1 : (⟨3, ![1, R, C]⟩ : Shape).ShapeCasts ⟨2, ![R, C]⟩) (h2 : (⟨2, ![R, C]⟩ : Shape).ShapeCasts ⟨3, ![1, R, C]⟩)
    (ho1 : off 1 % R = 0) (ho2 : off 2 % C = 0) (ht : tap (off 0) (off 1 / R) (off 2 / C) = some d) (hd : d < 5)
    (x : (⟨3, ![1, R, C]⟩ : Shape).Idx) :
    shapeCast ⟨3, ![1, R, C]⟩ (shapeCast ⟨2, ![R, C]⟩ (extractStridedSlice ⟨3, ![1, R, C]⟩ ![d, 0, 0] V hs) h1) h2 x
      = bandG R C tap (rd3 V) ((Rect.unit (s := ⟨3, ![K, N1, N2]⟩) off ![1, R, C] inb).emb x) := by
  have hx0 : (x 0).val = 0 := by have := (x 0).isLt; simp at this; omega
  have hx1 : (x 1).val < R := (x 1).isLt
  have hx2 : (x 2).val < C := (x 2).isLt
  refine (slice_read V d hd hs h1 h2 x).trans ?_
  show rd3 V d (x 1).val (x 2).val
    = bandN R C tap (rd3 V) (off 0 + 1 * (x 0).val) (off 1 + 1 * (x 1).val) (off 2 + 1 * (x 2).val)
  simp only [hx0, Nat.one_mul, Nat.mul_zero, Nat.add_zero]
  exact (bandN_block R C tap (rd3 V) hR hC (off 0) (off 1) (off 2) d _ _ ho1 ho2 ht hx1 hx2).symm

/-- One more aligned block store on top of a list of stores, read at natural coordinates: if its payload is the block of
    `G` it covers, and the earlier stores read `G` whenever the coordinates are outside this block, the canon reads `G`. -/
theorem canon_cons_band {R C K N1 N2 : ℕ} (hR : 0 < R) (hC : 0 < C) (G : (⟨3, ![K, N1, N2]⟩ : Shape).Idx → EReal)
    (off : Fin 3 → ℕ) (inb : ∀ a, off a + (![1, R, C] : Fin 3 → ℕ) a ≤ (⟨3, ![K, N1, N2]⟩ : Shape).size a)
    (w : (⟨3, ![1, R, C]⟩ : Shape).Idx → EReal) (L : List (View.Piece (Elt Ideal) ⟨3, ![K, N1, N2]⟩ .bf16))
    (k κ col : ℕ) (hk : k < K) (hκ : κ < N1) (hcol : col < N2) (ho1 : off 1 % R = 0) (ho2 : off 2 % C = 0)
    (hp : ∀ x, w x = G ((Rect.unit (s := ⟨3, ![K, N1, N2]⟩) off ![1, R, C] inb).emb x))
    (h : ¬(k = off 0 ∧ κ / R = off 1 / R ∧ col / C = off 2 / C) →
      View.canon L (ix3 ⟨k, hk⟩ ⟨κ, hκ⟩ ⟨col, hcol⟩) = G (ix3 ⟨k, hk⟩ ⟨κ, hκ⟩ ⟨col, hcol⟩)) :
    View.canon ((⟨Rect.unit (s := ⟨3, ![K, N1, N2]⟩) off ![1, R, C] inb, w⟩ : View.Piece (Elt Ideal) ⟨3, ![K, N1, N2]⟩ .bf16) :: L)
      (ix3 ⟨k, hk⟩ ⟨κ, hκ⟩ ⟨col, hcol⟩) = G (ix3 ⟨k, hk⟩ ⟨κ, hκ⟩ ⟨col, hcol⟩) := by
  refine canon_cons_block G _ L _ hp fun hm => h fun ⟨e0, e1, e2⟩ => hm ?_
  rw [Rect.mem_set_unit]
  intro a
  match a with
  | ⟨0, _⟩ => show off 0 ≤ k ∧ k < off 0 + 1; omega
  | ⟨1, _⟩ =>
    show off 1 ≤ κ ∧ κ < off 1 + R
    have a1 := Nat.div_add_mod κ R
    have a2 := Nat.mod_lt κ hR
    have a3 := Nat.div_add_mod (off 1) R
    rw [e1] at a1
    omega
  | ⟨2, _⟩ =>
    show off 2 ≤ col ∧ col < off 2 + C
    have a1 := Nat.div_add_mod col C
    have a2 := Nat.mod_lt col hC
    have a3 := Nat.div_add_mod (off 2) C
    rw [e2] at a1
    omega

/-- The zero fill of a whole bf16 buffer reads zero. -/
theorem zero_fill_read {S : Shape} (hS : S.ShapeCasts S) (y : S.Idx) :
    shapeCast S (broadcast S (Scalar.ofBits (F := Ideal) .bf16 0x0000#16)) hS y = (0 : EReal) := by
  rw [shapeCast_self]
  exact Ideal.ofBits_zero_bf16

/-- Planes 0..3 of the first convolution: block row r of matrix k, half e, holds tap r - (2k + e) when that is one of the five taps. -/
def tapWa (k r e : ℕ) : Option ℕ := if 2 * k + e ≤ r ∧ r < 2 * k + e + 5 then some (r - (2 * k + e)) else none

/-- Outside the 20 blocks the kernel stores, no tap sits. -/
theorem tapWa_off (k r e : ℕ) (hk : k < 2) (hr : r < 8) (he : e < 2)
    (h0 : ¬(k = 0 ∧ r = 0 ∧ e = 0)) (h1 : ¬(k = 0 ∧ r = 1 ∧ e = 0)) (h2 : ¬(k = 0 ∧ r = 2 ∧ e = 0)) (h3 : ¬(k = 0 ∧ r = 3 ∧ e = 0)) (h4 : ¬(k = 0 ∧ r = 4 ∧ e = 0)) (h5 : ¬(k = 0 ∧ r = 1 ∧ e = 1)) (h6 : ¬(k = 0 ∧ r = 2 ∧ e = 1)) (h7 : ¬(k = 0 ∧ r = 3 ∧ e = 1)) (h8 : ¬(k = 0 ∧ r = 4 ∧ e = 1)) (h9 : ¬(k = 0 ∧ r = 5 ∧ e = 1)) (h10 : ¬(k = 1 ∧ r = 2 ∧ e = 0)) (h11 : ¬(k = 1 ∧ r = 3 ∧ e = 0)) (h12 : ¬(k = 1 ∧ r = 4 ∧ e = 0)) (h13 : ¬(k = 1 ∧ r = 5 ∧ e = 0)) (h14 : ¬(k = 1 ∧ r = 6 ∧ e = 0)) (h15 : ¬(k = 1 ∧ r = 3 ∧ e = 1)) (h16 : ¬(k = 1 ∧ r = 4 ∧ e = 1)) (h17 : ¬(k = 1 ∧ r = 5 ∧ e = 1)) (h18 : ¬(k = 1 ∧ r = 6 ∧ e = 1)) (h19 : ¬(k = 1 ∧ r = 7 ∧ e = 1)) :
    tapWa k r e = none := by
  unfold tapWa
  refine if_neg ?_
  interval_cases k <;> interval_cases r <;> interval_cases e <;> simp_all

set_option maxHeartbeats 4000000 in
/-- What case A leaves in the wa2 scratch: the zero fill overlaid by the 20 stored blocks. -/
theorem wa2_is (c : Dev nD) (i : grid0.Coords) (arg1 : Memref sig .tc .vmem S1024x1024 .f32) (harg1 : arg1.IsWhole) (arg2 : Memref sig .tc .vmem S5x32x256 .f32) (harg2 : arg2.IsWhole) (arg3 : Memref sig .tc .vmem S5x128x256 .f32) (harg3 : arg3.IsWhole) (arg4 : Memref sig .tc .vmem S5x128x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1024x10 .f32) (harg12 : arg12.IsWhole) (arg13 : Memref sig .tc .vmem S2x256x512 .bf16) (harg13 : arg13.IsWhole) (arg14 : Memref sig .tc .vmem S2x256x512 .bf16) (harg14 : arg14.IsWhole) (arg15 : Memref sig .tc .vmem S2x256x512 .bf16) (harg15 : arg15.IsWhole) (arg16 : Memref sig .tc .vmem S2x512x512 .bf16) (harg16 : arg16.IsWhole) (arg17 : Memref sig .tc .vmem S2x512x512 .bf16) (harg17 : arg17.IsWhole) (arg18 : Memref sig .tc .vmem S3x256x128 .bf16) (harg18 : arg18.IsWhole) (arg19 : Memref sig .tc .vmem S128x128 .bf16) (harg19 : arg19.IsWhole) (arg20 : Memref sig .tc .vmem S128x128 .bf16) (harg20 : arg20.IsWhole) (hc0 : cond0_0 i)
    (x0 : Vec Ideal S1024x1024 .f32) (x1 : Vec Ideal S5x32x256 .f32) (x2 : Vec Ideal S5x128x256 .f32) (x3 : Vec Ideal S5x128x128 .f32) (x4 : Vec Ideal S1x256 .f32) (x5 : Vec Ideal S1x256 .f32) (x6 : Vec Ideal S1x128 .f32) (x7 : Vec Ideal S128x128 .f32) (x8 : Vec Ideal S1x128 .f32) (x9 : Vec Ideal S128x128 .f32) (x10 : Vec Ideal S1x128 .f32) :
    IsWa2 (rd3 x1) (sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10) := by
  intro k κ col hk hκ hcol
  rw [rd3_of_lt _ hk hκ hcol]
  unfold sout0_A_0
  rw [View.read_writes_junk_eq_canon]
  unfold kernelRun0_A
  dsimp only
  sl_unfold_words
  have hV : k0_pay8 (F := Ideal) (View.readAt (Elt Ideal) arg2.view
      (Rect.unit ![0, 0, 0] S5x32x256.size inb_S5x32x256_S5x32x256_0_0_0).toLoadRect (harg2.unread x1)) = x1 := by
    unfold k0_pay8
    funext j
    rw [truncf_apply, View.readAt_eq_ld, harg2.read_unread, View.ld_unit_zero (by funext a; fin_cases a <;> rfl)]
  simp only [hV]
  unfold k0_pay11 k0_pay12 k0_pay13 k0_pay14 k0_pay15 k0_pay2
  dsimp only
  refine Eq.trans (b := bandG 32 256 tapWa (rd3 x1) (ix3 ⟨k, hk⟩ ⟨κ, hκ⟩ ⟨col, hcol⟩)) ?_ ?_
  · iterate 20
      refine canon_cons_band (R := 32) (C := 256) (by decide) (by decide) (bandG 32 256 tapWa (rd3 x1)) _ _ _ _ k κ col hk hκ hcol (by decide) (by decide)
        (fun x => band_piece tapWa (by decide) (by decide) x1 _ _ _ _ _ _ (by decide) (by decide) (by decide) (by decide) x) (fun hm => ?_)
    refine (congrFun (View.canon_unit_zero (S := S2x256x512) (off := ![0, 0, 0]) (by funext a; fin_cases a <;> rfl) _ _) _).trans ?_
    refine (zero_fill_read _ _).trans (bandN_off 32 256 tapWa (rd3 x1) k κ col ?_).symm
    have hr : κ / 32 < 8 := by omega
    have he : col / 256 < 2 := by omega
    generalize κ / 32 = r at *
    generalize col / 256 = e at *
    simp only [Matrix.cons_val_zero, Matrix.cons_val_one, Matrix.cons_val, Nat.reduceDiv] at *
    exact tapWa_off k r e hk hr he (by assumption) (by assumption) (by assumption) (by assumption) (by assumption) (by assumption) (by assumption) (by assumption) (by assumption) (by assumption) (by assumption) (by assumption) (by assumption) (by assumption) (by assumption) (by assumption) (by assumption) (by assumption) (by assumption) (by assumption)
  · show bandN 32 256 tapWa (rd3 x1) k κ col = _
    unfold bandN tapWa
    by_cases hc : 2 * k + col / 256 ≤ κ / 32 ∧ κ / 32 < 2 * k + col / 256 + 5
    · rw [if_pos hc, if_pos hc]; rfl
    · rw [if_neg hc, if_neg hc]; rfl

/-- Planes 4..7, the taps inside the same group of eight image rows. -/
def tapWh (k r e : ℕ) : Option ℕ := if 4 + 2 * k + e ≤ r then some (r - (4 + 2 * k + e)) else none

/-- Outside the 10 blocks the kernel stores, no tap sits. -/
theorem tapWh_off (k r e : ℕ) (hk : k < 2) (hr : r < 8) (he : e < 2)
    (h0 : ¬(k = 0 ∧ r = 4 ∧ e = 0)) (h1 : ¬(k = 0 ∧ r = 5 ∧ e = 0)) (h2 : ¬(k = 0 ∧ r = 6 ∧ e = 0)) (h3 : ¬(k = 0 ∧ r = 7 ∧ e = 0)) (h4 : ¬(k = 0 ∧ r = 5 ∧ e = 1)) (h5 : ¬(k = 0 ∧ r = 6 ∧ e = 1)) (h6 : ¬(k = 0 ∧ r = 7 ∧ e = 1)) (h7 : ¬(k = 1 ∧ r = 6 ∧ e = 0)) (h8 : ¬(k = 1 ∧ r = 7 ∧ e = 0)) (h9 : ¬(k = 1 ∧ r = 7 ∧ e = 1)) :
    tapWh k r e = none := by
  unfold tapWh
  refine if_neg ?_
  interval_cases k <;> interval_cases r <;> interval_cases e <;> simp_all

set_option maxHeartbeats 4000000 in
/-- What case A leaves in the wh2 scratch: the zero fill overlaid by the 10 stored blocks. -/
theorem wh2_is (c : Dev nD) (i : grid0.Coords) (arg1 : Memref sig .tc .vmem S1024x1024 .f32) (harg1 : arg1.IsWhole) (arg2 : Memref sig .tc .vmem S5x32x256 .f32) (harg2 : arg2.IsWhole) (arg3 : Memref sig .tc .vmem S5x128x256 .f32) (harg3 : arg3.IsWhole) (arg4 : Memref sig .tc .vmem S5x128x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1024x10 .f32) (harg12 : arg12.IsWhole) (arg13 : Memref sig .tc .vmem S2x256x512 .bf16) (harg13 : arg13.IsWhole) (arg14 : Memref sig .tc .vmem S2x256x512 .bf16) (harg14 : arg14.IsWhole) (arg15 : Memref sig .tc .vmem S2x256x512 .bf16) (harg15 : arg15.IsWhole) (arg16 : Memref sig .tc .vmem S2x512x512 .bf16) (harg16 : arg16.IsWhole) (arg17 : Memref sig .tc .vmem S2x512x512 .bf16) (harg17 : arg17.IsWhole) (arg18 : Memref sig .tc .vmem S3x256x128 .bf16) (harg18 : arg18.IsWhole) (arg19 : Memref sig .tc .vmem S128x128 .bf16) (harg19 : arg19.IsWhole) (arg20 : Memref sig .tc .vmem S128x128 .bf16) (harg20 : arg20.IsWhole) (hc0 : cond0_0 i)
    (x0 : Vec Ideal S1024x1024 .f32) (x1 : Vec Ideal S5x32x256 .f32) (x2 : Vec Ideal S5x128x256 .f32) (x3 : Vec Ideal S5x128x128 .f32) (x4 : Vec Ideal S1x256 .f32) (x5 : Vec Ideal S1x256 .f32) (x6 : Vec Ideal S1x128 .f32) (x7 : Vec Ideal S128x128 .f32) (x8 : Vec Ideal S1x128 .f32) (x9 : Vec Ideal S128x128 .f32) (x10 : Vec Ideal S1x128 .f32) :
    IsWh2 (rd3 x1) (sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10) := by
  intro k κ col hk hκ hcol
  rw [rd3_of_lt _ hk hκ hcol]
  unfold sout0_A_1
  rw [View.read_writes_junk_eq_canon]
  unfold kernelRun0_A
  dsimp only
  sl_unfold_words
  have hV : k0_pay8 (F := Ideal) (View.readAt (Elt Ideal) arg2.view
      (Rect.unit ![0, 0, 0] S5x32x256.size inb_S5x32x256_S5x32x256_0_0_0).toLoadRect (harg2.unread x1)) = x1 := by
    unfold k0_pay8
    funext j
    rw [truncf_apply, View.readAt_eq_ld, harg2.read_unread, View.ld_unit_zero (by funext a; fin_cases a <;> rfl)]
  simp only [hV]
  unfold k0_pay16 k0_pay3
  dsimp only
  refine Eq.trans (b := bandG 32 256 tapWh (rd3 x1) (ix3 ⟨k, hk⟩ ⟨κ, hκ⟩ ⟨col, hcol⟩)) ?_ ?_
  · iterate 10
      refine canon_cons_band (R := 32) (C := 256) (by decide) (by decide) (bandG 32 256 tapWh (rd3 x1)) _ _ _ _ k κ col hk hκ hcol (by decide) (by decide)
        (fun x => band_piece tapWh (by decide) (by decide) x1 _ _ _ _ _ _ (by decide) (by decide) (by decide) (by decide) x) (fun hm => ?_)
    refine (congrFun (View.canon_unit_zero (S := S2x256x512) (off := ![0, 0, 0]) (by funext a; fin_cases a <;> rfl) _ _) _).trans ?_
    refine (zero_fill_read _ _).trans (bandN_off 32 256 tapWh (rd3 x1) k κ col ?_).symm
    have hr : κ / 32 < 8 := by omega
    have he : col / 256 < 2 := by omega
    generalize κ / 32 = r at *
    generalize col / 256 = e at *
    simp only [Matrix.cons_val_zero, Matrix.cons_val_one, Matrix.cons_val, Nat.reduceDiv] at *
    exact tapWh_off k r e hk hr he (by assumption) (by assumption) (by assumption) (by assumption) (by assumption) (by assumption) (by assumption) (by assumption) (by assumption) (by assumption)
  · show bandN 32 256 tapWh (rd3 x1) k κ col = _
    unfold bandN tapWh
    by_cases hc : 4 + 2 * k + col / 256 ≤ κ / 32
    · rw [if_pos hc, if_pos hc]; rfl
    · rw [if_neg hc, if_neg hc]; rfl

/-- Planes 4..7, the taps that reach into the next group of eight image rows. -/
def tapWb (k r e : ℕ) : Option ℕ := if r + 8 < 4 + 2 * k + e + 5 then some (r + 8 - (4 + 2 * k + e)) else none

/-- Outside the 10 blocks the kernel stores, no tap sits. -/
theorem tapWb_off (k r e : ℕ) (hk : k < 2) (hr : r < 8) (he : e < 2)
    (h0 : ¬(k = 0 ∧ r = 0 ∧ e = 0)) (h1 : ¬(k = 0 ∧ r = 0 ∧ e = 1)) (h2 : ¬(k = 0 ∧ r = 1 ∧ e = 1)) (h3 : ¬(k = 1 ∧ r = 0 ∧ e = 0)) (h4 : ¬(k = 1 ∧ r = 1 ∧ e = 0)) (h5 : ¬(k = 1 ∧ r = 2 ∧ e = 0)) (h6 : ¬(k = 1 ∧ r = 0 ∧ e = 1)) (h7 : ¬(k = 1 ∧ r = 1 ∧ e = 1)) (h8 : ¬(k = 1 ∧ r = 2 ∧ e = 1)) (h9 : ¬(k = 1 ∧ r = 3 ∧ e = 1)) :
    tapWb k r e = none := by
  unfold tapWb
  refine if_neg ?_
  interval_cases k <;> interval_cases r <;> interval_cases e <;> simp_all

set_option maxHeartbeats 4000000 in
/-- What case A leaves in the wb2 scratch: the zero fill overlaid by the 10 stored blocks. -/
theorem wb2_is (c : Dev nD) (i : grid0.Coords) (arg1 : Memref sig .tc .vmem S1024x1024 .f32) (harg1 : arg1.IsWhole) (arg2 : Memref sig .tc .vmem S5x32x256 .f32) (harg2 : arg2.IsWhole) (arg3 : Memref sig .tc .vmem S5x128x256 .f32) (harg3 : arg3.IsWhole) (arg4 : Memref sig .tc .vmem S5x128x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1024x10 .f32) (harg12 : arg12.IsWhole) (arg13 : Memref sig .tc .vmem S2x256x512 .bf16) (harg13 : arg13.IsWhole) (arg14 : Memref sig .tc .vmem S2x256x512 .bf16) (harg14 : arg14.IsWhole) (arg15 : Memref sig .tc .vmem S2x256x512 .bf16) (harg15 : arg15.IsWhole) (arg16 : Memref sig .tc .vmem S2x512x512 .bf16) (harg16 : arg16.IsWhole) (arg17 : Memref sig .tc .vmem S2x512x512 .bf16) (harg17 : arg17.IsWhole) (arg18 : Memref sig .tc .vmem S3x256x128 .bf16) (harg18 : arg18.IsWhole) (arg19 : Memref sig .tc .vmem S128x128 .bf16) (harg19 : arg19.IsWhole) (arg20 : Memref sig .tc .vmem S128x128 .bf16) (harg20 : arg20.IsWhole) (hc0 : cond0_0 i)
    (x0 : Vec Ideal S1024x1024 .f32) (x1 : Vec Ideal S5x32x256 .f32) (x2 : Vec Ideal S5x128x256 .f32) (x3 : Vec Ideal S5x128x128 .f32) (x4 : Vec Ideal S1x256 .f32) (x5 : Vec Ideal S1x256 .f32) (x6 : Vec Ideal S1x128 .f32) (x7 : Vec Ideal S128x128 .f32) (x8 : Vec Ideal S1x128 .f32) (x9 : Vec Ideal S128x128 .f32) (x10 : Vec Ideal S1x128 .f32) :
    IsWb2 (rd3 x1) (sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10) := by
  intro k κ col hk hκ hcol
  rw [rd3_of_lt _ hk hκ hcol]
  unfold sout0_A_2
  rw [View.read_writes_junk_eq_canon]
  unfold kernelRun0_A
  dsimp only
  sl_unfold_words
  have hV : k0_pay8 (F := Ideal) (View.readAt (Elt Ideal) arg2.view
      (Rect.unit ![0, 0, 0] S5x32x256.size inb_S5x32x256_S5x32x256_0_0_0).toLoadRect (harg2.unread x1)) = x1 := by
    unfold k0_pay8
    funext j
    rw [truncf_apply, View.readAt_eq_ld, harg2.read_unread, View.ld_unit_zero (by funext a; fin_cases a <;> rfl)]
  simp only [hV]
  unfold k0_pay4
  dsimp only
  refine Eq.trans (b := bandG 32 256 tapWb (rd3 x1) (ix3 ⟨k, hk⟩ ⟨κ, hκ⟩ ⟨col, hcol⟩)) ?_ ?_
  · iterate 10
      refine canon_cons_band (R := 32) (C := 256) (by decide) (by decide) (bandG 32 256 tapWb (rd3 x1)) _ _ _ _ k κ col hk hκ hcol (by decide) (by decide)
        (fun x => band_piece tapWb (by decide) (by decide) x1 _ _ _ _ _ _ (by decide) (by decide) (by decide) (by decide) x) (fun hm => ?_)
    refine (congrFun (View.canon_unit_zero (S := S2x256x512) (off := ![0, 0, 0]) (by funext a; fin_cases a <;> rfl) _ _) _).trans ?_
    refine (zero_fill_read _ _).trans (bandN_off 32 256 tapWb (rd3 x1) k κ col ?_).symm
    have hr : κ / 32 < 8 := by omega
    have he : col / 256 < 2 := by omega
    generalize κ / 32 = r at *
    generalize col / 256 = e at *
    simp only [Matrix.cons_val_zero, Matrix.cons_val_one, Matrix.cons_val, Nat.reduceDiv] at *
    exact tapWb_off k r e hk hr he (by assumption) (by assumption) (by assumption) (by assumption) (by assumption) (by assumption) (by assumption) (by assumption) (by assumption) (by assumption)
  · show bandN 32 256 tapWb (rd3 x1) k κ col = _
    unfold bandN tapWb
    by_cases hc : κ / 32 + 8 < 4 + 2 * k + col / 256 + 5
    · rw [if_pos hc, if_pos hc]; rfl
    · rw [if_neg hc, if_neg hc]; rfl

/-- Second convolution, the taps inside the same group of four pooled rows. -/
def tapVa (k r e : ℕ) : Option ℕ := if 2 * k + e ≤ r then some (r - (2 * k + e)) else none

/-- Outside the 10 blocks the kernel stores, no tap sits. -/
theorem tapVa_off (k r e : ℕ) (hk : k < 2) (hr : r < 4) (he : e < 2)
    (h0 : ¬(k = 0 ∧ r = 0 ∧ e = 0)) (h1 : ¬(k = 0 ∧ r = 1 ∧ e = 0)) (h2 : ¬(k = 0 ∧ r = 2 ∧ e = 0)) (h3 : ¬(k = 0 ∧ r = 3 ∧ e = 0)) (h4 : ¬(k = 0 ∧ r = 1 ∧ e = 1)) (h5 : ¬(k = 0 ∧ r = 2 ∧ e = 1)) (h6 : ¬(k = 0 ∧ r = 3 ∧ e = 1)) (h7 : ¬(k = 1 ∧ r = 2 ∧ e = 0)) (h8 : ¬(k = 1 ∧ r = 3 ∧ e = 0)) (h9 : ¬(k = 1 ∧ r = 3 ∧ e = 1)) :
    tapVa k r e = none := by
  unfold tapVa
  refine if_neg ?_
  interval_cases k <;> interval_cases r <;> interval_cases e <;> simp_all

set_option maxHeartbeats 4000000 in
/-- What case A leaves in the va2 scratch: the zero fill overlaid by the 10 stored blocks. -/
theorem va2_is (c : Dev nD) (i : grid0.Coords) (arg1 : Memref sig .tc .vmem S1024x1024 .f32) (harg1 : arg1.IsWhole) (arg2 : Memref sig .tc .vmem S5x32x256 .f32) (harg2 : arg2.IsWhole) (arg3 : Memref sig .tc .vmem S5x128x256 .f32) (harg3 : arg3.IsWhole) (arg4 : Memref sig .tc .vmem S5x128x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1024x10 .f32) (harg12 : arg12.IsWhole) (arg13 : Memref sig .tc .vmem S2x256x512 .bf16) (harg13 : arg13.IsWhole) (arg14 : Memref sig .tc .vmem S2x256x512 .bf16) (harg14 : arg14.IsWhole) (arg15 : Memref sig .tc .vmem S2x256x512 .bf16) (harg15 : arg15.IsWhole) (arg16 : Memref sig .tc .vmem S2x512x512 .bf16) (harg16 : arg16.IsWhole) (arg17 : Memref sig .tc .vmem S2x512x512 .bf16) (harg17 : arg17.IsWhole) (arg18 : Memref sig .tc .vmem S3x256x128 .bf16) (harg18 : arg18.IsWhole) (arg19 : Memref sig .tc .vmem S128x128 .bf16) (harg19 : arg19.IsWhole) (arg20 : Memref sig .tc .vmem S128x128 .bf16) (harg20 : arg20.IsWhole) (hc0 : cond0_0 i)
    (x0 : Vec Ideal S1024x1024 .f32) (x1 : Vec Ideal S5x32x256 .f32) (x2 : Vec Ideal S5x128x256 .f32) (x3 : Vec Ideal S5x128x128 .f32) (x4 : Vec Ideal S1x256 .f32) (x5 : Vec Ideal S1x256 .f32) (x6 : Vec Ideal S1x128 .f32) (x7 : Vec Ideal S128x128 .f32) (x8 : Vec Ideal S1x128 .f32) (x9 : Vec Ideal S128x128 .f32) (x10 : Vec Ideal S1x128 .f32) :
    IsVa2 (rd3 x2) (sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10) := by
  intro k κ col hk hκ hcol
  rw [rd3_of_lt _ hk hκ hcol]
  unfold sout0_A_3
  rw [View.read_writes_junk_eq_canon]
  unfold kernelRun0_A
  dsimp only
  sl_unfold_words
  have hV : k0_pay9 (F := Ideal) (View.readAt (Elt Ideal) arg3.view
      (Rect.unit ![0, 0, 0] S5x128x256.size inb_S5x128x256_S5x128x256_0_0_0).toLoadRect (harg3.unread x2)) = x2 := by
    unfold k0_pay9
    funext j
    rw [truncf_apply, View.readAt_eq_ld, harg3.read_unread, View.ld_unit_zero (by funext a; fin_cases a <;> rfl)]
  simp only [hV]
  unfold k0_pay5
  dsimp only
  refine Eq.trans (b := bandG 128 256 tapVa (rd3 x2) (ix3 ⟨k, hk⟩ ⟨κ, hκ⟩ ⟨col, hcol⟩)) ?_ ?_
  · iterate 10
      refine canon_cons_band (R := 128) (C := 256) (by decide) (by decide) (bandG 128 256 tapVa (rd3 x2)) _ _ _ _ k κ col hk hκ hcol (by decide) (by decide)
        (fun x => band_piece tapVa (by decide) (by decide) x2 _ _ _ _ _ _ (by decide) (by decide) (by decide) (by decide) x) (fun hm => ?_)
    refine (congrFun (View.canon_unit_zero (S := S2x512x512) (off := ![0, 0, 0]) (by funext a; fin_cases a <;> rfl) _ _) _).trans ?_
    refine (zero_fill_read _ _).trans (bandN_off 128 256 tapVa (rd3 x2) k κ col ?_).symm
    have hr : κ / 128 < 4 := by omega
    have he : col / 256 < 2 := by omega
    generalize κ / 128 = r at *
    generalize col / 256 = e at *
    simp only [Matrix.cons_val_zero, Matrix.cons_val_one, Matrix.cons_val, Nat.reduceDiv] at *
    exact tapVa_off k r e hk hr he (by assumption) (by assumption) (by assumption) (by assumption) (by assumption) (by assumption) (by assumption) (by assumption) (by assumption) (by assumption)
  · show bandN 128 256 tapVa (rd3 x2) k κ col = _
    unfold bandN tapVa
    by_cases hc : 2 * k + col / 256 ≤ κ / 128
    · rw [if_pos hc, if_pos hc]; rfl
    · rw [if_neg hc, if_neg hc]; rfl

/-- Second convolution, the taps that reach into the next group of four pooled rows. -/
def tapVb (k r e : ℕ) : Option ℕ := if r + 4 < 2 * k + e + 5 then some (r + 4 - (2 * k + e)) else none

/-- Outside the 10 blocks the kernel stores, no tap sits. -/
theorem tapVb_off (k r e : ℕ) (hk : k < 2) (hr : r < 4) (he : e < 2)
    (h0 : ¬(k = 0 ∧ r = 0 ∧ e = 0)) (h1 : ¬(k = 0 ∧ r = 0 ∧ e = 1)) (h2 : ¬(k = 0 ∧ r = 1 ∧ e = 1)) (h3 : ¬(k = 1 ∧ r = 0 ∧ e = 0)) (h4 : ¬(k = 1 ∧ r = 1 ∧ e = 0)) (h5 : ¬(k = 1 ∧ r = 2 ∧ e = 0)) (h6 : ¬(k = 1 ∧ r = 0 ∧ e = 1)) (h7 : ¬(k = 1 ∧ r = 1 ∧ e = 1)) (h8 : ¬(k = 1 ∧ r = 2 ∧ e = 1)) (h9 : ¬(k = 1 ∧ r = 3 ∧ e = 1)) :
    tapVb k r e = none := by
  unfold tapVb
  refine if_neg ?_
  interval_cases k <;> interval_cases r <;> interval_cases e <;> simp_all

set_option maxHeartbeats 4000000 in
/-- What case A leaves in the vb2 scratch: the zero fill overlaid by the 10 stored blocks. -/
theorem vb2_is (c : Dev nD) (i : grid0.Coords) (arg1 : Memref sig .tc .vmem S1024x1024 .f32) (harg1 : arg1.IsWhole) (arg2 : Memref sig .tc .vmem S5x32x256 .f32) (harg2 : arg2.IsWhole) (arg3 : Memref sig .tc .vmem S5x128x256 .f32) (harg3 : arg3.IsWhole) (arg4 : Memref sig .tc .vmem S5x128x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1024x10 .f32) (harg12 : arg12.IsWhole) (arg13 : Memref sig .tc .vmem S2x256x512 .bf16) (harg13 : arg13.IsWhole) (arg14 : Memref sig .tc .vmem S2x256x512 .bf16) (harg14 : arg14.IsWhole) (arg15 : Memref sig .tc .vmem S2x256x512 .bf16) (harg15 : arg15.IsWhole) (arg16 : Memref sig .tc .vmem S2x512x512 .bf16) (harg16 : arg16.IsWhole) (arg17 : Memref sig .tc .vmem S2x512x512 .bf16) (harg17 : arg17.IsWhole) (arg18 : Memref sig .tc .vmem S3x256x128 .bf16) (harg18 : arg18.IsWhole) (arg19 : Memref sig .tc .vmem S128x128 .bf16) (harg19 : arg19.IsWhole) (arg20 : Memref sig .tc .vmem S128x128 .bf16) (harg20 : arg20.IsWhole) (hc0 : cond0_0 i)
    (x0 : Vec Ideal S1024x1024 .f32) (x1 : Vec Ideal S5x32x256 .f32) (x2 : Vec Ideal S5x128x256 .f32) (x3 : Vec Ideal S5x128x128 .f32) (x4 : Vec Ideal S1x256 .f32) (x5 : Vec Ideal S1x256 .f32) (x6 : Vec Ideal S1x128 .f32) (x7 : Vec Ideal S128x128 .f32) (x8 : Vec Ideal S1x128 .f32) (x9 : Vec Ideal S128x128 .f32) (x10 : Vec Ideal S1x128 .f32) :
    IsVb2 (rd3 x2) (sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10) := by
  intro k κ col hk hκ hcol
  rw [rd3_of_lt _ hk hκ hcol]
  unfold sout0_A_4
  rw [View.read_writes_junk_eq_canon]
  unfold kernelRun0_A
  dsimp only
  sl_unfold_words
  have hV : k0_pay9 (F := Ideal) (View.readAt (Elt Ideal) arg3.view
      (Rect.unit ![0, 0, 0] S5x128x256.size inb_S5x128x256_S5x128x256_0_0_0).toLoadRect (harg3.unread x2)) = x2 := by
    unfold k0_pay9
    funext j
    rw [truncf_apply, View.readAt_eq_ld, harg3.read_unread, View.ld_unit_zero (by funext a; fin_cases a <;> rfl)]
  simp only [hV]
  unfold k0_pay76 k0_pay6
  dsimp only
  refine Eq.trans (b := bandG 128 256 tapVb (rd3 x2) (ix3 ⟨k, hk⟩ ⟨κ, hκ⟩ ⟨col, hcol⟩)) ?_ ?_
  · iterate 10
      refine canon_cons_band (R := 128) (C := 256) (by decide) (by decide) (bandG 128 256 tapVb (rd3 x2)) _ _ _ _ k κ col hk hκ hcol (by decide) (by decide)
        (fun x => band_piece tapVb (by decide) (by decide) x2 _ _ _ _ _ _ (by decide) (by decide) (by decide) (by decide) x) (fun hm => ?_)
    refine (congrFun (View.canon_unit_zero (S := S2x512x512) (off := ![0, 0, 0]) (by funext a; fin_cases a <;> rfl) _ _) _).trans ?_
    refine (zero_fill_read _ _).trans (bandN_off 128 256 tapVb (rd3 x2) k κ col ?_).symm
    have hr : κ / 128 < 4 := by omega
    have he : col / 256 < 2 := by omega
    generalize κ / 128 = r at *
    generalize col / 256 = e at *
    simp only [Matrix.cons_val_zero, Matrix.cons_val_one, Matrix.cons_val, Nat.reduceDiv] at *
    exact tapVb_off k r e hk hr he (by assumption) (by assumption) (by assumption) (by assumption) (by assumption) (by assumption) (by assumption) (by assumption) (by assumption) (by assumption)
  · show bandN 128 256 tapVb (rd3 x2) k κ col = _
    unfold bandN tapVb
    by_cases hc : κ / 128 + 4 < 2 * k + col / 256 + 5
    · rw [if_pos hc, if_pos hc]; rfl
    · rw [if_neg hc, if_neg hc]; rfl

/-- First dense layer: slab 2g + v in half v of matrix g, the sixth place empty. -/
def tapW1 (k r e : ℕ) : Option ℕ := if 2 * k + r ≤ 4 then some (2 * k + r) else none

/-- Outside the 5 blocks the kernel stores, no tap sits. -/
theorem tapW1_off (k r e : ℕ) (hk : k < 3) (hr : r < 2) (he : e < 1)
    (h0 : ¬(k = 0 ∧ r = 0 ∧ e = 0)) (h1 : ¬(k = 0 ∧ r = 1 ∧ e = 0)) (h2 : ¬(k = 1 ∧ r = 0 ∧ e = 0)) (h3 : ¬(k = 1 ∧ r = 1 ∧ e = 0)) (h4 : ¬(k = 2 ∧ r = 0 ∧ e = 0)) :
    tapW1 k r e = none := by
  unfold tapW1
  refine if_neg ?_
  interval_cases k <;> interval_cases r <;> interval_cases e <;> simp_all

set_option maxHeartbeats 4000000 in
/-- What case A leaves in the w1q scratch: the zero fill overlaid by the 5 stored blocks. -/
theorem w1q_is (c : Dev nD) (i : grid0.Coords) (arg1 : Memref sig .tc .vmem S1024x1024 .f32) (harg1 : arg1.IsWhole) (arg2 : Memref sig .tc .vmem S5x32x256 .f32) (harg2 : arg2.IsWhole) (arg3 : Memref sig .tc .vmem S5x128x256 .f32) (harg3 : arg3.IsWhole) (arg4 : Memref sig .tc .vmem S5x128x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1024x10 .f32) (harg12 : arg12.IsWhole) (arg13 : Memref sig .tc .vmem S2x256x512 .bf16) (harg13 : arg13.IsWhole) (arg14 : Memref sig .tc .vmem S2x256x512 .bf16) (harg14 : arg14.IsWhole) (arg15 : Memref sig .tc .vmem S2x256x512 .bf16) (harg15 : arg15.IsWhole) (arg16 : Memref sig .tc .vmem S2x512x512 .bf16) (harg16 : arg16.IsWhole) (arg17 : Memref sig .tc .vmem S2x512x512 .bf16) (harg17 : arg17.IsWhole) (arg18 : Memref sig .tc .vmem S3x256x128 .bf16) (harg18 : arg18.IsWhole) (arg19 : Memref sig .tc .vmem S128x128 .bf16) (harg19 : arg19.IsWhole) (arg20 : Memref sig .tc .vmem S128x128 .bf16) (harg20 : arg20.IsWhole) (hc0 : cond0_0 i)
    (x0 : Vec Ideal S1024x1024 .f32) (x1 : Vec Ideal S5x32x256 .f32) (x2 : Vec Ideal S5x128x256 .f32) (x3 : Vec Ideal S5x128x128 .f32) (x4 : Vec Ideal S1x256 .f32) (x5 : Vec Ideal S1x256 .f32) (x6 : Vec Ideal S1x128 .f32) (x7 : Vec Ideal S128x128 .f32) (x8 : Vec Ideal S1x128 .f32) (x9 : Vec Ideal S128x128 .f32) (x10 : Vec Ideal S1x128 .f32) :
    IsW1q (rd3 x3) (sout0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10) := by
  intro k κ col hk hκ hcol
  rw [rd3_of_lt _ hk hκ hcol]
  unfold sout0_A_5
  rw [View.read_writes_junk_eq_canon]
  unfold kernelRun0_A
  dsimp only
  sl_unfold_words
  have hV : k0_pay10 (F := Ideal) (View.readAt (Elt Ideal) arg4.view
      (Rect.unit ![0, 0, 0] S5x128x128.size inb_S5x128x128_S5x128x128_0_0_0).toLoadRect (harg4.unread x3)) = x3 := by
    unfold k0_pay10
    funext j
    rw [truncf_apply, View.readAt_eq_ld, harg4.read_unread, View.ld_unit_zero (by funext a; fin_cases a <;> rfl)]
  simp only [hV]
  unfold k0_pay77 k0_pay78 k0_pay79 k0_pay80 k0_pay81 k0_pay7
  dsimp only
  refine Eq.trans (b := bandG 128 128 tapW1 (rd3 x3) (ix3 ⟨k, hk⟩ ⟨κ, hκ⟩ ⟨col, hcol⟩)) ?_ ?_
  · iterate 5
      refine canon_cons_band (R := 128) (C := 128) (by decide) (by decide) (bandG 128 128 tapW1 (rd3 x3)) _ _ _ _ k κ col hk hκ hcol (by decide) (by decide)
        (fun x => band_piece tapW1 (by decide) (by decide) x3 _ _ _ _ _ _ (by decide) (by decide) (by decide) (by decide) x) (fun hm => ?_)
    refine (congrFun (View.canon_unit_zero (S := S3x256x128) (off := ![0, 0, 0]) (by funext a; fin_cases a <;> rfl) _ _) _).trans ?_
    refine (zero_fill_read _ _).trans (bandN_off 128 128 tapW1 (rd3 x3) k κ col ?_).symm
    have hr : κ / 128 < 2 := by omega
    have he : col / 128 < 1 := by omega
    generalize κ / 128 = r at *
    generalize col / 128 = e at *
    simp only [Matrix.cons_val_zero, Matrix.cons_val_one, Matrix.cons_val, Nat.reduceDiv] at *
    exact tapW1_off k r e hk hr he (by assumption) (by assumption) (by assumption) (by assumption) (by assumption)
  · show bandN 128 128 tapW1 (rd3 x3) k κ col = _
    unfold bandN tapW1
    by_cases hc : 2 * k + κ / 128 ≤ 4
    · rw [if_pos hc, if_pos hc]
      show rd3 x3 (2 * k + κ / 128) (κ % 128) (col % 128) = _
      rw [Nat.mod_eq_of_lt hcol]
    · rw [if_neg hc, if_neg hc]; rfl

set_option maxHeartbeats 1000000 in
/-- What case A leaves in the w2b scratch: the dense weight matrix itself (the narrowing is the identity on extended reals). -/
theorem w2b_is (c : Dev nD) (i : grid0.Coords) (arg1 : Memref sig .tc .vmem S1024x1024 .f32) (harg1 : arg1.IsWhole) (arg2 : Memref sig .tc .vmem S5x32x256 .f32) (harg2 : arg2.IsWhole) (arg3 : Memref sig .tc .vmem S5x128x256 .f32) (harg3 : arg3.IsWhole) (arg4 : Memref sig .tc .vmem S5x128x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1024x10 .f32) (harg12 : arg12.IsWhole) (arg13 : Memref sig .tc .vmem S2x256x512 .bf16) (harg13 : arg13.IsWhole) (arg14 : Memref sig .tc .vmem S2x256x512 .bf16) (harg14 : arg14.IsWhole) (arg15 : Memref sig .tc .vmem S2x256x512 .bf16) (harg15 : arg15.IsWhole) (arg16 : Memref sig .tc .vmem S2x512x512 .bf16) (harg16 : arg16.IsWhole) (arg17 : Memref sig .tc .vmem S2x512x512 .bf16) (harg17 : arg17.IsWhole) (arg18 : Memref sig .tc .vmem S3x256x128 .bf16) (harg18 : arg18.IsWhole) (arg19 : Memref sig .tc .vmem S128x128 .bf16) (harg19 : arg19.IsWhole) (arg20 : Memref sig .tc .vmem S128x128 .bf16) (harg20 : arg20.IsWhole) (hc0 : cond0_0 i)
    (x0 : Vec Ideal S1024x1024 .f32) (x1 : Vec Ideal S5x32x256 .f32) (x2 : Vec Ideal S5x128x256 .f32) (x3 : Vec Ideal S5x128x128 .f32) (x4 : Vec Ideal S1x256 .f32) (x5 : Vec Ideal S1x256 .f32) (x6 : Vec Ideal S1x128 .f32) (x7 : Vec Ideal S128x128 .f32) (x8 : Vec Ideal S1x128 .f32) (x9 : Vec Ideal S128x128 .f32) (x10 : Vec Ideal S1x128 .f32) :
    IsSame (rd2 x7) (sout0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10) := by
  intro p q hp hq
  rw [rd2_of_lt _ hp hq, rd2_of_lt _ hp hq]
  unfold sout0_A_6
  rw [View.read_writes_junk_eq_canon]
  unfold kernelRun0_A
  dsimp only
  sl_unfold_words
  refine (congrFun (View.canon_unit_zero (S := S128x128) (off := ![0, 0]) (by funext a; fin_cases a <;> rfl) _ _) _).trans ?_
  unfold k0_pay83 k0_pay82
  dsimp only
  rw [shapeCast_self, truncf_apply, View.readAt_eq_ld, harg8.read_unread, View.ld_unit_zero (by funext a; fin_cases a <;> rfl)]

set_option maxHeartbeats 1000000 in
/-- What case A leaves in the w3b scratch: the dense weight matrix itself (the narrowing is the identity on extended reals). -/
theorem w3b_is (c : Dev nD) (i : grid0.Coords) (arg1 : Memref sig .tc .vmem S1024x1024 .f32) (harg1 : arg1.IsWhole) (arg2 : Memref sig .tc .vmem S5x32x256 .f32) (harg2 : arg2.IsWhole) (arg3 : Memref sig .tc .vmem S5x128x256 .f32) (harg3 : arg3.IsWhole) (arg4 : Memref sig .tc .vmem S5x128x128 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1024x10 .f32) (harg12 : arg12.IsWhole) (arg13 : Memref sig .tc .vmem S2x256x512 .bf16) (harg13 : arg13.IsWhole) (arg14 : Memref sig .tc .vmem S2x256x512 .bf16) (harg14 : arg14.IsWhole) (arg15 : Memref sig .tc .vmem S2x256x512 .bf16) (harg15 : arg15.IsWhole) (arg16 : Memref sig .tc .vmem S2x512x512 .bf16) (harg16 : arg16.IsWhole) (arg17 : Memref sig .tc .vmem S2x512x512 .bf16) (harg17 : arg17.IsWhole) (arg18 : Memref sig .tc .vmem S3x256x128 .bf16) (harg18 : arg18.IsWhole) (arg19 : Memref sig .tc .vmem S128x128 .bf16) (harg19 : arg19.IsWhole) (arg20 : Memref sig .tc .vmem S128x128 .bf16) (harg20 : arg20.IsWhole) (hc0 : cond0_0 i)
    (x0 : Vec Ideal S1024x1024 .f32) (x1 : Vec Ideal S5x32x256 .f32) (x2 : Vec Ideal S5x128x256 .f32) (x3 : Vec Ideal S5x128x128 .f32) (x4 : Vec Ideal S1x256 .f32) (x5 : Vec Ideal S1x256 .f32) (x6 : Vec Ideal S1x128 .f32) (x7 : Vec Ideal S128x128 .f32) (x8 : Vec Ideal S1x128 .f32) (x9 : Vec Ideal S128x128 .f32) (x10 : Vec Ideal S1x128 .f32) :
    IsSame (rd2 x9) (sout0_A_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10) := by
  intro p q hp hq
  rw [rd2_of_lt _ hp hq, rd2_of_lt _ hp hq]
  unfold sout0_A_7
  rw [View.read_writes_junk_eq_canon]
  unfold kernelRun0_A
  dsimp only
  sl_unfold_words
  refine (congrFun (View.canon_unit_zero (S := S128x128) (off := ![0, 0]) (by funext a; fin_cases a <;> rfl) _ _) _).trans ?_
  unfold k0_pay84
  dsimp only
  rw [shapeCast_self, truncf_apply, View.readAt_eq_ld, harg10.read_unread, View.ld_unit_zero (by funext a; fin_cases a <;> rfl)]

set_option maxHeartbeats 2000000 in
/-- At every grid point the eight scratch buffers the kernel carries hold the assembled weights: point 0 assembles them
    from its argument blocks, and every later point leaves them as the point before left them. -/
theorem scratch_at (m : (ℓ : Loc nD τ sig) → Buf (Elt Ideal) ℓ) (c : Dev nD) (n : ℕ) (hn : n < cfg0.N) :
    IsWa2 (rd3 (iblk m c 1 ⟨0, Nat.lt_of_le_of_lt (Nat.zero_le n) hn⟩ : Vec Ideal S5x32x256 .f32)) (outsAt0 (F := Ideal) m c n hn).2.1
    ∧ IsWh2 (rd3 (iblk m c 1 ⟨0, Nat.lt_of_le_of_lt (Nat.zero_le n) hn⟩ : Vec Ideal S5x32x256 .f32)) (outsAt0 (F := Ideal) m c n hn).2.2.1
    ∧ IsWb2 (rd3 (iblk m c 1 ⟨0, Nat.lt_of_le_of_lt (Nat.zero_le n) hn⟩ : Vec Ideal S5x32x256 .f32)) (outsAt0 (F := Ideal) m c n hn).2.2.2.1
    ∧ IsVa2 (rd3 (iblk m c 2 ⟨0, Nat.lt_of_le_of_lt (Nat.zero_le n) hn⟩ : Vec Ideal S5x128x256 .f32)) (outsAt0 (F := Ideal) m c n hn).2.2.2.2.1
    ∧ IsVb2 (rd3 (iblk m c 2 ⟨0, Nat.lt_of_le_of_lt (Nat.zero_le n) hn⟩ : Vec Ideal S5x128x256 .f32)) (outsAt0 (F := Ideal) m c n hn).2.2.2.2.2.1
    ∧ IsW1q (rd3 (iblk m c 3 ⟨0, Nat.lt_of_le_of_lt (Nat.zero_le n) hn⟩ : Vec Ideal S5x128x128 .f32)) (outsAt0 (F := Ideal) m c n hn).2.2.2.2.2.2.1
    ∧ IsSame (rd2 (iblk m c 7 ⟨0, Nat.lt_of_le_of_lt (Nat.zero_le n) hn⟩ : Vec Ideal S128x128 .f32)) (outsAt0 (F := Ideal) m c n hn).2.2.2.2.2.2.2.1
    ∧ IsSame (rd2 (iblk m c 9 ⟨0, Nat.lt_of_le_of_lt (Nat.zero_le n) hn⟩ : Vec Ideal S128x128 .f32)) (outsAt0 (F := Ideal) m c n hn).2.2.2.2.2.2.2.2 := by
  induction n with
  | zero =>
    rw [outsAt0_A m c ⟨0, hn⟩ (Nat.zero_mod 8)]
    dsimp only
    exact ⟨wa2_is c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod 8)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩),
      wh2_is c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod 8)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩),
      wb2_is c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod 8)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩),
      va2_is c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod 8)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩),
      vb2_is c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod 8)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩),
      w1q_is c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod 8)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩),
      w2b_is c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod 8)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩),
      w3b_is c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod 8)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩)⟩
  | succ n ih =>
    have hN : cfg0.N = 8 := N_0
    have h0 : ¬(n + 1) % 8 = 0 := by omega
    rw [outsAt0_B m c ⟨n + 1, hn⟩ h0]
    exact ih (Nat.lt_of_succ_lt hn)

end Cert.KernelIdeal.Weights

end
-- ==== Proof.KerBlocks.lean ====
/-
  The kernel's argument blocks and its result array. Ten of the call's windows are whole arrays, the same at every grid
  point; the first window cuts the flattened images into eight blocks of 1024 rows, row r of block t being image
  1024 t + r and column l its pixel (l / 32, l % 32); and the result array is assembled from the eight 1024-row blocks
  the grid points write back.
-/
import proofs.«128838_g2000305662181196_pallasbulk_93_52_alg».proof.Proof.KernelIdealFrameDefs
import proofs.«128838_g2000305662181196_pallasbulk_93_52_alg».proof.Proof.Arrays
import Idealize.ShloMosaic.Lib.Pipeline.Value
import Idealize.ShloMosaic.Lib.ValueIdx
import Idealize.ShloMosaic.Lib.Tactic

set_option maxRecDepth 16384

noncomputable section

namespace Cert.KernelIdeal.Blocks

open Cert.KernelIdeal Cert.KernelIdeal.Gen Cert.KernelIdeal.GenP Cert.Net
open Idealize.ShloMosaic Idealize.ShloMosaic.TcCoe Idealize.ShloMosaic.Tactic Idealize.ShloMosaic.ValueIdx Idealize.SL.Sem
open Idealize.ShloMosaic.Pipeline (Dat)

variable (m : (ℓ : Loc nD τ sig) → Buf (Elt Ideal) ℓ)

/-- Window 1 is the whole of its array at every grid point. -/
theorem iblk_1 (c : Dev nD) (t : Fin cfg0.N) :
    (iblk m c 1 t : Vec Ideal S5x32x256 .f32) = (m ((c : Thread nD τ).loc main_arg0) : S5x32x256.Idx → EReal) := by
  have hi : win0_1.index t 0 = 0 ∧ win0_1.index t 1 = 0 ∧ win0_1.index t 2 = 0 := by
    rcases fin_N0 t with rfl | rfl | rfl | rfl | rfl | rfl | rfl | rfl <;> decide
  funext x
  unfold iblk
  rw [View.read_apply]
  show V m c main_arg0 _ = m ((c : Thread nD τ).loc main_arg0) _
  rw [V_main_arg0]
  congr 1
  funext a
  apply Fin.ext
  match a with
  | ⟨0, _⟩ => show win0_1.index t 0 * 5 + 1 * (x 0).val = (x 0).val; rw [hi.1]; omega
  | ⟨1, _⟩ => show win0_1.index t 1 * 32 + 1 * (x 1).val = (x 1).val; rw [hi.2.1]; omega
  | ⟨2, _⟩ => show win0_1.index t 2 * 256 + 1 * (x 2).val = (x 2).val; rw [hi.2.2]; omega

/-- Window 2 is the whole of its array at every grid point. -/
theorem iblk_2 (c : Dev nD) (t : Fin cfg0.N) :
    (iblk m c 2 t : Vec Ideal S5x128x256 .f32) = (m ((c : Thread nD τ).loc main_arg2) : S5x128x256.Idx → EReal) := by
  have hi : win0_2.index t 0 = 0 ∧ win0_2.index t 1 = 0 ∧ win0_2.index t 2 = 0 := by
    rcases fin_N0 t with rfl | rfl | rfl | rfl | rfl | rfl | rfl | rfl <;> decide
  funext x
  unfold iblk
  rw [View.read_apply]
  show V m c main_arg2 _ = m ((c : Thread nD τ).loc main_arg2) _
  rw [V_main_arg2]
  congr 1
  funext a
  apply Fin.ext
  match a with
  | ⟨0, _⟩ => show win0_2.index t 0 * 5 + 1 * (x 0).val = (x 0).val; rw [hi.1]; omega
  | ⟨1, _⟩ => show win0_2.index t 1 * 128 + 1 * (x 1).val = (x 1).val; rw [hi.2.1]; omega
  | ⟨2, _⟩ => show win0_2.index t 2 * 256 + 1 * (x 2).val = (x 2).val; rw [hi.2.2]; omega

/-- Window 3 is the whole of its array at every grid point. -/
theorem iblk_3 (c : Dev nD) (t : Fin cfg0.N) :
    (iblk m c 3 t : Vec Ideal S5x128x128 .f32) = (m ((c : Thread nD τ).loc main_arg4) : S5x128x128.Idx → EReal) := by
  have hi : win0_3.index t 0 = 0 ∧ win0_3.index t 1 = 0 ∧ win0_3.index t 2 = 0 := by
    rcases fin_N0 t with rfl | rfl | rfl | rfl | rfl | rfl | rfl | rfl <;> decide
  funext x
  unfold iblk
  rw [View.read_apply]
  show V m c main_arg4 _ = m ((c : Thread nD τ).loc main_arg4) _
  rw [V_main_arg4]
  congr 1
  funext a
  apply Fin.ext
  match a with
  | ⟨0, _⟩ => show win0_3.index t 0 * 5 + 1 * (x 0).val = (x 0).val; rw [hi.1]; omega
  | ⟨1, _⟩ => show win0_3.index t 1 * 128 + 1 * (x 1).val = (x 1).val; rw [hi.2.1]; omega
  | ⟨2, _⟩ => show win0_3.index t 2 * 128 + 1 * (x 2).val = (x 2).val; rw [hi.2.2]; omega

/-- Window 4 is the whole of its array at every grid point. -/
theorem iblk_4 (c : Dev nD) (t : Fin cfg0.N) :
    (iblk m c 4 t : Vec Ideal S1x256 .f32) = (m ((c : Thread nD τ).loc main_arg1) : S1x256.Idx → EReal) := by
  have hi : win0_4.index t 0 = 0 ∧ win0_4.index t 1 = 0 := by
    rcases fin_N0 t with rfl | rfl | rfl | rfl | rfl | rfl | rfl | rfl <;> decide
  funext x
  unfold iblk
  rw [View.read_apply]
  show V m c main_arg1 _ = m ((c : Thread nD τ).loc main_arg1) _
  rw [V_main_arg1]
  congr 1
  funext a
  apply Fin.ext
  match a with
  | ⟨0, _⟩ => show win0_4.index t 0 * 1 + 1 * (x 0).val = (x 0).val; rw [hi.1]; omega
  | ⟨1, _⟩ => show win0_4.index t 1 * 256 + 1 * (x 1).val = (x 1).val; rw [hi.2]; omega

/-- Window 5 is the whole of its array at every grid point. -/
theorem iblk_5 (c : Dev nD) (t : Fin cfg0.N) :
    (iblk m c 5 t : Vec Ideal S1x256 .f32) = (m ((c : Thread nD τ).loc main_arg3) : S1x256.Idx → EReal) := by
  have hi : win0_5.index t 0 = 0 ∧ win0_5.index t 1 = 0 := by
    rcases fin_N0 t with rfl | rfl | rfl | rfl | rfl | rfl | rfl | rfl <;> decide
  funext x
  unfold iblk
  rw [View.read_apply]
  show V m c main_arg3 _ = m ((c : Thread nD τ).loc main_arg3) _
  rw [V_main_arg3]
  congr 1
  funext a
  apply Fin.ext
  match a with
  | ⟨0, _⟩ => show win0_5.index t 0 * 1 + 1 * (x 0).val = (x 0).val; rw [hi.1]; omega
  | ⟨1, _⟩ => show win0_5.index t 1 * 256 + 1 * (x 1).val = (x 1).val; rw [hi.2]; omega

/-- Window 6 is the whole of its array at every grid point. -/
theorem iblk_6 (c : Dev nD) (t : Fin cfg0.N) :
    (iblk m c 6 t : Vec Ideal S1x128 .f32) = (m ((c : Thread nD τ).loc main_arg5) : S1x128.Idx → EReal) := by
  have hi : win0_6.index t 0 = 0 ∧ win0_6.index t 1 = 0 := by
    rcases fin_N0 t with rfl | rfl | rfl | rfl | rfl | rfl | rfl | rfl <;> decide
  funext x
  unfold iblk
  rw [View.read_apply]
  show V m c main_arg5 _ = m ((c : Thread nD τ).loc main_arg5) _
  rw [V_main_arg5]
  congr 1
  funext a
  apply Fin.ext
  match a with
  | ⟨0, _⟩ => show win0_6.index t 0 * 1 + 1 * (x 0).val = (x 0).val; rw [hi.1]; omega
  | ⟨1, _⟩ => show win0_6.index t 1 * 128 + 1 * (x 1).val = (x 1).val; rw [hi.2]; omega

/-- Window 7 is the whole of its array at every grid point. -/
theorem iblk_7 (c : Dev nD) (t : Fin cfg0.N) :
    (iblk m c 7 t : Vec Ideal S128x128 .f32) = (m ((c : Thread nD τ).loc main_arg6) : S128x128.Idx → EReal) := by
  have hi : win0_7.index t 0 = 0 ∧ win0_7.index t 1 = 0 := by
    rcases fin_N0 t with rfl | rfl | rfl | rfl | rfl | rfl | rfl | rfl <;> decide
  funext x
  unfold iblk
  rw [View.read_apply]
  show V m c main_arg6 _ = m ((c : Thread nD τ).loc main_arg6) _
  rw [V_main_arg6]
  congr 1
  funext a
  apply Fin.ext
  match a with
  | ⟨0, _⟩ => show win0_7.index t 0 * 128 + 1 * (x 0).val = (x 0).val; rw [hi.1]; omega
  | ⟨1, _⟩ => show win0_7.index t 1 * 128 + 1 * (x 1).val = (x 1).val; rw [hi.2]; omega

/-- Window 8 is the whole of its array at every grid point. -/
theorem iblk_8 (c : Dev nD) (t : Fin cfg0.N) :
    (iblk m c 8 t : Vec Ideal S1x128 .f32) = (m ((c : Thread nD τ).loc main_arg7) : S1x128.Idx → EReal) := by
  have hi : win0_8.index t 0 = 0 ∧ win0_8.index t 1 = 0 := by
    rcases fin_N0 t with rfl | rfl | rfl | rfl | rfl | rfl | rfl | rfl <;> decide
  funext x
  unfold iblk
  rw [View.read_apply]
  show V m c main_arg7 _ = m ((c : Thread nD τ).loc main_arg7) _
  rw [V_main_arg7]
  congr 1
  funext a
  apply Fin.ext
  match a with
  | ⟨0, _⟩ => show win0_8.index t 0 * 1 + 1 * (x 0).val = (x 0).val; rw [hi.1]; omega
  | ⟨1, _⟩ => show win0_8.index t 1 * 128 + 1 * (x 1).val = (x 1).val; rw [hi.2]; omega

/-- Window 9 is the whole of its array at every grid point. -/
theorem iblk_9 (c : Dev nD) (t : Fin cfg0.N) :
    (iblk m c 9 t : Vec Ideal S128x128 .f32) = (m ((c : Thread nD τ).loc main_arg8) : S128x128.Idx → EReal) := by
  have hi : win0_9.index t 0 = 0 ∧ win0_9.index t 1 = 0 := by
    rcases fin_N0 t with rfl | rfl | rfl | rfl | rfl | rfl | rfl | rfl <;> decide
  funext x
  unfold iblk
  rw [View.read_apply]
  show V m c main_arg8 _ = m ((c : Thread nD τ).loc main_arg8) _
  rw [V_main_arg8]
  congr 1
  funext a
  apply Fin.ext
  match a with
  | ⟨0, _⟩ => show win0_9.index t 0 * 128 + 1 * (x 0).val = (x 0).val; rw [hi.1]; omega
  | ⟨1, _⟩ => show win0_9.index t 1 * 128 + 1 * (x 1).val = (x 1).val; rw [hi.2]; omega

/-- Window 10 is the whole of its array at every grid point. -/
theorem iblk_10 (c : Dev nD) (t : Fin cfg0.N) :
    (iblk m c 10 t : Vec Ideal S1x128 .f32) = (m ((c : Thread nD τ).loc main_arg9) : S1x128.Idx → EReal) := by
  have hi : win0_10.index t 0 = 0 ∧ win0_10.index t 1 = 0 := by
    rcases fin_N0 t with rfl | rfl | rfl | rfl | rfl | rfl | rfl | rfl <;> decide
  funext x
  unfold iblk
  rw [View.read_apply]
  show V m c main_arg9 _ = m ((c : Thread nD τ).loc main_arg9) _
  rw [V_main_arg9]
  congr 1
  funext a
  apply Fin.ext
  match a with
  | ⟨0, _⟩ => show win0_10.index t 0 * 1 + 1 * (x 0).val = (x 0).val; rw [hi.1]; omega
  | ⟨1, _⟩ => show win0_10.index t 1 * 128 + 1 * (x 1).val = (x 1).val; rw [hi.2]; omega

/-- The array window 0 stages: the images, each flattened to one row of 1024 entries by the host. -/
theorem V_main_v0 (c : Dev nD) :
    (V m c main_v0 : S8192x1024.Idx → EReal)
      = shapeCast S8192x1024 (m ((c : Thread nD τ).loc main_arg10) : S8192x1x32x32.Idx → EReal) shapeCasts_S8192x1x32x32_S8192x1024 := by
  dsimp only [Gen.V, Gen.hostOps0]; after_results; rfl

/-- The image block at grid point t: row r is image 1024 t + r, column l its pixel (l / 32, l % 32). -/
theorem iblk_x (c : Dev nD) (t : Fin cfg0.N) (r l : ℕ) (hr : r < 1024) (hl : l < 1024) :
    rd2 (iblk m c 0 t : Vec Ideal S1024x1024 .f32) r l
      = rd4 (m ((c : Thread nD τ).loc main_arg10) : S8192x1x32x32.Idx → EReal) (1024 * t.val + r) 0 (l / 32) (l % 32) := by
  have hN : cfg0.N = 8 := N_0
  have ht := t.isLt
  have hi : win0_0.index t 0 = t.val ∧ win0_0.index t 1 = 0 := by
    rcases fin_N0 t with rfl | rfl | rfl | rfl | rfl | rfl | rfl | rfl <;> decide
  rw [rd2_of_lt _ hr hl, rd4_of_lt _ (by omega : 1024 * t.val + r < 8192) (by decide : 0 < 1) (by omega : l / 32 < 32)
    (Nat.mod_lt _ (by decide) : l % 32 < 32)]
  unfold iblk
  rw [View.read_apply]
  show V m c main_v0 _ = _
  rw [V_main_v0]
  refine shapeCast_apply _ _ _ _ ?_
  show ((⟨4, ![8192, 1, 32, 32]⟩ : Shape).rowMajor (ix4 ⟨1024 * t.val + r, _⟩ ⟨0, _⟩ ⟨l / 32, _⟩ ⟨l % 32, _⟩)).val
    = ((⟨2, ![8192, 1024]⟩ : Shape).rowMajor (((cfg0.win 0).blk t).view.emb (ix2 ⟨r, hr⟩ ⟨l, hl⟩))).val
  rw [Shape.rowMajor_val_four, Shape.rowMajor_val_two]
  show (((1024 * t.val + r) * 1 + 0) * 32 + l / 32) * 32 + l % 32
    = (win0_0.index t 0 * 1024 + 1 * r) * 1024 + (win0_0.index t 1 * 1024 + 1 * l)
  rw [hi.1, hi.2]
  omega

/-- The result window's printed index map over the grid: point t writes back rows 1024 t … 1024 t + 1023, all ten columns. -/
theorem out_index (t : Fin cfg0.N) : win0_11.index t 0 = t.val ∧ win0_11.index t 1 = 0 := by
  rcases fin_N0 t with rfl | rfl | rfl | rfl | rfl | rfl | rfl | rfl <;> decide

/-- An index of the result array is in point t's block iff each coordinate is in the block's range on its axis. -/
theorem mem_out_blk (t : Fin cfg0.N) (i : S8192x10.Idx) :
    i ∈ ((cfg0.win 11).blk t).view.set ↔ ∀ a : Fin 2, win0_11.index t a * S1024x10.size a ≤ (i a).val
      ∧ (i a).val < win0_11.index t a * S1024x10.size a + S1024x10.size a := by
  show i ∈ ((View.whole main_v1).slice (win0_11.rect t)).set ↔ _
  rw [View.set_slice_whole, Rect.mem_set_unit]
  exact Iff.rfl

/-- What point t writes back is block t of any array `G` whose rows 1024 t … are what the point's body left. -/
theorem flushed_out (c : Dev nD) (G : S8192x10.Idx → EReal)
    (hG : ∀ (t : Fin cfg0.N) (r cc : ℕ), r < 1024 → cc < 10 →
      rd2 (outsAt0 (F := Ideal) m c t.val t.isLt).1 r cc = rd2 G (1024 * t.val + r) cc) (t : Fin cfg0.N) :
    (dats m 0 c).flushed 11 t = ((cfg0.win 11).blk t).view.read (Elt Ideal) G := by
  have hN : cfg0.N = 8 := N_0
  have ht := t.isLt
  obtain ⟨e0, e1⟩ := out_index t
  show (cfg0.win 11).cut (grid0.coords t) ((dats m 0 c).after 11 t) = _
  rw [after0_11]
  funext j
  show (outsAt0 (F := Ideal) m c t.val t.isLt).1 j = G (((cfg0.win 11).blk t).view.emb j)
  have hj0 : (j 0).val < 1024 := (j 0).isLt
  have hj1 : (j 1).val < 10 := (j 1).isLt
  have h := hG t (j 0).val (j 1).val hj0 hj1
  rw [rd2_of_lt _ hj0 hj1, rd2_of_lt _ (by omega : 1024 * t.val + (j 0).val < 8192) hj1] at h
  have ej : (j : S1024x10.Idx) = ix2 ⟨(j 0).val, hj0⟩ ⟨(j 1).val, hj1⟩ := by
    funext a; match a with | ⟨0, _⟩ => rfl | ⟨1, _⟩ => rfl
  refine (congrArg (outsAt0 (F := Ideal) m c t.val t.isLt).1 ej).trans (h.trans (congrArg G ?_))
  funext a
  apply Fin.ext
  match a with
  | ⟨0, _⟩ => show 1024 * t.val + (j 0).val = win0_11.index t 0 * 1024 + 1 * (j 0).val; rw [e0]; omega
  | ⟨1, _⟩ => show (j 1).val = win0_11.index t 1 * 10 + 1 * (j 1).val; rw [e1]; omega

/-- The result array after the run: the eight blocks the grid points write back tile it, so it is the array `G` whose
    rows 1024 t … 1024 t + 1023 are what point t's body left. -/
theorem final_of (c : Dev nD) (G : S8192x10.Idx → EReal)
    (hG : ∀ (t : Fin cfg0.N) (r cc : ℕ), r < 1024 → cc < 10 →
      rd2 (outsAt0 (F := Ideal) m c t.val t.isLt).1 r cc = rd2 G (1024 * t.val + r) cc) :
    (dats m 0 c).arrAt 11 cfg0.N = G :=
  (dats m 0 c).arrAt_eq_of_cover 11 G (fun t _ => flushed_out m c G hG t) fun i => by
    have hN : cfg0.N = 8 := N_0
    have hi0 : (i 0).val < 8192 := (i 0).isLt
    have hi1 : (i 1).val < 10 := (i 1).isLt
    obtain ⟨t, ht⟩ : ∃ t : Fin cfg0.N, t.val = (i 0).val / 1024 := ⟨⟨(i 0).val / 1024, by omega⟩, rfl⟩
    obtain ⟨e0, e1⟩ := out_index t
    refine ⟨t, flush0_11 t, ?_⟩
    rw [mem_out_blk]
    intro a
    match a with
    | ⟨0, _⟩ =>
      show win0_11.index t 0 * 1024 ≤ (i 0).val ∧ (i 0).val < win0_11.index t 0 * 1024 + 1024
      rw [e0, ht]; omega
    | ⟨1, _⟩ =>
      show win0_11.index t 1 * 10 ≤ (i 1).val ∧ (i 1).val < win0_11.index t 1 * 10 + 10
      rw [e1]; omega

end Cert.KernelIdeal.Blocks

end
-- ==== Proof.KerRun.lean ====
/-
  The batched kernel's run at the ideal values: every grid point's output block is the network's output for its
  1024 images (the first point reads back the weight arrays it assembles, the later points the same arrays as
  they were left), the blocks fill the result array, and the argument arrays end unchanged.
-/
import Idealize.ShloMosaic.PureOps.Ideal
import proofs.«128838_g2000305662181196_pallasbulk_93_52_alg».proof.Proof.KernelIdealFrameRun
import proofs.«128838_g2000305662181196_pallasbulk_93_52_alg».proof.Proof.KerPieces
import proofs.«128838_g2000305662181196_pallasbulk_93_52_alg».proof.Proof.KerWeights
import proofs.«128838_g2000305662181196_pallasbulk_93_52_alg».proof.Proof.KerBlocks

set_option maxRecDepth 16384

open Idealize.ShloMosaic Idealize.ShloMosaic.ValueIdx Cert.Net

noncomputable section

namespace Cert.KernelIdeal.Run

open Cert.KernelIdeal Cert.KernelIdeal.Gen Cert.KernelIdeal.GenP Cert.KernelIdeal.Body
open Idealize.SL Idealize.SL.Sem

variable (m : (ℓ : Loc nD τ sig) → Buf (Elt Ideal) ℓ) (ρ : Dev nD → PrngReg)

/-- The network's parameters read off the program's eleven argument arrays on core c. -/
def params (c : Dev nD) : Params :=
  paramsOf ((m ((c.tc : Thread nD τ).loc main_arg0)) : S5x32x256.Idx → EReal) ((m ((c.tc : Thread nD τ).loc main_arg1)) : S1x256.Idx → EReal)
    ((m ((c.tc : Thread nD τ).loc main_arg2)) : S5x128x256.Idx → EReal) ((m ((c.tc : Thread nD τ).loc main_arg3)) : S1x256.Idx → EReal)
    ((m ((c.tc : Thread nD τ).loc main_arg4)) : S5x128x128.Idx → EReal) ((m ((c.tc : Thread nD τ).loc main_arg5)) : S1x128.Idx → EReal)
    ((m ((c.tc : Thread nD τ).loc main_arg6)) : S128x128.Idx → EReal) ((m ((c.tc : Thread nD τ).loc main_arg7)) : S1x128.Idx → EReal)
    ((m ((c.tc : Thread nD τ).loc main_arg8)) : S128x128.Idx → EReal) ((m ((c.tc : Thread nD τ).loc main_arg9)) : S1x128.Idx → EReal)
    ((m ((c.tc : Thread nD τ).loc main_arg10)) : S8192x1x32x32.Idx → EReal)

/-- Every point's output block holds the network's outputs for its images. -/
theorem point_block (c : Dev nD) (t : Fin cfg0.N) (r cc : ℕ) (hr : r < 1024) (hcc : cc < 10) :
    rd2 (outsAt0 (F := Ideal) m c t.val t.isLt).1 r cc = Net.out (params m c) (1024 * t.val + r) cc := by
  have hx : ∀ r l, r < 1024 → l < 1024 →
      rd2 (iblk m c 0 t : Vec Ideal S1024x1024 .f32) r l = (params m c).X (1024 * t.val + r) (l / 32) (l % 32) :=
    fun r l hr hl => Blocks.iblk_x m c t r l hr hl
  have hb1 : ∀ k, k < 256 → rd2 (iblk m c 4 t : Vec Ideal S1x256 .f32) 0 k = (params m c).B1 k := fun k _ => by
    rw [Blocks.iblk_4 m c t]; rfl
  have hb2 : ∀ k, k < 256 → rd2 (iblk m c 5 t : Vec Ideal S1x256 .f32) 0 k = (params m c).B2 k := fun k _ => by
    rw [Blocks.iblk_5 m c t]; rfl
  have hb1f : ∀ k, k < 128 → rd2 (iblk m c 6 t : Vec Ideal S1x128 .f32) 0 k = (params m c).B1f k := fun k _ => by
    rw [Blocks.iblk_6 m c t]; rfl
  have hb2f : ∀ k, k < 128 → rd2 (iblk m c 8 t : Vec Ideal S1x128 .f32) 0 k = (params m c).B2f k := fun k _ => by
    rw [Blocks.iblk_8 m c t]; rfl
  have hb3f : ∀ k, k < 128 → rd2 (iblk m c 10 t : Vec Ideal S1x128 .f32) 0 k = (params m c).B3f k := fun k _ => by
    rw [Blocks.iblk_10 m c t]; rfl
  by_cases h0 : t.val % 8 = 0
  · have hS := Weights.scratch_at m c t.val t.isLt
    rw [Blocks.iblk_1, Blocks.iblk_2, Blocks.iblk_3, Blocks.iblk_7, Blocks.iblk_9, outsAt0_A m c t h0] at hS
    rw [outsAt0_A m c t h0]
    dsimp only at hS ⊢
    rw [outA_eq]
    exact bodyOf_rd (params m c) (1024 * t.val) _ _ _ _ _ _ _ _ _ _ _ _ _ _ hx hS.1 hS.2.1 hS.2.2.1 hS.2.2.2.1
      hS.2.2.2.2.1 hS.2.2.2.2.2.1 hS.2.2.2.2.2.2.1 hS.2.2.2.2.2.2.2 hb1 hb2 hb1f hb2f hb3f r cc hr hcc
  · have hS := Weights.scratch_at m c (t.val - 1) (Nat.lt_of_le_of_lt (Nat.sub_le _ _) t.isLt)
    rw [Blocks.iblk_1, Blocks.iblk_2, Blocks.iblk_3, Blocks.iblk_7, Blocks.iblk_9] at hS
    rw [outsAt0_B m c t h0]
    dsimp only
    rw [outB_eq]
    exact bodyOf_rd (params m c) (1024 * t.val) _ _ _ _ _ _ _ _ _ _ _ _ _ _ hx hS.1 hS.2.1 hS.2.2.1 hS.2.2.2.1
      hS.2.2.2.2.1 hS.2.2.2.2.2.1 hS.2.2.2.2.2.2.1 hS.2.2.2.2.2.2.2 hb1 hb2 hb1f hb2f hb3f r cc hr hcc

/-- The result array after the run. -/
theorem final (c : Dev nD) : (dats m 0 c).arrAt 11 cfg0.N = Net.result (params m c) :=
  Blocks.final_of m c (Net.result (params m c)) fun t r cc hr hcc => by
    have hN : t.val < 8 := lt_of_lt_of_eq t.isLt (show cfg0.N = 8 from N_0)
    rw [point_block m c t r cc hr hcc, rd2_of_lt _ (show 1024 * t.val + r < 8192 by omega) hcc]
    rfl

/-- The run: the result array holds the network's outputs and the arguments are unchanged. -/
theorem run : θ_run (defs (F := Ideal)) (onTc (τ := τ) (main (F := Ideal))) ⟨m, fun _ => 0, ρ⟩ (fun r => ∀ c : Dev nD,
      r.2.mem ((c.tc : Thread nD τ).loc main_v1) = Net.result (params m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 11).trans (final m c),
      ((h c).1 1).trans (((dats m 0 c).arrAt_in 1 rfl _).trans ((A_eq m c 1).trans (V_main_arg0 m c))),
      ((h c).1 4).trans (((dats m 0 c).arrAt_in 4 rfl _).trans ((A_eq m c 4).trans (V_main_arg1 m c))),
      ((h c).1 2).trans (((dats m 0 c).arrAt_in 2 rfl _).trans ((A_eq m c 2).trans (V_main_arg2 m c))),
      ((h c).1 5).trans (((dats m 0 c).arrAt_in 5 rfl _).trans ((A_eq m c 5).trans (V_main_arg3 m c))),
      ((h c).1 3).trans (((dats m 0 c).arrAt_in 3 rfl _).trans ((A_eq m c 3).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c))),
      ((h c).2 main_arg10 (Pipeline.mem_restRefs_of main_arg10 (by decide) (by decide))).trans (V_main_arg10 m c)⟩)
    (run_main (F := Ideal) m ρ)

end Cert.KernelIdeal.Run

end
-- ==== Proof.RefValue.lean ====
/-
  The reference program's value. Its grid has one point per image; at a point the body reads the image's 32×32 block
  and the ten parameter arrays whole, and leaves one row of 128 numbers in the output block. Here that row is written
  as a pure function of the eleven input blocks (the two scratch buffers are stored whole and read back in row ranges
  inside the same point, so they are values of that function, not state), each stage is read at natural-number
  coordinates — five banded products added left to right, a bias row, a maximum with zero, the maximum of the two column
  halves, the two 0/1 selection products (entry (r, κ) is 1 where κ = 2r, resp. 2r + 1, so a sum against it picks one
  term) and their maximum, the same once more, then the three dense layers — and the row is the network's output for
  that image. The result array is then the blocks laid one per image, cut to ten columns by the host.
-/
import proofs.«128838_g2000305662181196_pallasbulk_93_52_alg».proof.Proof.Gen.ReferenceIdeal.Frame
import proofs.«128838_g2000305662181196_pallasbulk_93_52_alg».proof.Proof.Arrays
import proofs.«128838_g2000305662181196_pallasbulk_93_52_alg».proof.Proof.LibPlainDot
import proofs.«128838_g2000305662181196_pallasbulk_93_52_alg».proof.Proof.ArrayOps
import Idealize.ShloMosaic.Lib.Tactic
import Idealize.ShloMosaic.Lib.Pipeline.Frame
import Idealize.ShloMosaic.Lib.Pipeline.FrameSuffix
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section
namespace Cert.ReferenceIdeal.RefValue
open Idealize.ShloMosaic Idealize.ShloMosaic.TcCoe Idealize.ShloMosaic.Tactic Idealize.SL.Sem
open Idealize.ShloMosaic.ValueIdx
open Idealize.ShloMosaic.Pipeline (Dat)
open Cert.ReferenceIdeal Cert.ReferenceIdeal.Gen
open Cert.Net (rd2 rd3 rd4 rd2_of_lt rd3_of_lt rd4_of_lt rd2_addf rd2_maximumf rd2_matmul rd2_cols rd2_rows rd2_bcastRow rd2_zero_f32 rd2_dropUnit rd2_recast sum_fin_range)
section Body
variable {F : FTy → Type} [FloatOps F]

/-- The first pooled activation (14 rows of 128 columns), as the body computes it from the image block and the first
    convolution's matrices and bias row. -/
def p1 (x0 : Vec F S1x32x32 .f32) (x1 : Vec F S5x32x256 .f32) (x2 : Vec F S1x256 .f32) : Vec F S14x128 .f32 :=
  k0_pay4
    (k0_pay2
      (View.ld x0 (Rect.unit (s := S1x32x32) ![0, 0, 0] S1x28x32.size inb_S1x32x32_S1x28x32_0_0_0))
      (View.ld x1 (Rect.unit (s := S5x32x256) ![0, 0, 0] S1x32x256.size inb_S5x32x256_S1x32x256_0_0_0))
      (View.ld x0 (Rect.unit (s := S1x32x32) ![0, 1, 0] S1x28x32.size inb_S1x32x32_S1x28x32_0_1_0))
      (View.ld x1 (Rect.unit (s := S5x32x256) ![1, 0, 0] S1x32x256.size inb_S5x32x256_S1x32x256_1_0_0))
      (View.ld x0 (Rect.unit (s := S1x32x32) ![0, 2, 0] S1x28x32.size inb_S1x32x32_S1x28x32_0_2_0))
      (View.ld x1 (Rect.unit (s := S5x32x256) ![2, 0, 0] S1x32x256.size inb_S5x32x256_S1x32x256_2_0_0))
      (View.ld x0 (Rect.unit (s := S1x32x32) ![0, 3, 0] S1x28x32.size inb_S1x32x32_S1x28x32_0_3_0))
      (View.ld x1 (Rect.unit (s := S5x32x256) ![3, 0, 0] S1x32x256.size inb_S5x32x256_S1x32x256_3_0_0)))
    (k0_pay3
      (View.ld x0 (Rect.unit (s := S1x32x32) ![0, 4, 0] S1x28x32.size inb_S1x32x32_S1x28x32_0_4_0)))
      (View.ld x1 (Rect.unit (s := S5x32x256) ![4, 0, 0] S1x32x256.size inb_S5x32x256_S1x32x256_4_0_0))
      (View.ld x2 (Rect.unit (s := S1x256) ![0, 0] S1x256.size inb_S1x256_S1x256_0_0))

/-- The second pooled activation (5 rows of 128 columns), computed from rows of the first one (stored whole, read back
    in row ranges) and the second convolution's matrices and bias row. -/
def p2 (x0 : Vec F S1x32x32 .f32) (x1 : Vec F S5x32x256 .f32) (x2 : Vec F S1x256 .f32) (x3 : Vec F S5x128x256 .f32) (x4 : Vec F S1x256 .f32) : Vec F S5x128 .f32 :=
  k0_pay9
    (k0_pay6
    (k0_pay5
      (View.ld (p1 x0 x1 x2) (Rect.unit (s := S14x128) ![0, 0] S10x128.size inb_S14x128_S10x128_0_0))
      (View.ld x3 (Rect.unit (s := S5x128x256) ![0, 0, 0] S1x128x256.size inb_S5x128x256_S1x128x256_0_0_0)))
      (View.ld (p1 x0 x1 x2) (Rect.unit (s := S14x128) ![1, 0] S10x128.size inb_S14x128_S10x128_1_0))
      (View.ld x3 (Rect.unit (s := S5x128x256) ![1, 0, 0] S1x128x256.size inb_S5x128x256_S1x128x256_1_0_0))
      (View.ld (p1 x0 x1 x2) (Rect.unit (s := S14x128) ![2, 0] S10x128.size inb_S14x128_S10x128_2_0))
      (View.ld x3 (Rect.unit (s := S5x128x256) ![2, 0, 0] S1x128x256.size inb_S5x128x256_S1x128x256_2_0_0))
      (View.ld (p1 x0 x1 x2) (Rect.unit (s := S14x128) ![3, 0] S10x128.size inb_S14x128_S10x128_3_0))
      (View.ld x3 (Rect.unit (s := S5x128x256) ![3, 0, 0] S1x128x256.size inb_S5x128x256_S1x128x256_3_0_0))
      (View.ld (p1 x0 x1 x2) (Rect.unit (s := S14x128) ![4, 0] S10x128.size inb_S14x128_S10x128_4_0))
      (View.ld x3 (Rect.unit (s := S5x128x256) ![4, 0, 0] S1x128x256.size inb_S5x128x256_S1x128x256_4_0_0))
      (View.ld x4 (Rect.unit (s := S1x256) ![0, 0] S1x256.size inb_S1x256_S1x256_0_0)))
    (iota .tc S5x10 32 [1] iota_S5x10_d1_w32)
    (k0_pay7 (F := F)) k0_pay8

/-- What the body leaves in the output block, as a pure function of the eleven input blocks. -/
def refBody (x0 : Vec F S1x32x32 .f32) (x1 : Vec F S5x32x256 .f32) (x2 : Vec F S1x256 .f32) (x3 : Vec F S5x128x256 .f32) (x4 : Vec F S1x256 .f32)
    (x5 : Vec F S5x128x128 .f32) (x6 : Vec F S1x128 .f32) (x7 : Vec F S128x128 .f32) (x8 : Vec F S1x128 .f32) (x9 : Vec F S128x128 .f32) (x10 : Vec F S1x128 .f32) : Vec F S1x1x128 .f32 :=
  k0_pay1
    (k0_pay10
      (View.ld (p2 x0 x1 x2 x3 x4) (Rect.unit (s := S5x128) ![0, 0] S1x128.size inb_S5x128_S1x128_0_0))
      (View.ld x5 (Rect.unit (s := S5x128x128) ![0, 0, 0] S1x128x128.size inb_S5x128x128_S1x128x128_0_0_0))
      (View.ld (p2 x0 x1 x2 x3 x4) (Rect.unit (s := S5x128) ![1, 0] S1x128.size inb_S5x128_S1x128_1_0))
      (View.ld x5 (Rect.unit (s := S5x128x128) ![1, 0, 0] S1x128x128.size inb_S5x128x128_S1x128x128_1_0_0))
      (View.ld (p2 x0 x1 x2 x3 x4) (Rect.unit (s := S5x128) ![2, 0] S1x128.size inb_S5x128_S1x128_2_0))
      (View.ld x5 (Rect.unit (s := S5x128x128) ![2, 0, 0] S1x128x128.size inb_S5x128x128_S1x128x128_2_0_0))
      (View.ld (p2 x0 x1 x2 x3 x4) (Rect.unit (s := S5x128) ![3, 0] S1x128.size inb_S5x128_S1x128_3_0))
      (View.ld x5 (Rect.unit (s := S5x128x128) ![3, 0, 0] S1x128x128.size inb_S5x128x128_S1x128x128_3_0_0)))
      (View.ld (p2 x0 x1 x2 x3 x4) (Rect.unit (s := S5x128) ![4, 0] S1x128.size inb_S5x128_S1x128_4_0))
      (View.ld x5 (Rect.unit (s := S5x128x128) ![4, 0, 0] S1x128x128.size inb_S5x128x128_S1x128x128_4_0_0))
      (View.ld x6 (Rect.unit (s := S1x128) ![0, 0] S1x128.size inb_S1x128_S1x128_0_0))
      (View.ld x7 (Rect.unit (s := S128x128) ![0, 0] S128x128.size inb_S128x128_S128x128_0_0))
      (View.ld x8 (Rect.unit (s := S1x128) ![0, 0] S1x128.size inb_S1x128_S1x128_0_0))
      (View.ld x9 (Rect.unit (s := S128x128) ![0, 0] S128x128.size inb_S128x128_S128x128_0_0))
      (View.ld x10 (Rect.unit (s := S1x128) ![0, 0] S1x128.size inb_S1x128_S1x128_0_0))

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block is that function of the input blocks: its one covering store's value, each
    load of an input read off its block, each load of a scratch buffer read off the one whole store before it. -/
theorem out_eq (c : Dev nD) (i : grid0.Coords) (arg1 : Memref sig .tc .vmem S1x32x32 .f32) (harg1 : arg1.IsWhole) (arg2 : Memref sig .tc .vmem S5x32x256 .f32) (harg2 : arg2.IsWhole) (arg3 : Memref sig .tc .vmem S1x256 .f32) (harg3 : arg3.IsWhole) (arg4 : Memref sig .tc .vmem S5x128x256 .f32) (harg4 : arg4.IsWhole) (arg5 : Memref sig .tc .vmem S1x256 .f32) (harg5 : arg5.IsWhole) (arg6 : Memref sig .tc .vmem S5x128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x1x128 .f32) (harg12 : arg12.IsWhole) (arg13 : Memref sig .tc .vmem S14x128 .f32) (harg13 : arg13.IsWhole) (arg14 : Memref sig .tc .vmem S5x128 .f32) (harg14 : arg14.IsWhole)
    (x0 : Vec F S1x32x32 .f32) (x1 : Vec F S5x32x256 .f32) (x2 : Vec F S1x256 .f32) (x3 : Vec F S5x128x256 .f32) (x4 : Vec F S1x256 .f32) (x5 : Vec F S5x128x128 .f32) (x6 : Vec F S1x128 .f32) (x7 : Vec F S128x128 .f32) (x8 : Vec F S1x128 .f32) (x9 : Vec F S128x128 .f32) (x10 : Vec F S1x128 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 = refBody x0 x1 x2 x3 x4 x5 x6 x7 x8 x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10)]
  unfold kernelRun0_A
  dsimp only
  sl_unfold_words
  rw [View.canon_unit_zero hz3]
  simp only [View.readAt_eq_ld, harg1.read_unread, harg2.read_unread, harg3.read_unread, harg4.read_unread, harg5.read_unread,
    harg6.read_unread, harg7.read_unread, harg8.read_unread, harg9.read_unread, harg10.read_unread, harg11.read_unread,
    View.readCov_eq_canon', View.canon_unit_zero (S := S14x128) hz2, View.canon_unit_zero (S := S5x128) hz2]
  rfl

end Body

/-! ## Reads at natural coordinates -/

/-- A load through a unit-stride rectangle of a rank-3 array reads the array at the shifted coordinates. -/
theorem rd3_ld {n0 n1 n2 m0 m1 m2 o0 o1 o2 : ℕ} (X : Vec Ideal ⟨3, ![n0, n1, n2]⟩ .f32)
    (inb : ∀ a, (![o0, o1, o2] : Fin 3 → ℕ) a + (![m0, m1, m2] : Fin 3 → ℕ) a ≤ (⟨3, ![n0, n1, n2]⟩ : Shape).size a)
    (i j k : ℕ) (hi : i < m0) (hj : j < m1) (hk : k < m2) :
    rd3 (a := m0) (b := m1) (c := m2) (View.ld (Val := Elt Ideal) (e' := .f32) X (Rect.unit (s := ⟨3, ![n0, n1, n2]⟩) ![o0, o1, o2] ![m0, m1, m2] inb)) i j k
      = rd3 X (i + o0) (j + o1) (k + o2) := by
  have h0 : o0 + m0 ≤ n0 := inb 0
  have h1 : o1 + m1 ≤ n1 := inb 1
  have h2 : o2 + m2 ≤ n2 := inb 2
  rw [rd3_of_lt _ hi hj hk, rd3_of_lt X (show i + o0 < n0 by omega) (show j + o1 < n1 by omega) (show k + o2 < n2 by omega)]
  show X _ = X _
  congr 1
  funext a
  apply Fin.ext
  match a with
  | ⟨0, _⟩ => show o0 + 1 * i = i + o0; omega
  | ⟨1, _⟩ => show o1 + 1 * j = j + o1; omega
  | ⟨2, _⟩ => show o2 + 1 * k = k + o2; omega

/-- The same at rank 2. -/
theorem rd2_ld {n0 n1 m0 m1 o0 o1 : ℕ} (X : Vec Ideal ⟨2, ![n0, n1]⟩ .f32)
    (inb : ∀ a, (![o0, o1] : Fin 2 → ℕ) a + (![m0, m1] : Fin 2 → ℕ) a ≤ (⟨2, ![n0, n1]⟩ : Shape).size a)
    (i j : ℕ) (hi : i < m0) (hj : j < m1) :
    rd2 (a := m0) (b := m1) (View.ld (Val := Elt Ideal) (e' := .f32) X (Rect.unit (s := ⟨2, ![n0, n1]⟩) ![o0, o1] ![m0, m1] inb)) i j
      = rd2 X (i + o0) (j + o1) := by
  have h0 : o0 + m0 ≤ n0 := inb 0
  have h1 : o1 + m1 ≤ n1 := inb 1
  rw [rd2_of_lt _ hi hj, rd2_of_lt X (show i + o0 < n0 by omega) (show j + o1 < n1 by omega)]
  show X _ = X _
  congr 1
  funext a
  apply Fin.ext
  match a with
  | ⟨0, _⟩ => show o0 + 1 * i = i + o0; omega
  | ⟨1, _⟩ => show o1 + 1 * j = j + o1; omega

/-! ## Sums -/

/-- Five terms added left to right. -/
theorem sum_range5 (f : ℕ → EReal) : ∑ d ∈ Finset.range 5, f d = (((f 0 + f 1) + f 2) + f 3) + f 4 := by
  simp only [Finset.sum_range_succ, Finset.sum_range_zero, zero_add]

/-- A sum against a row that is 1 at one place and 0 elsewhere is the term at that place. -/
theorem sum_range_pick {K : ℕ} (m : ℕ) (hm : m < K) (f : ℕ → EReal) :
    ∑ κ ∈ Finset.range K, (if κ = m then (1 : EReal) else 0) * f κ = f m := by
  rw [Finset.sum_eq_single m]
  · rw [if_pos rfl, one_mul]
  · intro b _ hb; rw [if_neg hb, zero_mul]
  · intro h; exact absurd (Finset.mem_range.mpr hm) h

/-! ## The two selection matrices -/

theorem ofBool_setWidth_toInt (p : Prop) [Decidable p] :
    ((((BitVec.ofBool (decide p)).setWidth 32).toInt : ℝ) : EReal) = if p then 1 else 0 := by
  by_cases h : p
  · rw [if_pos h, decide_eq_true h]
    have : ((BitVec.ofBool true).setWidth 32).toInt = 1 := by decide
    rw [this]; simp
  · rw [if_neg h, decide_eq_false h]
    have : ((BitVec.ofBool false).setWidth 32).toInt = 0 := by decide
    rw [this]; simp

theorem beq_ofNat_32 (x y : ℕ) (hx : x < 2 ^ 32) (hy : y < 2 ^ 32) :
    (BitVec.ofNat 32 x == BitVec.ofNat 32 y) = decide (x = y) := by
  apply Bool.eq_iff_iff.mpr
  simp only [beq_iff_eq, decide_eq_true_eq]
  constructor
  · intro h
    have := congrArg BitVec.toNat h
    simp only [BitVec.toNat_ofNat] at this
    rwa [Nat.mod_eq_of_lt hx, Nat.mod_eq_of_lt hy] at this
  · rintro rfl; rfl

/-- Entry (r, κ) of the matrix "column index = 2 · row index", as a float: 1 where κ = 2r, else 0. -/
theorem rd2_selEven {a b : ℕ} (ha : 2 * a < 2 ^ 32) (hb : b < 2 ^ 32)
    (h0 : (⟨2, ![a, b]⟩ : Shape).Iotas .tc 32 [0]) (h1 : (⟨2, ![a, b]⟩ : Shape).Iotas .tc 32 [1]) (hlt : 1 < 32)
    (r κ : ℕ) (hr : r < a) (hκ : κ < b) :
    rd2 (sitofp (F := Ideal) .f32 (extui 32 (cmpi .eq (iota .tc ⟨2, ![a, b]⟩ 32 [1] h1)
      (muli (broadcast ⟨2, ![a, b]⟩ (2#32)) (iota .tc ⟨2, ![a, b]⟩ 32 [0] h0))) hlt)) r κ = if κ = 2 * r then 1 else 0 := by
  rw [rd2_of_lt _ hr hκ]
  show ((((IntOp.cmpi .eq (iota .tc ⟨2, ![a, b]⟩ 32 [1] h1 (ix2 ⟨r, hr⟩ ⟨κ, hκ⟩))
    (IntOp.muli (2#32) (iota .tc ⟨2, ![a, b]⟩ 32 [0] h0 (ix2 ⟨r, hr⟩ ⟨κ, hκ⟩)))).setWidth 32).toInt : ℝ) : EReal) = _
  rw [iota_single_apply, iota_single_apply]
  show ((((BitVec.ofBool (BitVec.ofNat 32 κ == (2#32) * BitVec.ofNat 32 r)).setWidth 32).toInt : ℝ) : EReal) = _
  rw [show (2#32 : BitVec 32) * BitVec.ofNat 32 r = BitVec.ofNat 32 (2 * r) from (BitVec.ofNat_mul _ _).symm,
    beq_ofNat_32 κ (2 * r) (by omega) (by omega)]
  exact ofBool_setWidth_toInt _

/-- Entry (r, κ) of the matrix "column index = 2 · row index + 1". -/
theorem rd2_selOdd {a b : ℕ} (ha : 2 * a + 1 < 2 ^ 32) (hb : b < 2 ^ 32)
    (h0 : (⟨2, ![a, b]⟩ : Shape).Iotas .tc 32 [0]) (h1 : (⟨2, ![a, b]⟩ : Shape).Iotas .tc 32 [1]) (hlt : 1 < 32)
    (r κ : ℕ) (hr : r < a) (hκ : κ < b) :
    rd2 (sitofp (F := Ideal) .f32 (extui 32 (cmpi .eq (iota .tc ⟨2, ![a, b]⟩ 32 [1] h1)
      (addi (muli (broadcast ⟨2, ![a, b]⟩ (2#32)) (iota .tc ⟨2, ![a, b]⟩ 32 [0] h0)) (broadcast ⟨2, ![a, b]⟩ (1#32)))) hlt)) r κ
      = if κ = 2 * r + 1 then 1 else 0 := by
  rw [rd2_of_lt _ hr hκ]
  show ((((IntOp.cmpi .eq (iota .tc ⟨2, ![a, b]⟩ 32 [1] h1 (ix2 ⟨r, hr⟩ ⟨κ, hκ⟩))
    (IntOp.addi (IntOp.muli (2#32) (iota .tc ⟨2, ![a, b]⟩ 32 [0] h0 (ix2 ⟨r, hr⟩ ⟨κ, hκ⟩))) (1#32))).setWidth 32).toInt : ℝ) : EReal) = _
  rw [iota_single_apply, iota_single_apply]
  show ((((BitVec.ofBool (BitVec.ofNat 32 κ == (2#32) * BitVec.ofNat 32 r + 1#32)).setWidth 32).toInt : ℝ) : EReal) = _
  rw [show (2#32 : BitVec 32) * BitVec.ofNat 32 r + 1#32 = BitVec.ofNat 32 (2 * r + 1) from by
      rw [BitVec.ofNat_add, BitVec.ofNat_mul],
    beq_ofNat_32 κ (2 * r + 1) (by omega) (by omega)]
  exact ofBool_setWidth_toInt _

/-- A product of the "column = 2 · row" matrix with V picks V's row 2r. -/
theorem rd2_matmul_selEven {a b N : ℕ} (hab : 2 * a ≤ b) (hb : b < 2 ^ 32)
    (d : DotDims ⟨2, ![a, b]⟩ ⟨2, ![b, N]⟩ ⟨2, ![a, N]⟩) (hd : d = DotDims.plain a b N)
    (h0 : (⟨2, ![a, b]⟩ : Shape).Iotas .tc 32 [0]) (h1 : (⟨2, ![a, b]⟩ : Shape).Iotas .tc 32 [1]) (hlt : 1 < 32)
    (V : FVec Ideal ⟨2, ![b, N]⟩ .f32) (r c : ℕ) (hr : r < a) (hc : c < N) :
    rd2 (matmul d none (sitofp (F := Ideal) .f32 (extui 32 (cmpi .eq (iota .tc ⟨2, ![a, b]⟩ 32 [1] h1)
        (muli (broadcast ⟨2, ![a, b]⟩ (2#32)) (iota .tc ⟨2, ![a, b]⟩ 32 [0] h0))) hlt)) V
        (constant ⟨2, ![a, N]⟩ .f32 0x00000000#32)) r c = rd2 V (2 * r) c := by
  rw [rd2_matmul d hd _ _ r c hr hc]
  refine (Finset.sum_congr rfl fun κ hκ => ?_).trans (sum_range_pick (2 * r) (by omega) fun κ => rd2 V κ c)
  rw [rd2_selEven (by omega) hb h0 h1 hlt r κ hr (Finset.mem_range.mp hκ)]

/-- A product of the "column = 2 · row + 1" matrix with V picks V's row 2r + 1. -/
theorem rd2_matmul_selOdd {a b N : ℕ} (hab : 2 * a ≤ b) (hb : b < 2 ^ 32)
    (d : DotDims ⟨2, ![a, b]⟩ ⟨2, ![b, N]⟩ ⟨2, ![a, N]⟩) (hd : d = DotDims.plain a b N)
    (h0 : (⟨2, ![a, b]⟩ : Shape).Iotas .tc 32 [0]) (h1 : (⟨2, ![a, b]⟩ : Shape).Iotas .tc 32 [1]) (hlt : 1 < 32)
    (V : FVec Ideal ⟨2, ![b, N]⟩ .f32) (r c : ℕ) (hr : r < a) (hc : c < N) :
    rd2 (matmul d none (sitofp (F := Ideal) .f32 (extui 32 (cmpi .eq (iota .tc ⟨2, ![a, b]⟩ 32 [1] h1)
        (addi (muli (broadcast ⟨2, ![a, b]⟩ (2#32)) (iota .tc ⟨2, ![a, b]⟩ 32 [0] h0)) (broadcast ⟨2, ![a, b]⟩ (1#32)))) hlt)) V
        (constant ⟨2, ![a, N]⟩ .f32 0x00000000#32)) r c = rd2 V (2 * r + 1) c := by
  rw [rd2_matmul d hd _ _ r c hr hc]
  refine (Finset.sum_congr rfl fun κ hκ => ?_).trans (sum_range_pick (2 * r + 1) (by omega) fun κ => rd2 V κ c)
  rw [rd2_selOdd (by omega) hb h0 h1 hlt r κ hr (Finset.mem_range.mp hκ)]

/-- Bias row added and maximum with zero. -/
theorem relu_rd {G N : ℕ} (Z : FVec Ideal ⟨2, ![G, N]⟩ .f32) (b : Vec Ideal ⟨2, ![1, N]⟩ .f32)
    (hb : (⟨2, ![1, N]⟩ : Shape).Broadcasts ⟨2, ![G, N]⟩) (g c : ℕ) (hg : g < G) (hc : c < N) :
    rd2 (maximumf (addf Z (broadcastTo ⟨2, ![G, N]⟩ b hb))
      (broadcast (⟨2, ![G, N]⟩ : Shape) (Scalar.ofBits (F := Ideal) .f32 0x00000000#32))) g c = max (rd2 Z g c + rd2 b 0 c) 0 := by
  rw [rd2_maximumf, rd2_addf, rd2_zero_f32, rd2_bcastRow _ hb g c hg hc]

/-- The maximum of the two column halves. -/
theorem halves_rd {G : ℕ} (Y : FVec Ideal ⟨2, ![G, 256]⟩ .f32)
    (h0 : (⟨2, ![G, 256]⟩ : Shape).Slices ![0, 0] ⟨2, ![G, 128]⟩) (h1 : (⟨2, ![G, 256]⟩ : Shape).Slices ![0, 128] ⟨2, ![G, 128]⟩)
    (g c : ℕ) (hg : g < G) (hc : c < 128) :
    rd2 (maximumf (extractStridedSlice ⟨2, ![G, 128]⟩ ![0, 0] Y h0) (extractStridedSlice ⟨2, ![G, 128]⟩ ![0, 128] Y h1)) g c
      = max (rd2 Y g (0 + c)) (rd2 Y g (128 + c)) := by
  rw [rd2_maximumf, rd2_cols 0 Y h0 g c hg hc (by omega), rd2_cols 128 Y h1 g c hg hc (by omega)]

/-- The maximum of the rows 2r and 2r + 1, through the two selection products. -/
theorem poolRows_rd {a b N : ℕ} (hab : 2 * a ≤ b) (hb : b < 2 ^ 32)
    (d : DotDims ⟨2, ![a, b]⟩ ⟨2, ![b, N]⟩ ⟨2, ![a, N]⟩) (hd : d = DotDims.plain a b N)
    (h0 : (⟨2, ![a, b]⟩ : Shape).Iotas .tc 32 [0]) (h1 : (⟨2, ![a, b]⟩ : Shape).Iotas .tc 32 [1]) (hlt : 1 < 32)
    (V : FVec Ideal ⟨2, ![b, N]⟩ .f32) (r c : ℕ) (hr : r < a) (hc : c < N) :
    rd2 (maximumf
      (matmul d none (sitofp (F := Ideal) .f32 (extui 32 (cmpi .eq (iota .tc ⟨2, ![a, b]⟩ 32 [1] h1)
        (muli (broadcast ⟨2, ![a, b]⟩ (2#32)) (iota .tc ⟨2, ![a, b]⟩ 32 [0] h0))) hlt)) V (constant ⟨2, ![a, N]⟩ .f32 0x00000000#32))
      (matmul d none (sitofp (F := Ideal) .f32 (extui 32 (cmpi .eq (iota .tc ⟨2, ![a, b]⟩ 32 [1] h1)
        (addi (muli (broadcast ⟨2, ![a, b]⟩ (2#32)) (iota .tc ⟨2, ![a, b]⟩ 32 [0] h0)) (broadcast ⟨2, ![a, b]⟩ (1#32)))) hlt)) V
        (constant ⟨2, ![a, N]⟩ .f32 0x00000000#32))) r c = max (rd2 V (2 * r) c) (rd2 V (2 * r + 1) c) := by
  rw [rd2_maximumf, rd2_matmul_selEven hab hb d hd h0 h1 hlt V r c hr hc, rd2_matmul_selOdd hab hb d hd h0 h1 hlt V r c hr hc]

/-- A product with a matrix stored as a one-block rank-3 array, added to Z. -/
theorem addmm_rd {G K N : ℕ} (Z : FVec Ideal ⟨2, ![G, N]⟩ .f32) (L : FVec Ideal ⟨2, ![G, K]⟩ .f32) (R3 : FVec Ideal ⟨3, ![1, K, N]⟩ .f32)
    (d : DotDims ⟨2, ![G, K]⟩ ⟨2, ![K, N]⟩ ⟨2, ![G, N]⟩) (hd : d = DotDims.plain G K N)
    (hcast : (⟨3, ![1, K, N]⟩ : Shape).ShapeCasts ⟨2, ![K, N]⟩) (h c : ℕ) (hh : h < G) (hc : c < N) :
    rd2 (addf Z (matmul d none L (shapeCast ⟨2, ![K, N]⟩ R3 hcast) (constant ⟨2, ![G, N]⟩ .f32 0x00000000#32))) h c
      = rd2 Z h c + ∑ κ ∈ Finset.range K, rd2 L h κ * rd3 R3 0 κ c := by
  rw [rd2_addf, rd2_matmul d hd _ _ h c hh hc]
  simp only [rd2_dropUnit]

/-- The same without Z. -/
theorem mm_rd {G K N : ℕ} (L : FVec Ideal ⟨2, ![G, K]⟩ .f32) (R3 : FVec Ideal ⟨3, ![1, K, N]⟩ .f32)
    (d : DotDims ⟨2, ![G, K]⟩ ⟨2, ![K, N]⟩ ⟨2, ![G, N]⟩) (hd : d = DotDims.plain G K N)
    (hcast : (⟨3, ![1, K, N]⟩ : Shape).ShapeCasts ⟨2, ![K, N]⟩) (h c : ℕ) (hh : h < G) (hc : c < N) :
    rd2 (matmul d none L (shapeCast ⟨2, ![K, N]⟩ R3 hcast) (constant ⟨2, ![G, N]⟩ .f32 0x00000000#32)) h c
      = ∑ κ ∈ Finset.range K, rd2 L h κ * rd3 R3 0 κ c := by
  rw [rd2_matmul d hd _ _ h c hh hc]
  simp only [rd2_dropUnit]

theorem rd2_oob {a b : ℕ} (A : (⟨2, ![a, b]⟩ : Shape).Idx → EReal) (i j : ℕ) (h : ¬(i < a ∧ j < b)) : rd2 A i j = 0 := dif_neg h

/-- A product into the zero accumulator at any natural coordinates (outside the extents both sides are zero). -/
theorem rd2_matmul_tot {M K N : ℕ} {φ₁ φ₂ : FTy} (d : DotDims ⟨2, ![M, K]⟩ ⟨2, ![K, N]⟩ ⟨2, ![M, N]⟩)
    (hd : d = DotDims.plain M K N) (L : FVec Ideal ⟨2, ![M, K]⟩ φ₁) (R : FVec Ideal ⟨2, ![K, N]⟩ φ₂) (p q : ℕ) :
    rd2 (matmul d none L R (constant ⟨2, ![M, N]⟩ .f32 0x00000000#32)) p q = ∑ κ ∈ Finset.range K, rd2 L p κ * rd2 R κ q := by
  by_cases hp : p < M
  · by_cases hq : q < N
    · exact rd2_matmul d hd L R p q hp hq
    · rw [rd2_oob _ p q (fun h => hq h.2)]
      exact (Finset.sum_eq_zero fun κ _ => by rw [rd2_oob R κ q (fun h => hq h.2), mul_zero]).symm
  · rw [rd2_oob _ p q (fun h => hp h.1)]
    exact (Finset.sum_eq_zero fun κ _ => by rw [rd2_oob L p κ (fun h => hp h.1), zero_mul]).symm

/-- Adding a leading unit axis. -/
theorem rd3_addUnit {a b : ℕ} (x : (⟨2, ![a, b]⟩ : Shape).Idx → EReal) (h : (⟨2, ![a, b]⟩ : Shape).ShapeCasts ⟨3, ![1, a, b]⟩) (p q : ℕ) :
    rd3 (shapeCast (⟨3, ![1, a, b]⟩ : Shape) x h) 0 p q = rd2 x p q := by
  unfold rd2 rd3
  by_cases hpq : p < a ∧ q < b
  · rw [dif_pos hpq, dif_pos ⟨Nat.one_pos, hpq.1, hpq.2⟩]
    exact shapeCast_ab_1ab_apply x h _ ⟨p, hpq.1⟩ ⟨q, hpq.2⟩
  · rw [dif_neg hpq, dif_neg (fun hh => hpq ⟨hh.2.1, hh.2.2⟩)]

/-! ## The body's payloads at natural coordinates (at the ideal values) -/

theorem pay3_rd (v23 : Vec Ideal S1x28x32 .f32) (h j : ℕ) : rd2 (k0_pay3 v23) h j = rd3 v23 0 h j := by
  unfold k0_pay3
  exact rd2_dropUnit v23 _ h j

/-- Four of the five banded products of the first convolution, added left to right. -/
theorem pay2_rd (v0 : Vec Ideal S1x28x32 .f32) (v2 : Vec Ideal S1x32x256 .f32) (v5 : Vec Ideal S1x28x32 .f32)
    (v7 : Vec Ideal S1x32x256 .f32) (v11 : Vec Ideal S1x28x32 .f32) (v13 : Vec Ideal S1x32x256 .f32)
    (v17 : Vec Ideal S1x28x32 .f32) (v19 : Vec Ideal S1x32x256 .f32) (h c : ℕ) (hh : h < 28) (hc : c < 256) :
    rd2 (k0_pay2 v0 v2 v5 v7 v11 v13 v17 v19) h c
      = (((∑ κ ∈ Finset.range 32, rd3 v0 0 h κ * rd3 v2 0 κ c) + (∑ κ ∈ Finset.range 32, rd3 v5 0 h κ * rd3 v7 0 κ c))
          + (∑ κ ∈ Finset.range 32, rd3 v11 0 h κ * rd3 v13 0 κ c)) + (∑ κ ∈ Finset.range 32, rd3 v17 0 h κ * rd3 v19 0 κ c) := by
  unfold k0_pay2
  simp only [rd2_addf, rd2_matmul dot_S28x32_S32x256_S28x256_1_0_0_1_n_n rfl _ _ h c hh hc, rd2_dropUnit]

/-- The first pooled activation from the four-product partial sum v22, the fifth product's operands and the bias row:
    with A the full convolution and B the bias, entry (r, c) is the 2×2 maximum of max (A + B, 0). -/
theorem pay4_rd (v22 : FVec Ideal S28x256 .f32) (v24 : FVec Ideal S28x32 .f32) (v25 : Vec Ideal S1x32x256 .f32)
    (v29 : Vec Ideal S1x256 .f32) (A : ℕ → ℕ → EReal) (B : ℕ → EReal)
    (hA : ∀ h c, h < 28 → c < 256 → rd2 v22 h c + ∑ κ ∈ Finset.range 32, rd2 v24 h κ * rd3 v25 0 κ c = A h c)
    (hB : ∀ c, c < 256 → rd2 v29 0 c = B c) (r c : ℕ) (hr : r < 14) (hc : c < 128) :
    rd2 (k0_pay4 v22 v24 v25 v29) r c
      = max (max (max (A (2 * r) (0 + c) + B (0 + c)) 0) (max (A (2 * r) (128 + c) + B (128 + c)) 0))
            (max (max (A (2 * r + 1) (0 + c) + B (0 + c)) 0) (max (A (2 * r + 1) (128 + c) + B (128 + c)) 0)) := by
  unfold k0_pay4
  simp only [shapeCast_self]
  rw [poolRows_rd (a := 14) (b := 28) (N := 128) (by omega) (by norm_num) dot_S14x28_S28x128_S14x128_1_0_0_1_n_n rfl
      iota_S14x28_d0_w32 iota_S14x28_d1_w32 natLt_1_32 _ r c hr hc,
    halves_rd _ slices_S28x256_o0_0_S28x128 slices_S28x256_o0_128_S28x128 (2 * r) c (by omega) hc,
    halves_rd _ slices_S28x256_o0_0_S28x128 slices_S28x256_o0_128_S28x128 (2 * r + 1) c (by omega) hc,
    relu_rd _ v29 broadcasts_S1x256_S28x256 (2 * r) (0 + c) (by omega) (by omega),
    relu_rd _ v29 broadcasts_S1x256_S28x256 (2 * r) (128 + c) (by omega) (by omega),
    relu_rd _ v29 broadcasts_S1x256_S28x256 (2 * r + 1) (0 + c) (by omega) (by omega),
    relu_rd _ v29 broadcasts_S1x256_S28x256 (2 * r + 1) (128 + c) (by omega) (by omega),
    addmm_rd v22 v24 v25 dot_S28x32_S32x256_S28x256_1_0_0_1_n_n rfl shapeCasts_S1x32x256_S32x256 (2 * r) (0 + c) (by omega) (by omega),
    addmm_rd v22 v24 v25 dot_S28x32_S32x256_S28x256_1_0_0_1_n_n rfl shapeCasts_S1x32x256_S32x256 (2 * r) (128 + c) (by omega) (by omega),
    addmm_rd v22 v24 v25 dot_S28x32_S32x256_S28x256_1_0_0_1_n_n rfl shapeCasts_S1x32x256_S32x256 (2 * r + 1) (0 + c) (by omega) (by omega),
    addmm_rd v22 v24 v25 dot_S28x32_S32x256_S28x256_1_0_0_1_n_n rfl shapeCasts_S1x32x256_S32x256 (2 * r + 1) (128 + c) (by omega) (by omega),
    hA _ _ (by omega) (by omega), hA _ _ (by omega) (by omega), hA _ _ (by omega) (by omega), hA _ _ (by omega) (by omega),
    hB _ (by omega), hB _ (by omega)]

theorem pay5_rd (v57 : Vec Ideal S10x128 .f32) (v58 : Vec Ideal S1x128x256 .f32) (h c : ℕ) :
    rd2 (k0_pay5 v57 v58) h c = ∑ κ ∈ Finset.range 128, rd2 v57 h κ * rd3 v58 0 κ c := by
  unfold k0_pay5
  simp only [rd2_matmul_tot dot_S10x128_S128x256_S10x256_1_0_0_1_n_n rfl, rd2_dropUnit]

/-- The second convolution with its bias, maximum with zero, and the maximum of the column halves. -/
theorem pay6_rd (v60 : FVec Ideal S10x256 .f32) (v61 : Vec Ideal S10x128 .f32) (v62 : Vec Ideal S1x128x256 .f32)
    (v66 : Vec Ideal S10x128 .f32) (v67 : Vec Ideal S1x128x256 .f32) (v71 : Vec Ideal S10x128 .f32) (v72 : Vec Ideal S1x128x256 .f32)
    (v76 : Vec Ideal S10x128 .f32) (v77 : Vec Ideal S1x128x256 .f32) (v81 : Vec Ideal S1x256 .f32) (h c : ℕ) (hh : h < 10) (hc : c < 128) :
    rd2 (k0_pay6 v60 v61 v62 v66 v67 v71 v72 v76 v77 v81) h c
      = max
        (max (((((rd2 v60 h (0 + c) + ∑ κ ∈ Finset.range 128, rd2 v61 h κ * rd3 v62 0 κ (0 + c))
            + ∑ κ ∈ Finset.range 128, rd2 v66 h κ * rd3 v67 0 κ (0 + c)) + ∑ κ ∈ Finset.range 128, rd2 v71 h κ * rd3 v72 0 κ (0 + c))
            + ∑ κ ∈ Finset.range 128, rd2 v76 h κ * rd3 v77 0 κ (0 + c)) + rd2 v81 0 (0 + c)) 0)
        (max (((((rd2 v60 h (128 + c) + ∑ κ ∈ Finset.range 128, rd2 v61 h κ * rd3 v62 0 κ (128 + c))
            + ∑ κ ∈ Finset.range 128, rd2 v66 h κ * rd3 v67 0 κ (128 + c)) + ∑ κ ∈ Finset.range 128, rd2 v71 h κ * rd3 v72 0 κ (128 + c))
            + ∑ κ ∈ Finset.range 128, rd2 v76 h κ * rd3 v77 0 κ (128 + c)) + rd2 v81 0 (128 + c)) 0) := by
  unfold k0_pay6
  simp only [shapeCast_self]
  rw [halves_rd _ slices_S10x256_o0_0_S10x128 slices_S10x256_o0_128_S10x128 h c hh hc,
    relu_rd _ v81 broadcasts_S1x256_S10x256 h (0 + c) hh (by omega),
    relu_rd _ v81 broadcasts_S1x256_S10x256 h (128 + c) hh (by omega)]
  simp only [rd2_addf, rd2_matmul_tot dot_S10x128_S128x256_S10x256_1_0_0_1_n_n rfl, rd2_dropUnit]

/-- The second pooled activation: the maximum of rows 2r and 2r + 1 of the column-half maximum. -/
theorem pay9_rd (v88 : FVec Ideal S10x128 .f32) (r c : ℕ) (hr : r < 5) (hc : c < 128) :
    rd2 (k0_pay9 v88 (iota .tc S5x10 32 [1] iota_S5x10_d1_w32) (k0_pay7 (F := Ideal)) k0_pay8) r c
      = max (rd2 v88 (2 * r) c) (rd2 v88 (2 * r + 1) c) := by
  unfold k0_pay9 k0_pay7 k0_pay8
  simp only [shapeCast_self]
  exact poolRows_rd (a := 5) (b := 10) (N := 128) (by omega) (by norm_num) dot_S5x10_S10x128_S5x128_1_0_0_1_n_n rfl
    iota_S5x10_d0_w32 iota_S5x10_d1_w32 natLt_1_32 v88 r c hr hc

/-- Four of the five row-by-matrix products of the first dense layer, added left to right. -/
theorem pay10_rd (v109 : Vec Ideal S1x128 .f32) (v110 : Vec Ideal S1x128x128 .f32) (v113 : Vec Ideal S1x128 .f32)
    (v114 : Vec Ideal S1x128x128 .f32) (v118 : Vec Ideal S1x128 .f32) (v119 : Vec Ideal S1x128x128 .f32)
    (v123 : Vec Ideal S1x128 .f32) (v124 : Vec Ideal S1x128x128 .f32) (p c : ℕ) :
    rd2 (k0_pay10 v109 v110 v113 v114 v118 v119 v123 v124) p c
      = (((∑ κ ∈ Finset.range 128, rd2 v109 p κ * rd3 v110 0 κ c) + ∑ κ ∈ Finset.range 128, rd2 v113 p κ * rd3 v114 0 κ c)
          + ∑ κ ∈ Finset.range 128, rd2 v118 p κ * rd3 v119 0 κ c) + ∑ κ ∈ Finset.range 128, rd2 v123 p κ * rd3 v124 0 κ c := by
  unfold k0_pay10
  simp only [rd2_addf, rd2_matmul_tot dot_S1x128_S128x128_S1x128_1_0_0_1_n_n rfl, rd2_dropUnit]

/-- The three dense layers from the four-product partial sum v127. -/
theorem pay1_rd (v127 : FVec Ideal S1x128 .f32) (v128 : Vec Ideal S1x128 .f32) (v129 : Vec Ideal S1x128x128 .f32)
    (v133 : Vec Ideal S1x128 .f32) (v137 : Vec Ideal S128x128 .f32) (v139 : Vec Ideal S1x128 .f32)
    (v143 : Vec Ideal S128x128 .f32) (v145 : Vec Ideal S1x128 .f32) (c : ℕ) :
    rd3 (k0_pay1 v127 v128 v129 v133 v137 v139 v143 v145) 0 0 c
      = (∑ j ∈ Finset.range 128,
          max ((∑ i ∈ Finset.range 128,
              max ((rd2 v127 0 i + ∑ κ ∈ Finset.range 128, rd2 v128 0 κ * rd3 v129 0 κ i) + rd2 v133 0 i) 0 * rd2 v137 i j)
            + rd2 v139 0 j) 0 * rd2 v143 j c) + rd2 v145 0 c := by
  unfold k0_pay1
  simp only [rd3_addUnit, rd2_addf, rd2_maximumf, rd2_zero_f32, rd2_matmul_tot dot_S1x128_S128x128_S1x128_1_0_0_1_n_n rfl,
    rd2_dropUnit]

/-! ## The body's function is the network -/

section Assembly

variable (P : Cert.Net.Params) (n : ℕ)
variable (x0 : Vec Ideal S1x32x32 .f32) (x1 : Vec Ideal S5x32x256 .f32) (x2 : Vec Ideal S1x256 .f32)

/-- The first pooled activation is the network's, when the image block and the first convolution's arrays read as the
    network's parameters. -/
theorem p1_rd (hX : ∀ h j, h < 32 → j < 32 → rd3 x0 0 h j = P.X n h j)
    (hM1 : ∀ d j c, d < 5 → j < 32 → c < 256 → rd3 x1 d j c = P.M1 d j c)
    (hB1 : ∀ c, c < 256 → rd2 x2 0 c = P.B1 c) (r c : ℕ) (hr : r < 14) (hc : c < 128) :
    rd2 (p1 x0 x1 x2) r c = Cert.Net.pool1 P n r c := by
  unfold p1
  rw [pay4_rd _ _ _ _ (Cert.Net.conv1 P n) P.B1 ?_ ?_ r c hr hc]
  · simp only [Cert.Net.pool1, Cert.Net.act1, Nat.zero_add]
  · intro h c' hh hc'
    have e : ∀ (d : ℕ) (hd : d < 5) (inb0) (inb1),
        ∑ κ ∈ Finset.range 32,
            rd3 (a := 1) (b := 28) (c := 32) (View.ld (Val := Elt Ideal) (e' := .f32) x0 (Rect.unit (s := S1x32x32) ![0, d, 0] S1x28x32.size inb0)) 0 h κ
            * rd3 (a := 1) (b := 32) (c := 256) (View.ld (Val := Elt Ideal) (e' := .f32) x1 (Rect.unit (s := S5x32x256) ![d, 0, 0] S1x32x256.size inb1)) 0 κ c'
          = ∑ j ∈ Finset.range 32, P.X n (h + d) j * P.M1 d j c' := by
      intro d hd inb0 inb1
      refine Finset.sum_congr rfl fun κ hκ => ?_
      have hκ' := Finset.mem_range.mp hκ
      rw [rd3_ld x0 inb0 0 h κ Nat.one_pos hh hκ', rd3_ld x1 inb1 0 κ c' Nat.one_pos hκ' hc']
      simp only [Nat.add_zero, Nat.zero_add]
      rw [hX _ _ (by omega) hκ', hM1 _ _ _ hd hκ' hc']
    rw [pay2_rd _ _ _ _ _ _ _ _ h c' hh hc']
    simp only [pay3_rd]
    rw [Cert.Net.conv1, sum_range5]
    exact congrArg₂ (· + ·) (congrArg₂ (· + ·) (congrArg₂ (· + ·) (congrArg₂ (· + ·) (e 0 (by omega) _ _) (e 1 (by omega) _ _))
      (e 2 (by omega) _ _)) (e 3 (by omega) _ _)) (e 4 (by omega) _ _)
  · intro c' hc'
    rw [rd2_ld x2 _ 0 c' Nat.one_pos hc']
    simp only [Nat.add_zero, Nat.zero_add]
    exact hB1 c' hc'

variable (x3 : Vec Ideal S5x128x256 .f32) (x4 : Vec Ideal S1x256 .f32)

/-- The second pooled activation is the network's. -/
theorem p2_rd (hp1 : ∀ r c, r < 14 → c < 128 → rd2 (p1 x0 x1 x2) r c = Cert.Net.pool1 P n r c)
    (hM2 : ∀ d j c, d < 5 → j < 128 → c < 256 → rd3 x3 d j c = P.M2 d j c)
    (hB2 : ∀ c, c < 256 → rd2 x4 0 c = P.B2 c) (r c : ℕ) (hr : r < 5) (hc : c < 128) :
    rd2 (p2 x0 x1 x2 x3 x4) r c = Cert.Net.pool2 P n r c := by
  have e : ∀ (d : ℕ) (hd : d < 5) (h : ℕ) (hh : h < 10) (c' : ℕ) (hc' : c' < 256) (inb0) (inb1),
      ∑ κ ∈ Finset.range 128,
          rd2 (a := 10) (b := 128) (View.ld (Val := Elt Ideal) (e' := .f32) (p1 x0 x1 x2) (Rect.unit (s := S14x128) ![d, 0] S10x128.size inb0)) h κ
          * rd3 (a := 1) (b := 128) (c := 256) (View.ld (Val := Elt Ideal) (e' := .f32) x3 (Rect.unit (s := S5x128x256) ![d, 0, 0] S1x128x256.size inb1)) 0 κ c'
        = ∑ j ∈ Finset.range 128, Cert.Net.pool1 P n (h + d) j * P.M2 d j c' := by
    intro d hd h hh c' hc' inb0 inb1
    refine Finset.sum_congr rfl fun κ hκ => ?_
    have hκ' := Finset.mem_range.mp hκ
    rw [rd2_ld (p1 x0 x1 x2) inb0 h κ hh hκ', rd3_ld x3 inb1 0 κ c' Nat.one_pos hκ' hc']
    simp only [Nat.add_zero, Nat.zero_add]
    rw [hp1 _ _ (by omega) hκ', hM2 _ _ _ hd hκ' hc']
  have eb : ∀ (c' : ℕ) (hc' : c' < 256) (inb),
      rd2 (a := 1) (b := 256) (View.ld (Val := Elt Ideal) (e' := .f32) x4 (Rect.unit (s := S1x256) ![0, 0] S1x256.size inb)) 0 c' = P.B2 c' := by
    intro c' hc' inb
    rw [rd2_ld x4 inb 0 c' Nat.one_pos hc']
    simp only [Nat.add_zero, Nat.zero_add]
    exact hB2 c' hc'
  have act : ∀ (h : ℕ) (hh : h < 10) (c' : ℕ) (hc' : c' < 128),
      rd2 (k0_pay6 (k0_pay5 (View.ld (p1 x0 x1 x2) (Rect.unit (s := S14x128) ![0, 0] S10x128.size inb_S14x128_S10x128_0_0))
          (View.ld x3 (Rect.unit (s := S5x128x256) ![0, 0, 0] S1x128x256.size inb_S5x128x256_S1x128x256_0_0_0)))
        (View.ld (p1 x0 x1 x2) (Rect.unit (s := S14x128) ![1, 0] S10x128.size inb_S14x128_S10x128_1_0))
        (View.ld x3 (Rect.unit (s := S5x128x256) ![1, 0, 0] S1x128x256.size inb_S5x128x256_S1x128x256_1_0_0))
        (View.ld (p1 x0 x1 x2) (Rect.unit (s := S14x128) ![2, 0] S10x128.size inb_S14x128_S10x128_2_0))
        (View.ld x3 (Rect.unit (s := S5x128x256) ![2, 0, 0] S1x128x256.size inb_S5x128x256_S1x128x256_2_0_0))
        (View.ld (p1 x0 x1 x2) (Rect.unit (s := S14x128) ![3, 0] S10x128.size inb_S14x128_S10x128_3_0))
        (View.ld x3 (Rect.unit (s := S5x128x256) ![3, 0, 0] S1x128x256.size inb_S5x128x256_S1x128x256_3_0_0))
        (View.ld (p1 x0 x1 x2) (Rect.unit (s := S14x128) ![4, 0] S10x128.size inb_S14x128_S10x128_4_0))
        (View.ld x3 (Rect.unit (s := S5x128x256) ![4, 0, 0] S1x128x256.size inb_S5x128x256_S1x128x256_4_0_0))
        (View.ld x4 (Rect.unit (s := S1x256) ![0, 0] S1x256.size inb_S1x256_S1x256_0_0))) h c'
        = max (Cert.Net.act2 P n h c') (Cert.Net.act2 P n h (128 + c')) := by
    intro h hh c' hc'
    rw [pay6_rd _ _ _ _ _ _ _ _ _ _ h c' hh hc', pay5_rd, pay5_rd]
    simp only [Cert.Net.act2, Cert.Net.conv2, sum_range5, Nat.zero_add]
    rw [e 0 (by omega) h hh c' (by omega), e 1 (by omega) h hh c' (by omega), e 2 (by omega) h hh c' (by omega),
      e 3 (by omega) h hh c' (by omega), e 4 (by omega) h hh c' (by omega),
      e 0 (by omega) h hh (128 + c') (by omega), e 1 (by omega) h hh (128 + c') (by omega), e 2 (by omega) h hh (128 + c') (by omega),
      e 3 (by omega) h hh (128 + c') (by omega), e 4 (by omega) h hh (128 + c') (by omega),
      eb c' (by omega), eb (128 + c') (by omega)]
  unfold p2
  rw [pay9_rd _ r c hr hc, act (2 * r) (by omega) c hc, act (2 * r + 1) (by omega) c hc]
  rfl

variable (x5 : Vec Ideal S5x128x128 .f32) (x6 : Vec Ideal S1x128 .f32) (x7 : Vec Ideal S128x128 .f32)
  (x8 : Vec Ideal S1x128 .f32) (x9 : Vec Ideal S128x128 .f32) (x10 : Vec Ideal S1x128 .f32)

/-- The body's function at column c of its one row is the network's output for the image, when the eleven blocks read
    as the network's parameters. -/
theorem refBody_rd (hp2 : ∀ r c, r < 5 → c < 128 → rd2 (p2 x0 x1 x2 x3 x4) r c = Cert.Net.pool2 P n r c)
    (hW1 : ∀ h j c, h < 5 → j < 128 → c < 128 → rd3 x5 h j c = P.W1 h j c)
    (hB1f : ∀ c, c < 128 → rd2 x6 0 c = P.B1f c)
    (hW2 : ∀ j c, j < 128 → c < 128 → rd2 x7 j c = P.W2 j c)
    (hB2f : ∀ c, c < 128 → rd2 x8 0 c = P.B2f c)
    (hW3 : ∀ j c, j < 128 → c < 128 → rd2 x9 j c = P.W3 j c)
    (hB3f : ∀ c, c < 128 → rd2 x10 0 c = P.B3f c) (c : ℕ) (hc : c < 128) :
    rd3 (refBody x0 x1 x2 x3 x4 x5 x6 x7 x8 x9 x10) 0 0 c = Cert.Net.out P n c := by
  have e : ∀ (d : ℕ) (hd : d < 5) (i : ℕ) (hi : i < 128) (inb0) (inb1),
      ∑ κ ∈ Finset.range 128,
          rd2 (a := 1) (b := 128) (View.ld (Val := Elt Ideal) (e' := .f32) (p2 x0 x1 x2 x3 x4) (Rect.unit (s := S5x128) ![d, 0] S1x128.size inb0)) 0 κ
          * rd3 (a := 1) (b := 128) (c := 128) (View.ld (Val := Elt Ideal) (e' := .f32) x5 (Rect.unit (s := S5x128x128) ![d, 0, 0] S1x128x128.size inb1)) 0 κ i
        = ∑ j ∈ Finset.range 128, Cert.Net.pool2 P n d j * P.W1 d j i := by
    intro d hd i hi inb0 inb1
    refine Finset.sum_congr rfl fun κ hκ => ?_
    have hκ' := Finset.mem_range.mp hκ
    rw [rd2_ld (p2 x0 x1 x2 x3 x4) inb0 0 κ Nat.one_pos hκ', rd3_ld x5 inb1 0 κ i Nat.one_pos hκ' hi]
    simp only [Nat.add_zero, Nat.zero_add]
    rw [hp2 _ _ hd hκ', hW1 _ _ _ hd hκ' hi]
  have eW : ∀ (X : Vec Ideal S128x128 .f32) (i j : ℕ) (hi : i < 128) (hj : j < 128) (inb),
      rd2 (a := 128) (b := 128) (View.ld (Val := Elt Ideal) (e' := .f32) X (Rect.unit (s := S128x128) ![0, 0] S128x128.size inb)) i j = rd2 X i j := by
    intro X i j hi hj inb
    rw [rd2_ld X inb i j hi hj]
    rfl
  have eB : ∀ (X : Vec Ideal S1x128 .f32) (i : ℕ) (hi : i < 128) (inb),
      rd2 (a := 1) (b := 128) (View.ld (Val := Elt Ideal) (e' := .f32) X (Rect.unit (s := S1x128) ![0, 0] S1x128.size inb)) 0 i = rd2 X 0 i := by
    intro X i hi inb
    rw [rd2_ld X inb 0 i Nat.one_pos hi]
    rfl
  unfold refBody
  rw [pay1_rd]
  simp only [pay10_rd]
  rw [Cert.Net.out]
  refine congrArg₂ (· + ·) (Finset.sum_congr rfl fun j hj => ?_) ((eB x10 c hc _).trans (hB3f c hc))
  have hj' := Finset.mem_range.mp hj
  rw [eW x9 j c hj' hc, hW3 j c hj' hc, Cert.Net.dense2]
  refine congrArg₂ (· * ·) (congrArg (max · 0) (congrArg₂ (· + ·) (Finset.sum_congr rfl fun i hi => ?_) ((eB x8 j hj' _).trans (hB2f j hj')))) rfl
  have hi' := Finset.mem_range.mp hi
  rw [eW x7 i j hi' hj', hW2 i j hi' hj', Cert.Net.dense1, sum_range5]
  refine congrArg₂ (· * ·) (congrArg (max · 0) (congrArg₂ (· + ·) ?_ ((eB x6 i hi' _).trans (hB1f i hi')))) rfl
  exact congrArg₂ (· + ·) (congrArg₂ (· + ·) (congrArg₂ (· + ·) (congrArg₂ (· + ·) (e 0 (by omega) i hi' _ _) (e 1 (by omega) i hi' _ _))
    (e 2 (by omega) i hi' _ _)) (e 3 (by omega) i hi' _ _)) (e 4 (by omega) i hi' _ _)

end Assembly

/-! ## The run -/

section Run

variable (m : (ℓ : Loc nD τ sig) → Buf (Elt Ideal) ℓ) (ρ : Dev nD → PrngReg)

theorem lt_N (t : Fin cfg0.N) : t.val < 8192 := by
  have h := t.isLt
  have e : cfg0.N = 8192 := N_0
  omega

/-- The grid has one axis: point t has coordinate t. -/
theorem coords0 (t : Fin cfg0.N) : ((grid0.coords t) 0).val = t.val := by
  show t.val / grid0.stride 0 % 8192 = t.val
  rw [show grid0.stride 0 = 1 from by decide, Nat.div_one, Nat.mod_eq_of_lt (lt_N t)]

/-- The region finds the images reshaped to [8192, 32, 32]. -/
theorem V_main_v0 (c : Dev nD) :
    (V m c main_v0 : S8192x32x32.Idx → EReal)
      = shapeCast S8192x32x32 (m ((c : Thread nD τ).loc main_arg10)) shapeCasts_S8192x1x32x32_S8192x32x32 := by
  show StableHlo.after hostOps0 (fun b => m (c, b)) (Proc.devRef .tc main_v0) = _
  after_results
  rfl

/-- The image window's block at point t is image t of the argument: entry (0, h, j) is entry (t, 0, h, j). -/
theorem iblk0_apply (c : Dev nD) (t : Fin cfg0.N) (h j : ℕ) (hh : h < 32) (hj : j < 32) :
    rd3 (iblk m c 0 t : Vec Ideal S1x32x32 .f32) 0 h j = rd4 (m ((c : Thread nD τ).loc main_arg10)) t.val 0 h j := by
  rw [rd3_of_lt _ Nat.one_pos hh hj, rd4_of_lt _ (lt_N t) Nat.one_pos hh hj]
  unfold iblk
  rw [View.read_apply]
  show V m c main_v0 _ = _
  rw [V_main_v0]
  have e0 : ((((cfg0.win 0).blk t).view.emb (ix3 ⟨0, Nat.one_pos⟩ ⟨h, hh⟩ ⟨j, hj⟩)) 0).val = t.val := by
    show (BitVec.ofNat 32 ((grid0.coords t) 0).val).toNat * 1 + 1 * 0 = t.val
    rw [coords0, BitVec.toNat_ofNat, Nat.mod_eq_of_lt (by have := lt_N t; omega)]
    omega
  have e1 : ((((cfg0.win 0).blk t).view.emb (ix3 ⟨0, Nat.one_pos⟩ ⟨h, hh⟩ ⟨j, hj⟩)) 1).val = h := by
    show 0 * 32 + 1 * h = h; omega
  have e2 : ((((cfg0.win 0).blk t).view.emb (ix3 ⟨0, Nat.one_pos⟩ ⟨h, hh⟩ ⟨j, hj⟩)) 2).val = j := by
    show 0 * 32 + 1 * j = j; omega
  refine shapeCast_apply _ _ _ _ ?_
  rw [Shape.rowMajor_val_three, e0, e1, e2]
  show ((⟨4, ![8192, 1, 32, 32]⟩ : Shape).rowMajor _).val = _
  rw [Shape.rowMajor_val_four]
  show ((t.val * 1 + 0) * 32 + h) * 32 + j = (t.val * 32 + h) * 32 + j
  omega

/-- The ten parameter windows take their arrays whole: each block is the argument array itself. -/
theorem iblk1_eq (c : Dev nD) (t : Fin cfg0.N) :
    (iblk m c 1 t : Vec Ideal S5x32x256 .f32) = m ((c : Thread nD τ).loc main_arg0) := by
  unfold iblk
  funext x
  rw [View.read_apply]
  show V m c main_arg0 _ = _
  rw [V_main_arg0]
  refine congrArg (m ((c : Thread nD τ).loc main_arg0)) (funext fun a => Fin.ext ?_)
  match a with
  | ⟨0, _⟩ => show 0 * 5 + 1 * (x 0).val = (x 0).val; omega
  | ⟨1, _⟩ => show 0 * 32 + 1 * (x 1).val = (x 1).val; omega
  | ⟨2, _⟩ => show 0 * 256 + 1 * (x 2).val = (x 2).val; omega

theorem iblk2_eq (c : Dev nD) (t : Fin cfg0.N) :
    (iblk m c 2 t : Vec Ideal S1x256 .f32) = m ((c : Thread nD τ).loc main_arg1) := by
  unfold iblk
  funext x
  rw [View.read_apply]
  show V m c main_arg1 _ = _
  rw [V_main_arg1]
  refine congrArg (m ((c : Thread nD τ).loc main_arg1)) (funext fun a => Fin.ext ?_)
  match a with
  | ⟨0, _⟩ => show 0 * 1 + 1 * (x 0).val = (x 0).val; omega
  | ⟨1, _⟩ => show 0 * 256 + 1 * (x 1).val = (x 1).val; omega

theorem iblk3_eq (c : Dev nD) (t : Fin cfg0.N) :
    (iblk m c 3 t : Vec Ideal S5x128x256 .f32) = m ((c : Thread nD τ).loc main_arg2) := by
  unfold iblk
  funext x
  rw [View.read_apply]
  show V m c main_arg2 _ = _
  rw [V_main_arg2]
  refine congrArg (m ((c : Thread nD τ).loc main_arg2)) (funext fun a => Fin.ext ?_)
  match a with
  | ⟨0, _⟩ => show 0 * 5 + 1 * (x 0).val = (x 0).val; omega
  | ⟨1, _⟩ => show 0 * 128 + 1 * (x 1).val = (x 1).val; omega
  | ⟨2, _⟩ => show 0 * 256 + 1 * (x 2).val = (x 2).val; omega

theorem iblk4_eq (c : Dev nD) (t : Fin cfg0.N) :
    (iblk m c 4 t : Vec Ideal S1x256 .f32) = m ((c : Thread nD τ).loc main_arg3) := by
  unfold iblk
  funext x
  rw [View.read_apply]
  show V m c main_arg3 _ = _
  rw [V_main_arg3]
  refine congrArg (m ((c : Thread nD τ).loc main_arg3)) (funext fun a => Fin.ext ?_)
  match a with
  | ⟨0, _⟩ => show 0 * 1 + 1 * (x 0).val = (x 0).val; omega
  | ⟨1, _⟩ => show 0 * 256 + 1 * (x 1).val = (x 1).val; omega

theorem iblk5_eq (c : Dev nD) (t : Fin cfg0.N) :
    (iblk m c 5 t : Vec Ideal S5x128x128 .f32) = m ((c : Thread nD τ).loc main_arg4) := by
  unfold iblk
  funext x
  rw [View.read_apply]
  show V m c main_arg4 _ = _
  rw [V_main_arg4]
  refine congrArg (m ((c : Thread nD τ).loc main_arg4)) (funext fun a => Fin.ext ?_)
  match a with
  | ⟨0, _⟩ => show 0 * 5 + 1 * (x 0).val = (x 0).val; omega
  | ⟨1, _⟩ => show 0 * 128 + 1 * (x 1).val = (x 1).val; omega
  | ⟨2, _⟩ => show 0 * 128 + 1 * (x 2).val = (x 2).val; omega

theorem iblk6_eq (c : Dev nD) (t : Fin cfg0.N) :
    (iblk m c 6 t : Vec Ideal S1x128 .f32) = m ((c : Thread nD τ).loc main_arg5) := by
  unfold iblk
  funext x
  rw [View.read_apply]
  show V m c main_arg5 _ = _
  rw [V_main_arg5]
  refine congrArg (m ((c : Thread nD τ).loc main_arg5)) (funext fun a => Fin.ext ?_)
  match a with
  | ⟨0, _⟩ => show 0 * 1 + 1 * (x 0).val = (x 0).val; omega
  | ⟨1, _⟩ => show 0 * 128 + 1 * (x 1).val = (x 1).val; omega

theorem iblk7_eq (c : Dev nD) (t : Fin cfg0.N) :
    (iblk m c 7 t : Vec Ideal S128x128 .f32) = m ((c : Thread nD τ).loc main_arg6) := by
  unfold iblk
  funext x
  rw [View.read_apply]
  show V m c main_arg6 _ = _
  rw [V_main_arg6]
  refine congrArg (m ((c : Thread nD τ).loc main_arg6)) (funext fun a => Fin.ext ?_)
  match a with
  | ⟨0, _⟩ => show 0 * 128 + 1 * (x 0).val = (x 0).val; omega
  | ⟨1, _⟩ => show 0 * 128 + 1 * (x 1).val = (x 1).val; omega

theorem iblk8_eq (c : Dev nD) (t : Fin cfg0.N) :
    (iblk m c 8 t : Vec Ideal S1x128 .f32) = m ((c : Thread nD τ).loc main_arg7) := by
  unfold iblk
  funext x
  rw [View.read_apply]
  show V m c main_arg7 _ = _
  rw [V_main_arg7]
  refine congrArg (m ((c : Thread nD τ).loc main_arg7)) (funext fun a => Fin.ext ?_)
  match a with
  | ⟨0, _⟩ => show 0 * 1 + 1 * (x 0).val = (x 0).val; omega
  | ⟨1, _⟩ => show 0 * 128 + 1 * (x 1).val = (x 1).val; omega

theorem iblk9_eq (c : Dev nD) (t : Fin cfg0.N) :
    (iblk m c 9 t : Vec Ideal S128x128 .f32) = m ((c : Thread nD τ).loc main_arg8) := by
  unfold iblk
  funext x
  rw [View.read_apply]
  show V m c main_arg8 _ = _
  rw [V_main_arg8]
  refine congrArg (m ((c : Thread nD τ).loc main_arg8)) (funext fun a => Fin.ext ?_)
  match a with
  | ⟨0, _⟩ => show 0 * 128 + 1 * (x 0).val = (x 0).val; omega
  | ⟨1, _⟩ => show 0 * 128 + 1 * (x 1).val = (x 1).val; omega

theorem iblk10_eq (c : Dev nD) (t : Fin cfg0.N) :
    (iblk m c 10 t : Vec Ideal S1x128 .f32) = m ((c : Thread nD τ).loc main_arg9) := by
  unfold iblk
  funext x
  rw [View.read_apply]
  show V m c main_arg9 _ = _
  rw [V_main_arg9]
  refine congrArg (m ((c : Thread nD τ).loc main_arg9)) (funext fun a => Fin.ext ?_)
  match a with
  | ⟨0, _⟩ => show 0 * 1 + 1 * (x 0).val = (x 0).val; omega
  | ⟨1, _⟩ => show 0 * 128 + 1 * (x 1).val = (x 1).val; omega

/-- The network's parameters read off the eleven argument arrays as launched. -/
abbrev PP (c : Dev nD) : Cert.Net.Params :=
  Cert.Net.paramsOf (m ((c.tc : Thread nD τ).loc main_arg0))
    (m ((c.tc : Thread nD τ).loc main_arg1))
    (m ((c.tc : Thread nD τ).loc main_arg2))
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))

/-- What the body leaves in the output block at point t: column q of its one row is the network's output for image t. -/
theorem outsAt_rd (c : Dev nD) (t : Fin cfg0.N) (q : ℕ) (hq : q < 128) :
    rd3 (outsAt0 m c t : Vec Ideal S1x1x128 .f32) 0 0 q = Cert.Net.out (PP m c) t.val q := by
  have hX : ∀ h j, h < 32 → j < 32 → rd3 (iblk m c 0 t : Vec Ideal S1x32x32 .f32) 0 h j = (PP m c).X t.val h j :=
    fun h j hh hj => iblk0_apply m c t h j hh hj
  have hp1 : ∀ r c', r < 14 → c' < 128 →
      rd2 (p1 (iblk m c 0 t : Vec Ideal S1x32x32 .f32) (iblk m c 1 t : Vec Ideal S5x32x256 .f32) (iblk m c 2 t : Vec Ideal S1x256 .f32)) r c'
        = Cert.Net.pool1 (PP m c) t.val r c' :=
    fun r c' hr hc' => p1_rd (PP m c) t.val _ _ _ hX (fun d j c'' _ _ _ => by rw [iblk1_eq]; rfl)
      (fun c'' _ => by rw [iblk2_eq]; rfl) r c' hr hc'
  have hp2 : ∀ r c', r < 5 → c' < 128 →
      rd2 (p2 (iblk m c 0 t : Vec Ideal S1x32x32 .f32) (iblk m c 1 t : Vec Ideal S5x32x256 .f32) (iblk m c 2 t : Vec Ideal S1x256 .f32)
          (iblk m c 3 t : Vec Ideal S5x128x256 .f32) (iblk m c 4 t : Vec Ideal S1x256 .f32)) r c'
        = Cert.Net.pool2 (PP m c) t.val r c' :=
    fun r c' hr hc' => p2_rd (PP m c) t.val _ _ _ _ _ hp1 (fun d j c'' _ _ _ => by rw [iblk3_eq]; rfl)
      (fun c'' _ => by rw [iblk4_eq]; rfl) r c' hr hc'
  unfold outsAt0
  rw [out_eq]
  exact refBody_rd (PP m c) t.val _ _ _ _ _ _ _ _ _ _ _ hp2 (fun h j c'' _ _ _ => by rw [iblk5_eq]; rfl)
    (fun c'' _ => by rw [iblk6_eq]; rfl) (fun j c'' _ _ => by rw [iblk7_eq]; rfl) (fun c'' _ => by rw [iblk8_eq]; rfl)
    (fun j c'' _ _ => by rw [iblk9_eq]; rfl) (fun c'' _ => by rw [iblk10_eq]; rfl) q hq

/-- The array the region leaves in the custom call's result: row (n, 0) is the network's output for image n. -/
def G (c : Dev nD) : Buf (Elt Ideal) ((c.tc : Thread nD τ).loc main_v1) :=
  fun (i : S8192x1x128.Idx) => Cert.Net.out (PP m c) (i 0).val (i 2).val

/-- The output window's block index at point t is (t, 0, 0). -/
theorem index11_0 (t : Fin cfg0.N) : win0_11.index t 0 = t.val := by
  show (BitVec.ofNat 32 ((grid0.coords t) 0).val).toNat = t.val
  rw [coords0, BitVec.toNat_ofNat, Nat.mod_eq_of_lt (by have := lt_N t; omega)]

/-- What point t writes back is block t of that array. -/
theorem flushed_eq (c : Dev nD) (t : Fin cfg0.N) (hf : (cfg0.win 11).flush t = true) :
    (dats m 0 c).flushed 11 t = ((cfg0.win 11).blk t).view.read (Elt Ideal) (G m c) := by
  show (cfg0.win 11).cut (grid0.coords t) ((dats m 0 c).after 11 t) = _
  rw [after0_11]
  funext x
  rw [View.read_apply]
  have hx0 : (x 0).val = 0 := by have h : (x 0).val < 1 := (x 0).isLt; omega
  have hx1 : (x 1).val = 0 := by have h : (x 1).val < 1 := (x 1).isLt; omega
  have hx2 : (x 2).val < 128 := (x 2).isLt
  have key := outsAt_rd m c t (x 2).val hx2
  rw [rd3_of_lt _ Nat.one_pos Nat.one_pos hx2] at key
  have hxe : (cfg0.win 11).xinj (grid0.coords t) x = ix3 ⟨0, Nat.one_pos⟩ ⟨0, Nat.one_pos⟩ ⟨(x 2).val, hx2⟩ :=
    funext fun a => Fin.ext (by
      match a with
      | ⟨0, _⟩ => exact hx0
      | ⟨1, _⟩ => exact hx1
      | ⟨2, _⟩ => rfl)
  show outsAt0 m c t ((cfg0.win 11).xinj (grid0.coords t) x) = G m c (((cfg0.win 11).blk t).view.emb x)
  rw [hxe, key]
  show Cert.Net.out (PP m c) t.val (x 2).val
    = Cert.Net.out (PP m c) ((((cfg0.win 11).blk t).view.emb x) 0).val ((((cfg0.win 11).blk t).view.emb x) 2).val
  congr 1
  · show t.val = win0_11.index t 0 * 1 + 1 * (x 0).val
    rw [index11_0, hx0]
    omega
  · show (x 2).val = 0 * 128 + 1 * (x 2).val
    omega

/-- Every row of the array is some point's block: row n is point n's. -/
theorem cover (c : Dev nD) (i : ((cfg0.win 11).arr.view.loc (c.tc : Thread nD τ)).2.ty.Idx) :
    ∃ t : Fin cfg0.N, (cfg0.win 11).flush t = true ∧ i ∈ ((cfg0.win 11).blk t).view.set := by
  have hi0 : (i 0).val < 8192 := (i 0).isLt
  have hi1 : (i 1).val < 1 := (i 1).isLt
  have hi2 : (i 2).val < 128 := (i 2).isLt
  have ht : (i 0).val < cfg0.N := by rw [show cfg0.N = 8192 from N_0]; exact hi0
  refine ⟨⟨(i 0).val, ht⟩, flush0_11 _, ?_⟩
  show i ∈ ((View.whole main_v1).slice (win0_11.rect ⟨(i 0).val, ht⟩)).set
  rw [View.set_slice_whole, Rect.mem_set_unit]
  intro a
  match a with
  | ⟨0, _⟩ =>
    show win0_11.index ⟨(i 0).val, ht⟩ 0 * 1 ≤ (i 0).val ∧ (i 0).val < win0_11.index ⟨(i 0).val, ht⟩ 0 * 1 + 1
    rw [index11_0]
    show (i 0).val * 1 ≤ (i 0).val ∧ (i 0).val < (i 0).val * 1 + 1
    omega
  | ⟨1, _⟩ => show 0 * 1 ≤ (i 1).val ∧ (i 1).val < 0 * 1 + 1; omega
  | ⟨2, _⟩ => show 0 * 128 ≤ (i 2).val ∧ (i 2).val < 0 * 128 + 128; omega

/-- So the custom call's result array ends holding it. -/
theorem final (c : Dev nD) : (dats m 0 c).arrAt 11 cfg0.N = G m c :=
  (dats m 0 c).arrAt_eq_of_cover 11 (G m c) (flushed_eq m c) (fun i => cover c i)

/-- The host's cut to ten columns and reshape of an [8192, 1, 128] array reads entry (n, q) at (n, 0, q). -/
theorem tail_pure (A : S8192x1x128.Idx → EReal) (i : S8192x10.Idx) (h0 : (i 0).val < 8192) (h1 : (i 1).val < 128) :
    shapeCast S8192x10 (extractStridedSlice S8192x1x10 ![0, 0, 0] A slices_S8192x1x128_S8192x1x10_0_0_0)
        shapeCasts_S8192x1x10_S8192x10 i
      = A (ix3 (⟨(i 0).val, h0⟩ : Fin 8192) (0 : Fin 1) (⟨(i 1).val, h1⟩ : Fin 128)) := by
  have h1' : (i 1).val < 10 := (i 1).isLt
  refine (shapeCast_apply _ _ i (ix3 (⟨(i 0).val, h0⟩ : Fin 8192) (0 : Fin 1) (⟨(i 1).val, h1'⟩ : Fin 10)) ?_).trans ?_
  · rw [Shape.rowMajor_val_three]
    show _ = ((⟨2, ![8192, 10]⟩ : Shape).rowMajor i).val
    rw [Shape.rowMajor_val_two]
    show ((i 0).val * 1 + 0) * 10 + (i 1).val = (i 0).val * 10 + (i 1).val
    omega
  · refine extractStridedSlice_apply _ _ _ _ _ fun a => ?_
    match a with
    | ⟨0, _⟩ => show (i 0).val = 0 + (i 0).val; omega
    | ⟨1, _⟩ => show 0 = 0 + 0; rfl
    | ⟨2, _⟩ => show (i 1).val = 0 + (i 1).val; omega

/-- After the host's cut and reshape the result array is the network's result. -/
theorem tail_eq (c : Dev nD) :
    Pipeline.afterTail₀ cfgs (dats m) 0 (V0 m) [hostOps1] c main_v3 = Cert.Net.result (PP m c) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v1) = G m c :=
    (Pipeline.withArrays_arr spec0 launch0.win.arr_inj c _ _ 11).trans (final m c)
  funext i
  have h0 : (i 0).val < 8192 := (i 0).isLt
  have h1 : (i 1).val < 128 := by have h : (i 1).val < 10 := (i 1).isLt; omega
  show shapeCast S8192x10 (extractStridedSlice S8192x1x10 ![0, 0, 0]
      (Pipeline.withArrays (cfgs 0).spec c (V0 m c) (fun w => (dats m 0 c).arrAt w (cfgs 0).N) (Proc.devRef .tc main_v1))
      slices_S8192x1x128_S8192x1x10_0_0_0) shapeCasts_S8192x1x10_S8192x10 i = _
  rw [e, tail_pure _ i h0 h1]
  rfl

/-- The reference program's run: its result array is the network's 8192 × 10 result on the launch contents of its
    eleven arguments, and the arguments end as launched. -/
theorem run : θ_run (defs (F := Ideal)) (onTc (τ := τ) (main (F := Ideal))) ⟨m, fun _ => 0, ρ⟩ (fun r => ∀ c : Dev nD,
      r.2.mem ((c.tc : Thread nD τ).loc main_v3)
        = Cert.Net.result (Cert.Net.paramsOf (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v3 (Pipeline.mem_restRefs_of main_v3 (by decide) (by decide))).trans (tail_eq m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).1 7).trans (((dats m 0 c).arrAt_in 7 rfl _).trans ((A_eq m c 7).trans (V_main_arg6 m c))),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c))),
      ((h c).2 main_arg10 (Pipeline.mem_restRefs_of main_arg10 (by decide) (by decide))).trans (W_main_arg10 m (dats m) c)⟩)
    (run_main m ρ)

end Run

end Cert.ReferenceIdeal.RefValue
end
-- ==== Proof.lean ====
/-
  Two programs compute one small convolutional network on 8192 images of 32×32 values: two 5-tap banded
  convolutions, each followed by a bias, a maximum with zero and a 2×2 maximum, then three dense layers. The
  reference runs one image per grid point with the taps applied as five shifted products. The kernel runs 1024
  images per grid point: each image is laid out as four rows of eight image rows, the taps are folded once, at the
  first grid point, into block-banded weight matrices kept for the later points, so that every convolution row is
  one "plane" of a single wide product, the pooling is an entrywise maximum between planes, and the dense layers
  read the pooled rows from three consecutive rows. At the ideal values (every format change the identity, every
  product into a zero accumulator a plain sum over the extended reals) both end with the same 8192 × 10 array:
  Net.result of the parameters read off the eleven arguments (Net.lean). The kernel side is PlaneAlgebra.lean (the
  banded sums are the convolution rows; only 0 · x = 0 and the commutative monoid laws of the extended reals are
  used, so the precondition is not opened), KerBody.lean / KerOut.lean (the body's values are the plane arrangement),
  KerWeights.lean (what the assembled weight arrays hold), KerRun.lean (the run); the reference side is RefValue.lean.
  No rewrite was made when the kernel was read at the ideal values, so the fourth claim is trivial; the three frame
  claims are the programs' frame runs.
-/
import proofs.«128838_g2000305662181196_pallasbulk_93_52_alg».proof.Defs
import proofs.«128838_g2000305662181196_pallasbulk_93_52_alg».proof.Proof.Gen.Kernel
import proofs.«128838_g2000305662181196_pallasbulk_93_52_alg».proof.Proof.Gen.KernelIdeal
import proofs.«128838_g2000305662181196_pallasbulk_93_52_alg».proof.Proof.Gen.ReferenceIdeal
import proofs.«128838_g2000305662181196_pallasbulk_93_52_alg».proof.Proof.Gen.ReferenceIdeal.Frame
import proofs.«128838_g2000305662181196_pallasbulk_93_52_alg».proof.Proof.Gen.Pre_finite_inputs
import proofs.«128838_g2000305662181196_pallasbulk_93_52_alg».proof.Proof.KernelFrame
import proofs.«128838_g2000305662181196_pallasbulk_93_52_alg».proof.Proof.KernelIdealFrameRun
import proofs.«128838_g2000305662181196_pallasbulk_93_52_alg».proof.Proof.KerRun
import proofs.«128838_g2000305662181196_pallasbulk_93_52_alg».proof.Proof.RefValue
import Idealize.ShloMosaic.Adequacy
import Idealize.ShloMosaic.Init

noncomputable section

namespace Cert.Proof

open Idealize.ShloMosaic Idealize.SL.Sem

/-- From memories that agree on the eleven arguments both programs end with the network's outputs of those
    arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Net.result (Cert.KernelIdeal.Run.params m c), Cert.KernelIdeal.Run.run m ρ, ?_⟩
  refine (θ_run (Cert.ReferenceIdeal.defs (F := Ideal)) _ _).mono (fun r h c => ⟨(h c).1.trans ?_, (h c).2⟩)
    (Cert.ReferenceIdeal.RefValue.run m' ρ')
  unfold Cert.KernelIdeal.Run.params
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.GenP.frame m ρ,
    fun m ρ _ => Cert.KernelIdeal.GenP.frame m ρ,
    fun m ρ _ => Cert.ReferenceIdeal.Gen.frame m ρ,
    trivial,
    algebraic⟩

end Cert.Proof

end
